-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S200x64 : Shape := ⟨2, ![200, 64]⟩
abbrev S_ : Shape := ⟨0, ![]⟩

class Facts : Prop where
  bcast_S_S200x64 : S_.BroadcastsInDim S200x64 (![] : Fin 0 → Fin S200x64.rank)
  reducesTo_S200x64_S_d0_1 : S200x64.ReducesTo [0, 1] S_
  h_S_ : 0 < S_.numel
  bcast_S_S4096x200 : S_.BroadcastsInDim S4096x200 (![] : Fin 0 → Fin S4096x200.rank)
  reducesTo_S4096x200_S_d0_1 : S4096x200.ReducesTo [0, 1] S_

variable [Facts]

def fn {F : FTy → Type} [FloatOps F] (main_arg0 : IVec S4096x200 32) (main_arg1 : FVec F S200x64 .f32) : IVec S_ 1 :=
  let main_v0 : FVec F S200x64 .f32 := Host.absf main_arg1
  let main_cst : FVec F S_ .f32 := constant S_ .f32 0x7F800000#32
  let main_v1 : FVec F S200x64 .f32 := broadcastInDim S200x64 ![] bcast_S_S200x64 main_cst
  let main_v2 : IVec S200x64 1 := cmpf .olt main_v0 main_v1
  let main_c : IVec S_ 1 := constantI S_ 1 1#1
  let main_v3 : IVec S_ 1 := (fun x v => Host.reduce IntOp.andi x v reducesTo_S200x64_S_d0_1 h_S_) main_v2 main_c
  let main_c_0 : IVec S_ 32 := constantI S_ 32 0#32
  let main_v4 : IVec S4096x200 32 := broadcastInDim S4096x200 ![] bcast_S_S4096x200 main_c_0
  let main_v5 : IVec S4096x200 1 := cmpi .sge main_arg0 main_v4
  let main_c_1 : IVec S_ 32 := constantI S_ 32 199#32
  let main_v6 : IVec S4096x200 32 := broadcastInDim S4096x200 ![] bcast_S_S4096x200 main_c_1
  let main_v7 : IVec S4096x200 1 := cmpi .sle main_arg0 main_v6
  let main_v8 : IVec S4096x200 1 := andi main_v5 main_v7
  let main_c_2 : IVec S_ 1 := constantI S_ 1 1#1
  let main_v9 : IVec S_ 1 := (fun x v => Host.reduce IntOp.andi x v reducesTo_S4096x200_S_d0_1 h_S_) main_v8 main_c_2
  let main_v10 : IVec S_ 1 := andi main_v3 main_v9
  main_v10
-- ==== Kernel.lean ====
abbrev S4096x200 : Shape := ⟨2, ![4096, 200]⟩
abbrev S200x64 : Shape := ⟨2, ![200, 64]⟩
abbrev S12800 : Shape := ⟨1, ![12800]⟩
abbrev S4096x12800 : Shape := ⟨2, ![4096, 12800]⟩
abbrev S2x12800 : Shape := ⟨2, ![2, 12800]⟩
abbrev S16x12800 : Shape := ⟨2, ![16, 12800]⟩
abbrev S_ : Shape := ⟨0, ![]⟩
abbrev S1x12800 : Shape := ⟨2, ![1, 12800]⟩
abbrev S4096x200x64 : Shape := ⟨3, ![4096, 200, 64]⟩

abbrev nBuf : Table → Nat
  | .hbm => 5
  | .shared => 1
  | .local .scVector .vmem => 1
  | _ => 0

abbrev bufTy : (tb : Table) → Fin (nBuf tb) → BufTy
  | .hbm, ⟨0, _⟩ => ⟨S4096x200, .i32⟩
  | .hbm, ⟨1, _⟩ => ⟨S200x64, .f32⟩
  | .hbm, ⟨2, _⟩ => ⟨S12800, .f32⟩
  | .hbm, ⟨3, _⟩ => ⟨S4096x12800, .f32⟩
  | .hbm, ⟨4, _⟩ => ⟨S4096x200x64, .f32⟩
  | .shared, ⟨0, _⟩ => ⟨S16x12800, .f32⟩
  | .local .scVector .vmem, ⟨0, _⟩ => ⟨S2x12800, .f32⟩
  | _, _ => ⟨S4096x200, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 5 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_v1_scv : Ref sig .scVector := ⟨.hbm, 3, rfl⟩
abbrev cc0_scratch1 : Ref sig .scVector := ⟨.shared, 0, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c1_i32_0 : BitVec 32 := 1#32
  let v0 : BitVec 32 := Scalar.muli arg1 c1_i32_0
  let c0_i32_1 : BitVec 32 := 0#32
  let v1 : BitVec 32 := Scalar.addi v0 c0_i32_1
  let c0_i32_174_r2 : BitVec 32 := 0#32
  ![v1.toNat, 0]
def k0_off2 (i : grid0.Coords) (c0_i32_3 : BitVec 32) : Fin 2 → Nat :=
  let arg0 : BitVec 32 := BitVec.ofNat 32 (i 0).val
  let c2048_i32_2 : BitVec 32 := 2048#32
  let v5 : BitVec 32 := Scalar.muli arg0 c2048_i32_2
  let c1280_i32 : BitVec 32 := 1280#32
  let v6 : BitVec 32 := Scalar.addi v5 c1280_i32
  let arg1 : BitVec 32 := BitVec.ofNat 32 (i 1).val
  let c48_i32 : BitVec 32 := 48#32
  let v7 : BitVec 32 := Scalar.muli arg1 c48_i32
  let v8 : BitVec 32 := Scalar.addi v6 v7
  let v9 : BitVec 32 := Scalar.addi v8 c0_i32_3
  let c0_i32_4 : BitVec 32 := 0#32
  ![v9.toNat, 0]
def k0_off3 (i : grid0.Coords) (c0_i32_7 : BitVec 32) : Fin 2 → Nat :=
  let arg0 : BitVec 32 := BitVec.ofNat 32 (i 0).val
  let c2048_i32 : BitVec 32 := 2048#32
  let v2 : BitVec 32 := Scalar.muli arg0 c2048_i32
  let arg1 : BitVec 32 := BitVec.ofNat 32 (i 1).val
  let c80_i32 : BitVec 32 := 80#32
  let v3 : BitVec 32 := Scalar.muli arg1 c80_i32
  let v4 : BitVec 32 := Scalar.addi v2 v3
  let v15 : BitVec 32 := Scalar.addi v4 c0_i32_7
  let c0_i32_8 : BitVec 32 := 0#32
  ![v15.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S200x64_S12800 : S200x64.ShapeCasts S12800
  inb_S2x12800_S1x12800_0_0 : ∀ a, (![0, 0] : Fin 2 → Nat) a + S1x12800.size a ≤ S2x12800.size a
  squeezes_S1x12800_S12800 : S1x12800.Squeezes S12800
  inb_S2x12800_S1x12800_1_0 : ∀ a, (![1, 0] : Fin 2 → Nat) a + S1x12800.size a ≤ S2x12800.size a
  shapeCasts_S4096x12800_S4096x200x64 : S4096x12800.ShapeCasts S4096x200x64
  hcc0_scratch2 : 0 + S_.numel ≤ 5
  hcc0_scratch3 : 1 + S_.numel ≤ 5
  hcc0_scoped0 : 2 + S_.numel ≤ 5
  hcc0_scoped1 : 3 + S_.numel ≤ 5
  hcc0_scoped2 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x12800.size a ≤ S16x12800.size a
  k0_off2_inb : ∀ i : grid0.Coords, ∀ (r : Fin 3), ∀ a, (k0_off2 i (BitVec.ofNat 32 (16 * r.val))) a + S16x12800.size a ≤ S4096x12800.size a
  k0_off3_inb : ∀ i : grid0.Coords, ∀ (r : Fin 40), ∀ a, (k0_off3 i (BitVec.ofNat 32 (2 * r.val))) a + S2x12800.size a ≤ S4096x12800.size a

variable [Facts₀]

abbrev cc0_scratch2 : DmaSems sig S_ := SemArray.consecutive 0 S_ hcc0_scratch2
abbrev cc0_scratch3 : DmaSems sig S_ := SemArray.consecutive 1 S_ hcc0_scratch3
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2

class Facts : Prop extends Facts₀ where

variable [Facts]
-- ==== ReferenceIdeal.lean ====
abbrev S4096x200 : Shape := ⟨2, ![4096, 200]⟩
abbrev S200x64 : Shape := ⟨2, ![200, 64]⟩
abbrev S200 : Shape := ⟨1, ![200]⟩
abbrev S1x200 : Shape := ⟨2, ![1, 200]⟩
abbrev S1x1x1x200 : Shape := ⟨4, ![1, 1, 1, 200]⟩
abbrev S4096x1x1x200 : Shape := ⟨4, ![4096, 1, 1, 200]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x64 : Shape := ⟨3, ![4096, 200, 64]⟩

abbrev nBuf : Space → Nat
  | .hbm => 30
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S200x64, .f32⟩
  | .hbm, ⟨2, _⟩ => ⟨S200, .i32⟩
  | .hbm, ⟨3, _⟩ => ⟨S1x200, .i32⟩
  | .hbm, ⟨4, _⟩ => ⟨S1x1x1x200, .i32⟩
  | .hbm, ⟨5, _⟩ => ⟨S4096x1x1x200, .i32⟩
  | .hbm, ⟨6, _⟩ => ⟨S4096x200, .i32⟩
  | .hbm, ⟨7, _⟩ => ⟨S_, .i32⟩
  | .hbm, ⟨8, _⟩ => ⟨S4096x200, .i32⟩
  | .hbm, ⟨9, _⟩ => ⟨S4096x200, .i1⟩
  | .hbm, ⟨10, _⟩ => ⟨S_, .i32⟩
  | .hbm, ⟨11, _⟩ => ⟨S4096x200, .i32⟩
  | .hbm, ⟨12, _⟩ => ⟨S4096x200, .i32⟩
  | .hbm, ⟨13, _⟩ => ⟨S4096x200, .i32⟩
  | .hbm, ⟨14, _⟩ => ⟨S4096x200x1, .i32⟩
  | .hbm, ⟨15, _⟩ => ⟨S1, .i32⟩
  | .hbm, ⟨16, _⟩ => ⟨S_, .i32⟩
  | .hbm, ⟨17, _⟩ => ⟨S4096x200x1, .i32⟩
  | .hbm, ⟨18, _⟩ => ⟨S4096x200x1, .i1⟩
  | .hbm, ⟨19, _⟩ => ⟨S1x1x1, .i32⟩
  | .hbm, ⟨20, _⟩ => ⟨S4096x200x1, .i32⟩
  | .hbm, ⟨21, _⟩ => ⟨S4096x200x1, .i1⟩
  | .hbm, ⟨22, _⟩ => ⟨S4096x200x1, .i1⟩
  | .hbm, ⟨23, _⟩ => ⟨S_, .i1⟩
  | .hbm, ⟨24, _⟩ => ⟨S4096x200, .i1⟩
  | .hbm, ⟨25, _⟩ => ⟨S4096x200x64, .f32⟩
  | .hbm, ⟨26, _⟩ => ⟨S4096x200x64, .i1⟩
  | .hbm, ⟨27, _⟩ => ⟨S_, .f32⟩
  | .hbm, ⟨28, _⟩ => ⟨S4096x200x64, .f32⟩
  | .hbm, ⟨29, _⟩ => ⟨S4096x200x64, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v5 : Ref sig .tc := ⟨.hbm, 29, rfl⟩

abbrev nD : Nat := 1
abbrev τ : Topo := Topo.v7x

variable {F : FTy → Type} [FloatOps F]

class Facts₀ : Prop where
  bcast_S200_S1x200_1 : S200.BroadcastsInDim S1x200 (![1] : Fin 1 → Fin S1x200.rank)
  shapeCasts_S1x200_S1x1x1x200 : S1x200.ShapeCasts S1x1x1x200
  bcast_S1x1x1x200_S4096x1x1x200_0_1_2_3 : S1x1x1x200.BroadcastsInDim S4096x1x1x200 (![0, 1, 2, 3] : Fin 4 → Fin S4096x1x1x200.rank)
  shapeCasts_S4096x1x1x200_S4096x200 : S4096x1x1x200.ShapeCasts S4096x200
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x64_0_1 : S4096x200.BroadcastsInDim S4096x200x64 (![0, 1] : Fin 2 → Fin S4096x200x64.rank)
  bcast_S_S4096x200x64 : S_.BroadcastsInDim S4096x200x64 (![] : Fin 0 → Fin S4096x200x64.rank)
  gather_S200x64_S4096x200x1_S4096x200x64_2_0_n_n_0_2_164_wf : GatherDims.WF S200x64 S4096x200x1 S4096x200x64 [2] [0] [] [0] [] 2 ![1, 64]

variable [Facts₀]

def gather_S200x64_S4096x200x1_S4096x200x64_2_0_n_n_0_2_164 : GatherDims S200x64 S4096x200x1 S4096x200x64 where
  offsetDims := [2]
  collapsedSliceDims := [0]
  operandBatchingDims := []
  startIndicesBatchingDims := []
  startIndexMap := [0]
  indexVectorDim := 2
  sliceSizes := ![1, 64]
  wf := gather_S200x64_S4096x200x1_S4096x200x64_2_0_n_n_0_2_164_wf

class Facts : Prop extends Facts₀ where

variable [Facts]
-- ==== Proof.SetupB.lean ====
/-
  The broadcast kernel as the SparseCore launch theorem sees it: the configuration of the one call, the ghost state
  (the handshakes' rounds, the barrier cells' rounds, the transfers' counters), the arrays' locations, and the
  geometry of the rows each vector subcore writes.

  The kernel runs on 2 SparseCores x 16 vector subcores. Subcore s of SparseCore c copies the flattened table
  (12800 numbers) into both rows of its own 2-row buffer and into row s of its SparseCore's shared 16-row scratch;
  all sixteen meet at the subcore barrier, after which every row of the shared scratch holds the flattened table;
  then it sends the shared scratch (16 rows at a time, 3 times) to rows 2048 c + 1280 + 48 s + 16 k of the output and
  its own buffer (2 rows at a time, 40 times) to rows 2048 c + 80 s + 2 k, and waits for all 43 copies.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«213620_g48704929136794_cont_8to1c4_761_22_alg».proof.Proof.Gen.Kernel
import proofs.«213620_g48704929136794_cont_8to1c4_761_22_alg».proof.Proof.Gen.Kernel.Skeleton

noncomputable section

namespace Cert.Proof.BcastB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

end Cert.Proof.BcastB

end
-- ==== Proof.GeomB.lean ====
/-
  Where the arrays are and which elements each copy touches.

  The output has 4096 rows of 12800 numbers. SparseCore c owns rows 2048 c … 2048 c + 2047: the first 1280 of them
  are written two at a time from the subcores' own buffers (subcore s: rows 2048 c + 80 s + 2 k, k < 40), the last
  768 sixteen at a time from the shared scratch (subcore s: rows 2048 c + 1280 + 48 s + 16 k, k < 3). A range of
  rows cut into equal consecutive chunks is held chunk by chunk: the one splitting law everything here uses.
-/
import proofs.«213620_g48704929136794_cont_8to1c4_761_22_alg».proof.Proof.SetupB

noncomputable section

namespace Cert.Proof.BcastB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "fV" => (Memref.whole Cert.Kernel.main_v0_scv : Memref Cert.Kernel.sig Kind.scVector Space.hbm Cert.Kernel.S12800 EltTy.f32)
local notation "oV" => (Memref.whole Cert.Kernel.main_v1_scv : Memref Cert.Kernel.sig Kind.scVector Space.hbm Cert.Kernel.S4096x12800 EltTy.f32)
local notation "bV" => (Memref.whole Cert.Kernel.cc0_scratch0 : Memref Cert.Kernel.sig Kind.scVector Space.vmem Cert.Kernel.S2x12800 EltTy.f32)
local notation "shV" => (Memref.whole Cert.Kernel.cc0_scratch1 : Memref Cert.Kernel.sig Kind.scVector Space.shared Cert.Kernel.S16x12800 EltTy.f32)

/-! ## Places and locations -/

abbrev cV (L : grid0.Coords) : Fin τ.nSC := (L 0).castLE hcore0
abbrev jV (L : grid0.Coords) : Fin τ.nSub := (L 1).castLE hsub0
/-- The vector subcore at grid coordinates `L` of device `d`. -/
abbrev thrV (d : Dev nD) (L : grid0.Coords) : Thread nD τ := V d (cV L) (jV L)

/-- The flattened table, the output, a subcore's own two-row buffer, a SparseCore's shared sixteen-row scratch. -/
abbrev flLoc (d : Dev nD) : Loc nD τ sig := (SparseCore.T d).loc main_v0
abbrev oLoc (d : Dev nD) : Loc nD τ sig := (SparseCore.T d).loc main_v1
abbrev bLoc (d : Dev nD) (L : grid0.Coords) : Loc nD τ sig := (thrV d L).loc cc0_scratch0
abbrev shRef (c : Fin τ.nSC) : DevRef τ sig := ⟨.shared, ⟨0, by decide⟩, c⟩
abbrev shLoc (d : Dev nD) (c : Fin τ.nSC) : Loc nD τ sig := (d, shRef c)

/-- Row `L 1` of the shared scratch, as the subcore addresses it. -/
abbrev shRowK (L : grid0.Coords) : Memref sig .scVector .shared S12800 .f32 :=
  ((shV).slice (Rect.unit (s := S16x12800) (k0_off1 L) S1x12800.size (k0_off1_inb L)) (fun _ => rfl)).squeeze S12800 squeezes_S1x12800_S12800
/-- The k-th sixteen-row window the subcore fills from the shared scratch, and the k-th two-row window it fills from
    its own buffer. -/
abbrev dmWin (L : grid0.Coords) (r : Fin 3) : Memref sig .scVector .hbm S16x12800 .f32 :=
  (oV).slice (Rect.unit (s := S4096x12800) (k0_off2 L (BitVec.ofNat 32 (16 * r.val))) S16x12800.size (k0_off2_inb L r)) (fun _ => rfl)
abbrev stWin (L : grid0.Coords) (r : Fin 40) : Memref sig .scVector .hbm S2x12800 .f32 :=
  (oV).slice (Rect.unit (s := S4096x12800) (k0_off3 L (BitVec.ofNat 32 (2 * r.val))) S2x12800.size (k0_off3_inb L r)) (fun _ => rfl)

/-! ## Ranges of rows of the output -/

theorem rows_inb (lo len : ℕ) (h : lo + len ≤ 4096) :
    ∀ a, (![lo, 0] : Fin 2 → ℕ) a + (![len, 12800] : Fin 2 → ℕ) a ≤ S4096x12800.size a := by
  intro a
  match a with
  | ⟨0, _⟩ => exact h
  | ⟨1, _⟩ => exact Nat.le_refl _

/-- Rows `lo … lo + len - 1` of the output, every column. -/
def rowsSet (lo len : ℕ) (h : lo + len ≤ 4096) : Finset S4096x12800.Idx :=
  (Rect.unit (s := S4096x12800) ![lo, 0] ![len, 12800] (rows_inb lo len h)).set

theorem mem_rowsSet {lo len : ℕ} {h : lo + len ≤ 4096} {i : S4096x12800.Idx} :
    i ∈ rowsSet lo len h ↔ lo ≤ (i 0).val ∧ (i 0).val < lo + len := by
  unfold rowsSet
  rw [Rect.mem_set_unit]
  constructor
  · intro H; exact H 0
  · intro H a
    match a with
    | ⟨0, _⟩ => exact H
    | ⟨1, _⟩ => exact ⟨Nat.zero_le _, (i 1).isLt⟩

theorem rowsSet_disjoint {lo len lo' len' : ℕ} {h : lo + len ≤ 4096} {h' : lo' + len' ≤ 4096}
    (hd : lo + len ≤ lo' ∨ lo' + len' ≤ lo) : Disjoint (rowsSet lo len h) (rowsSet lo' len' h') := by
  rw [Finset.disjoint_left]
  intro i hi hi'
  rw [mem_rowsSet] at hi hi'
  omega

theorem rowsSet_univ : rowsSet 0 4096 (Nat.le_refl _) = Finset.univ := by
  ext i
  simp only [mem_rowsSet, Finset.mem_univ, iff_true]
  exact ⟨Nat.zero_le _, by have := (i 0).isLt; simpa using this⟩

theorem chunk_le (k n : ℕ) (j : Fin n) : k * j.val + k ≤ n * k := by
  have h := Nat.mul_le_mul_left k (Nat.succ_le_of_lt j.isLt)
  rw [Nat.mul_succ] at h
  rw [Nat.mul_comm n k]; exact h

theorem chunk_inb (lo k n : ℕ) (h : lo + n * k ≤ 4096) (j : Fin n) : lo + k * j.val + k ≤ 4096 := by
  have := chunk_le k n j; omega

/-- A range of `n k` rows is its `n` consecutive chunks of `k` rows. -/
theorem rowsSet_chunks (lo k n : ℕ) (hk : 0 < k) (h : lo + n * k ≤ 4096) :
    (Finset.univ : Finset (Fin n)).biUnion (fun j => rowsSet (lo + k * j.val) k (chunk_inb lo k n h j)) = rowsSet lo (n * k) h := by
  ext i
  simp only [Finset.mem_biUnion, Finset.mem_univ, true_and, mem_rowsSet]
  constructor
  · rintro ⟨j, h1, h2⟩
    have := chunk_le k n j
    omega
  · rintro ⟨h1, h2⟩
    have hlt : ((i 0).val - lo) / k < n := by
      rw [Nat.div_lt_iff_lt_mul hk]; omega
    refine ⟨⟨((i 0).val - lo) / k, hlt⟩, ?_, ?_⟩
    · have := Nat.mul_div_le ((i 0).val - lo) k
      show lo + k * (((i 0).val - lo) / k) ≤ (i 0).val
      omega
    · have := Nat.lt_mul_div_succ ((i 0).val - lo) hk
      show (i 0).val < lo + k * (((i 0).val - lo) / k) + k
      rw [Nat.mul_succ] at this
      omega

theorem chunks_disjoint (lo k n : ℕ) (h : lo + n * k ≤ 4096) :
    ∀ j ∈ (Finset.univ : Finset (Fin n)), ∀ j' ∈ (Finset.univ : Finset (Fin n)), j ≠ j' →
      Disjoint (rowsSet (lo + k * j.val) k (chunk_inb lo k n h j)) (rowsSet (lo + k * j'.val) k (chunk_inb lo k n h j')) := by
  intro j _ j' _ hne
  apply rowsSet_disjoint
  rcases Nat.lt_or_gt_of_ne (Fin.val_ne_of_ne hne) with hlt | hlt
  · left
    have := Nat.mul_le_mul_left k (Nat.succ_le_of_lt hlt)
    rw [Nat.mul_succ] at this; omega
  · right
    have := Nat.mul_le_mul_left k (Nat.succ_le_of_lt hlt)
    rw [Nat.mul_succ] at this; omega

omit F in
/-- Holding a range of rows is holding each of its chunks, at any share and any contents. -/
theorem pts_chunks {F : FTy → Type} (d : Dev nD) (lo k n : ℕ) (hk : 0 < k) (h : lo + n * k ≤ 4096) (q : PosShare TreeShare) (f : Buf (Elt F) (oLoc d)) :
    (oLoc d ↦[rowsSet lo (n * k) h]{q} f : sProp (MT nD τ sig (HIx 1) (Elt F) ℕ UU ℕ))
      = bigSep Finset.univ fun j : Fin n => oLoc d ↦[rowsSet (lo + k * j.val) k (chunk_inb lo k n h j)]{q} f := by
  rw [← rowsSet_chunks lo k n hk h, pointsTo_biUnion Finset.univ (ℓ := oLoc d) _ (chunks_disjoint lo k n h)]

/-! ## The copies' windows are ranges of rows -/

theorem st_inb (L : grid0.Coords) (r : Fin 40) : 2048 * (L 0).val + 80 * (L 1).val + 2 * r.val + 2 ≤ 4096 := by
  have h0 : (L 0).val < 2 := (L 0).isLt
  have h1 : (L 1).val < 16 := (L 1).isLt
  have := r.isLt; omega
theorem dm_inb (L : grid0.Coords) (r : Fin 3) : 2048 * (L 0).val + 48 * (L 1).val + 16 * r.val + 1280 + 16 ≤ 4096 := by
  have h0 : (L 0).val < 2 := (L 0).isLt
  have h1 : (L 1).val < 16 := (L 1).isLt
  have := r.isLt; omega

theorem stSet_eq (L : grid0.Coords) (r : Fin 40) :
    (stWin L r).view.set = rowsSet (2048 * (L 0).val + 80 * (L 1).val + 2 * r.val) 2 (st_inb L r) := by
  show ((View.whole main_v1_scv).slice (Rect.unit (s := S4096x12800) (k0_off3 L (BitVec.ofNat 32 (2 * r.val))) S2x12800.size (k0_off3_inb L r))).set = _
  rw [View.set_slice_whole]
  ext i
  rw [Rect.mem_set_unit, mem_rowsSet, k0_off3_eq L r]
  constructor
  · intro H; exact H 0
  · intro H a
    match a with
    | ⟨0, _⟩ => exact H
    | ⟨1, _⟩ => exact ⟨Nat.zero_le _, (i 1).isLt⟩

theorem dmSet_eq (L : grid0.Coords) (r : Fin 3) :
    (dmWin L r).view.set = rowsSet (2048 * (L 0).val + 48 * (L 1).val + 16 * r.val + 1280) 16 (dm_inb L r) := by
  show ((View.whole main_v1_scv).slice (Rect.unit (s := S4096x12800) (k0_off2 L (BitVec.ofNat 32 (16 * r.val))) S16x12800.size (k0_off2_inb L r))).set = _
  rw [View.set_slice_whole]
  ext i
  rw [Rect.mem_set_unit, mem_rowsSet, k0_off2_eq L r]
  constructor
  · intro H; exact H 0
  · intro H a
    match a with
    | ⟨0, _⟩ => exact H
    | ⟨1, _⟩ => exact ⟨Nat.zero_le _, (i 1).isLt⟩

end Cert.Proof.BcastB

end
-- ==== Proof.BarrierB.lean ====
/-
  The subcore barrier as a hand-over of read access.

  Before the barrier subcore n of a SparseCore has filled row n of the shared scratch with the flattened table and
  holds that row outright. Arriving, it gives each of the sixteen subcores j of its SparseCore one read token of
  its row (the j-th of sixteen tokens split off the full share) and keeps the remainder. Waiting for its own
  sixteen arrivals, subcore j collects token j of every row, that is, token j of the whole scratch, every row of
  which holds the flattened table: enough to send the scratch to the output.
-/
import proofs.«213620_g48704929136794_cont_8to1c4_761_22_alg».proof.Proof.GeomB
import Idealize.ShloMosaic.Lib.ValueIdx

noncomputable section

namespace Cert.Proof.BcastB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "fV" => (Memref.whole Cert.Kernel.main_v0_scv : Memref Cert.Kernel.sig Kind.scVector Space.hbm Cert.Kernel.S12800 EltTy.f32)
local notation "oV" => (Memref.whole Cert.Kernel.main_v1_scv : Memref Cert.Kernel.sig Kind.scVector Space.hbm Cert.Kernel.S4096x12800 EltTy.f32)
local notation "bV" => (Memref.whole Cert.Kernel.cc0_scratch0 : Memref Cert.Kernel.sig Kind.scVector Space.vmem Cert.Kernel.S2x12800 EltTy.f32)
local notation "shV" => (Memref.whole Cert.Kernel.cc0_scratch1 : Memref Cert.Kernel.sig Kind.scVector Space.shared Cert.Kernel.S16x12800 EltTy.f32)

theorem nSub_eq : τ.nSub = 16 := rfl
theorem bound_one : grid0.bound 1 = 16 := rfl
/-- The subcore's number within its SparseCore. -/
abbrev jL (L : grid0.Coords) : Fin 16 := Fin.cast bound_one (L 1)

/-! ## Rows of the shared scratch -/

theorem shRows_inb (i : Fin 16) : ∀ a, (![i.val, 0] : Fin 2 → ℕ) a + (![1, 12800] : Fin 2 → ℕ) a ≤ S16x12800.size a := by
  intro a
  match a with
  | ⟨0, _⟩ => exact i.isLt
  | ⟨1, _⟩ => exact Nat.le_refl _

/-- Row `i` of the shared scratch. -/
def shRows (i : Fin 16) : Finset S16x12800.Idx := (Rect.unit (s := S16x12800) ![i.val, 0] ![1, 12800] (shRows_inb i)).set

theorem mem_shRows {i : Fin 16} {x : S16x12800.Idx} : x ∈ shRows i ↔ (x 0).val = i.val := by
  unfold shRows
  rw [Rect.mem_set_unit]
  constructor
  · intro H; have := H 0
    have h1 : i.val ≤ (x 0).val := this.1
    have h2 : (x 0).val < i.val + 1 := this.2
    omega
  · intro H a
    match a with
    | ⟨0, _⟩ => exact ⟨Nat.le_of_eq H.symm, by show (x 0).val < i.val + 1; omega⟩
    | ⟨1, _⟩ => exact ⟨Nat.zero_le _, (x 1).isLt⟩

theorem shRows_disjoint : ∀ i ∈ (Finset.univ : Finset (Fin 16)), ∀ j ∈ (Finset.univ : Finset (Fin 16)), i ≠ j → Disjoint (shRows i) (shRows j) := by
  intro i _ j _ hne
  rw [Finset.disjoint_left]
  intro x hx hx'
  rw [mem_shRows] at hx hx'
  exact hne (Fin.ext (hx.symm.trans hx'))

theorem shRows_cover : (Finset.univ : Finset (Fin 16)).biUnion shRows = Finset.univ := by
  ext x
  simp only [Finset.mem_biUnion, Finset.mem_univ, true_and, iff_true]
  exact ⟨⟨(x 0).val, (x 0).isLt⟩, mem_shRows.mpr rfl⟩

/-- The row a subcore fills is its own. -/
theorem set_shRowK (L : grid0.Coords) : (shRowK L).view.set = shRows (jL L) := by
  show (((View.whole cc0_scratch1).slice (Rect.unit (s := S16x12800) (k0_off1 L) S1x12800.size (k0_off1_inb L))).reshape S12800 squeezes_S1x12800_S12800.numel_eq).set = _
  rw [View.set_reshape, View.set_slice_whole]
  ext x
  rw [Rect.mem_set_unit, mem_shRows, k0_off1_eq L]
  constructor
  · intro H; have := H 0
    have h1 : (L 1).val ≤ (x 0).val := this.1
    have h2 : (x 0).val < (L 1).val + 1 := this.2
    show (x 0).val = (L 1).val
    omega
  · intro H a
    have H' : (x 0).val = (L 1).val := H
    match a with
    | ⟨0, _⟩ => exact ⟨Nat.le_of_eq H'.symm, by show (x 0).val < (L 1).val + 1; omega⟩
    | ⟨1, _⟩ => exact ⟨Nat.zero_le _, (x 1).isLt⟩

/-! ## What the scratch holds after the barrier -/

variable (fl : (d : Dev nD) → Buf (Elt F) (flLoc d))

/-- Every row of the shared scratch is the flattened table: entry (r, k) is entry k of it. -/
def shFin (d : Dev nD) (c : Fin τ.nSC) : Buf (Elt F) (shLoc d c) :=
  fun x => fl d (ValueIdx.ix1 (n := 12800) (x 1))

/-- Whole at share `q`, the scratch is its rows at share `q`. -/
theorem shPts_rows (d : Dev nD) (c : Fin τ.nSC) (q : PosShare TreeShare) (f : Buf (Elt F) (shLoc d c)) :
    (shLoc d c ↦{q} f : sProp 𝕄) = bigSep Finset.univ fun i : Fin 16 => shLoc d c ↦[shRows i]{q} f := by
  rw [← pointsTo_biUnion Finset.univ (ℓ := shLoc d c) shRows shRows_disjoint, shRows_cover]; try rfl

/-! ## The barrier cells and their schedule -/

/-- Subcore `(c, j)`'s barrier semaphore of device `d`. -/
abbrev bcell (d : Dev nD) (c : Fin τ.nSC) (j : Fin τ.nSub) : GSem nD τ sig := (V d c j, .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

/-- The read token of row `n` that subcore `n` hands subcore `j`: the j-th of sixteen split off the full share. -/
abbrev rowTok (d : Dev nD) (c : Fin τ.nSC) (j : Fin 16) (n : Fin 16) : sProp 𝕄 :=
  shLoc d c ↦[shRows n]{Transfers.shareTok fullShare 16 j} shFin fl d c

/-- What duty `n` of subcore `j`'s round hands over: subcore `n`'s token for `j` of its row. -/
def barPay (g : GSem nD τ sig) (n : ℕ) : sProp 𝕄 :=
  match g with
  | ((d, .scVector c j), _) => if h : n < 16 then rowTok fl d c (Fin.cast nSub_eq j) ⟨n, h⟩ else iprop(emp)
  | _ => iprop(emp)

/-- One round on each barrier cell: a unit duty per subcore of the SparseCore, named by its number. -/
def barRd : Rounds.Schedule (GSem nD τ sig) ℕ 𝕄 where
  duties g r := if isBar g ∧ r = 0 then (Finset.univ : Finset (Fin τ.nSub)).image Fin.val else ∅
  amount _ _ _ := 1
  payload g _ n := barPay fl g n
  amount_pos _ _ _ _ := Nat.one_pos

instance barRd_payload_storable (g : GSem nD τ sig) (r n : ℕ) : BI.Storable (upEmb : UEmb _ 𝕄) ((barRd (F := F) fl).payload g r n) := by
  show BI.Storable upEmb (barPay fl g n)
  unfold barPay
  rcases g with ⟨⟨d, _ | c | ⟨c, i⟩⟩, sm⟩ <;> dsimp only <;> (repeat' split) <;> infer_instance

theorem bigSep_emp' {I : Type} (s : Finset I) : (bigSep s fun _ => iprop(emp)) = (iprop(emp) : sProp 𝕄) := bigSep_emp_const s

theorem barRd_duties₀ (d : Dev nD) (c : Fin τ.nSC) (j : Fin τ.nSub) :
    (barRd (F := F) fl).duties (bcell d c j) 0 = (Finset.univ : Finset (Fin τ.nSub)).image Fin.val := by
  simp [barRd, isBar]
theorem barRd_mem₀ (d : Dev nD) (c : Fin τ.nSC) (j i : Fin τ.nSub) : i.val ∈ (barRd (F := F) fl).duties (bcell d c j) 0 := by
  rw [barRd_duties₀]; exact Finset.mem_image_of_mem _ (Finset.mem_univ i)
theorem barRd_expect (d : Dev nD) (c : Fin τ.nSC) (j : Fin τ.nSub) : 0 + grid0.bound 1 = (barRd (F := F) fl).expect (bcell d c j) 0 := by
  unfold Rounds.Schedule.expect; rw [barRd_duties₀]
  show 0 + 16 = ∑ x ∈ (Finset.univ : Finset (Fin 16)).image Fin.val, 1
  rw [Finset.sum_const, Finset.card_image_of_injective _ Fin.val_injective]; rfl

/-- What a subcore owes for the barrier: a unit on every cell of its SparseCore, at the call's index. -/
def oxV (d : Dev nD) (c : Fin τ.nSC) : CellTallies nD τ sig (HIx 1) := ∑ j : Fin (grid0.bound 1), tallyAt (bcell d c (j.castLE hsub0)) (some 0) 1

omit fl in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit fl in
theorem oxV_apply_pos {d : Dev nD} {c : Fin τ.nSC} {g : GSem nD τ sig} {ι : HIx 1} (h : 0 < oxV d c g ι) :
    ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- What a subcore needs at the barrier: every cell's invariant of its SparseCore, its duty token in every cell's
    round 0, that each cell has reached round 0, its own position at the origin of round 0, and the credit for the
    sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (barRd (F := F) fl) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## Paying in and collecting -/

variable (d : Dev nD) (L : grid0.Coords)

/-- A subcore's own row, held outright at the flattened table, is sixteen read tokens — one per subcore's round —
    and a remainder it keeps. -/
theorem pays_intro :
    (shLoc d (cV L) ↦[shRows (jL L)]{fullShare} shFin fl d (cV L) : sProp 𝕄)
      ⊢ iprop((shLoc d (cV L) ↦[shRows (jL L)]{Transfers.shareDrop fullShare 16} shFin fl d (cV L))
          ∗ bigSep Finset.univ fun j : Fin (grid0.bound 1) => (barRd (F := F) fl).payload (bcell d (cV L) (j.castLE hsub0)) 0 (jV L).val) := by
  refine (Transfers.pointsTo_toks_split fullShare 16).trans (sep_mono_right (Entails.of_eq ?_))
  refine bigSep_congr fun j _ => ?_
  show _ = barPay fl (bcell d (cV L) (j.castLE hsub0)) (jV L).val
  unfold barPay; dsimp only
  rw [dif_pos (show (jV L).val < 16 from (L 1).isLt)]
  rfl

/-- What its own round collected: token `L 1` of every row, that is, of the whole scratch. -/
theorem pays_elim :
    (bigSep ((barRd (F := F) fl).duties (bcell d (cV L) (jV L)) 0 \ ∅) fun n => (barRd (F := F) fl).payload (bcell d (cV L) (jV L)) 0 n)
      ⊢ (shLoc d (cV L) ↦{Transfers.shareTok fullShare 16 (jL L)} shFin fl d (cV L) : sProp 𝕄) := by
  rw [Finset.sdiff_empty, barRd_duties₀, shPts_rows]
  rw [SparseCore.bigSep_image_of_injOn (fun a _ b _ e => Fin.val_injective e)]
  refine Entails.of_eq (bigSep_congr fun n _ => ?_)
  show barPay fl (bcell d (cV L) (jV L)) n.val = _
  unfold barPay; dsimp only
  rw [dif_pos n.isLt]
  rfl

end Cert.Proof.BcastB

end
-- ==== Proof.PayB.lean ====
/-
  What travels with the launch's handshakes.

  The TensorCore hands SparseCore c a read token of the flattened table and rows 2048 c … 2048 c + 2047 of the
  output; the sequencer hands subcore s a read token cut from that one, the 80 rows it fills from its own buffer, the
  48 rows it fills from the shared scratch, and row s of the shared scratch. Coming back, the rows of the output
  hold the flattened table in every row, the read tokens are returned, and of the shared scratch each subcore
  returns what it then holds: token s of the whole scratch and the remainder of its own row, all at the flattened
  table, which is exactly the scratch whole again.
-/
import proofs.«213620_g48704929136794_cont_8to1c4_761_22_alg».proof.Proof.BarrierB

noncomputable section

namespace Cert.Proof.BcastB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "fV" => (Memref.whole Cert.Kernel.main_v0_scv : Memref Cert.Kernel.sig Kind.scVector Space.hbm Cert.Kernel.S12800 EltTy.f32)
local notation "oV" => (Memref.whole Cert.Kernel.main_v1_scv : Memref Cert.Kernel.sig Kind.scVector Space.hbm Cert.Kernel.S4096x12800 EltTy.f32)
local notation "bV" => (Memref.whole Cert.Kernel.cc0_scratch0 : Memref Cert.Kernel.sig Kind.scVector Space.vmem Cert.Kernel.S2x12800 EltTy.f32)
local notation "shV" => (Memref.whole Cert.Kernel.cc0_scratch1 : Memref Cert.Kernel.sig Kind.scVector Space.shared Cert.Kernel.S16x12800 EltTy.f32)

variable (fl : (d : Dev nD) → Buf (Elt F) (flLoc d)) (m : (ℓ : Loc nD τ sig) → Buf (Elt F) ℓ)

/-- The output the kernel leaves: every row the flattened table. -/
def tgt (d : Dev nD) : Buf (Elt F) (oLoc d) := fun x => fl d (ValueIdx.ix1 (n := 12800) (x 1))

/-! ## Shares of the flattened table -/

/-- SparseCore `c`'s read token, and subcore `i`'s, cut from it. -/
abbrev qC (c : Fin 2) : PosShare TreeShare := Transfers.shareTok fullShare 2 c
abbrev qT (c : Fin 2) (i : Fin 16) : PosShare TreeShare := Transfers.shareTok (qC c) 16 i

/-! ## Rows by owner -/

theorem whole_le : 0 + 2 * 2048 ≤ 4096 := by decide
abbrev coreLo (c : Fin 2) : ℕ := 0 + 2048 * c.val
theorem core_le (c : Fin 2) : coreLo c + 2048 ≤ 4096 := chunk_inb 0 2048 2 whole_le c
theorem coreSt_le (c : Fin 2) : coreLo c + 16 * 80 ≤ 4096 := by have := core_le c; omega
theorem coreDm_le (c : Fin 2) : coreLo c + 16 * 80 + 16 * 48 ≤ 4096 := by have := core_le c; omega
abbrev stLo (c : Fin 2) (i : Fin 16) : ℕ := coreLo c + 80 * i.val
abbrev dmLo (c : Fin 2) (i : Fin 16) : ℕ := coreLo c + 16 * 80 + 48 * i.val
theorem st_le (c : Fin 2) (i : Fin 16) : stLo c i + 80 ≤ 4096 := chunk_inb (coreLo c) 80 16 (coreSt_le c) i
theorem dm_le (c : Fin 2) (i : Fin 16) : dmLo c i + 48 ≤ 4096 := chunk_inb (coreLo c + 16 * 80) 48 16 (coreDm_le c) i

/-- SparseCore `c`'s rows of the output; subcore `i`'s rows filled from its own buffer, and from the shared scratch. -/
abbrev coreRows (c : Fin 2) : Finset S4096x12800.Idx := rowsSet (coreLo c) 2048 (core_le c)
abbrev stRows (c : Fin 2) (i : Fin 16) : Finset S4096x12800.Idx := rowsSet (stLo c i) 80 (st_le c i)
abbrev dmRows (c : Fin 2) (i : Fin 16) : Finset S4096x12800.Idx := rowsSet (dmLo c i) 48 (dm_le c i)

/-- The SparseCore of core number `c` of the call. -/
abbrev scOf (c : Fin 2) : Fin τ.nSC := c.castLE (by decide)

/-! ## The payloads -/

abbrev flTok (d : Dev nD) (q : PosShare TreeShare) : sProp 𝕄 := flLoc d ↦{q} fl d

def stC (d : Dev nD) (c : Fin 2) : sProp 𝕄 := iprop(flTok fl d (qC c) ∗ oLoc d ↦[coreRows c]{fullShare} m (oLoc d))
def dnC (d : Dev nD) (c : Fin 2) : sProp 𝕄 := iprop(flTok fl d (qC c) ∗ oLoc d ↦[coreRows c]{fullShare} tgt fl d)
def goT (d : Dev nD) (c : Fin 2) (i : Fin 16) : sProp 𝕄 :=
  iprop(flTok fl d (qT c i) ∗ (oLoc d ↦[stRows c i]{fullShare} m (oLoc d)) ∗ (oLoc d ↦[dmRows c i]{fullShare} m (oLoc d))
    ∗ ∃ f, shLoc d (scOf c) ↦[shRows i]{fullShare} f)
def tdT (d : Dev nD) (c : Fin 2) (i : Fin 16) : sProp 𝕄 :=
  iprop(flTok fl d (qT c i) ∗ (oLoc d ↦[stRows c i]{fullShare} tgt fl d) ∗ (oLoc d ↦[dmRows c i]{fullShare} tgt fl d)
    ∗ (shLoc d (scOf c) ↦{Transfers.shareTok fullShare 16 i} shFin fl d (scOf c))
    ∗ (shLoc d (scOf c) ↦[shRows i]{Transfers.shareDrop fullShare 16} shFin fl d (scOf c)))

variable [FloatOps F]

def P : (K (F := F)).Pay (nD := nD) (Val := Elt F) (Name := ℕ) (U := UU) where
  st := fun q d c => match q with | 0 => stC fl m d (Fin.cast nCore_zero c)
  dn := fun q d c => match q with | 0 => dnC fl d (Fin.cast nCore_zero c)
  go := fun q d c i => match q with | 0 => goT fl m d (Fin.cast nCore_zero c) (Fin.cast nSub_zero i)
  td := fun q d c i => match q with | 0 => tdT fl d (Fin.cast nCore_zero c) (Fin.cast nSub_zero i)
  x := fun _ thr => match thr with
    | (d, .scVector c i) => if c.val < 2 then bkit fl d c i else iprop(emp)
    | _ => iprop(emp)
  ox := fun _ thr => match thr with
    | (d, .scVector c _) => if c.val < 2 then oxV d c else 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      split at h
      · obtain ⟨j, rfl, rfl⟩ := oxV_apply_pos h
        rw [(K (F := F)).lev_V_reg d c (j.castLE hsub0) (show (sc_bar0 : Sem sig) ≠ (K (F := F)).go from sc_bar0_ne_go)]; exact ⟨le_rfl, by decide⟩
      · exact absurd h (lt_irrefl 0)
  ox_tc := fun _ _ => rfl
  ox_sc := fun _ _ _ h => absurd rfl h
  ox_vc := by
    intro q d c i h
    obtain rfl : q = 0 := Subsingleton.elim _ _
    dsimp only at h
    split at h
    · next hc => exact ⟨rfl, hc, i.isLt⟩
    · exact absurd rfl h

instance P_storable : (P (F := F) fl m).IsStorable where
  st q d c := match q with
    | 0 => by show BI.Storable (upEmb : UEmb _ 𝕄) (stC fl m d (Fin.cast nCore_zero c)); unfold stC; infer_instance
  dn q d c := match q with
    | 0 => by show BI.Storable (upEmb : UEmb _ 𝕄) (dnC fl d (Fin.cast nCore_zero c)); unfold dnC; infer_instance
  go q d c i := match q with
    | 0 => by show BI.Storable (upEmb : UEmb _ 𝕄) (goT fl m d (Fin.cast nCore_zero c) (Fin.cast nSub_zero i)); unfold goT; infer_instance
  td q d c i := match q with
    | 0 => by show BI.Storable (upEmb : UEmb _ 𝕄) (tdT fl d (Fin.cast nCore_zero c) (Fin.cast nSub_zero i)); unfold tdT; infer_instance

end Cert.Proof.BcastB

end
-- ==== Proof.Spec.lean ====
/-
  What both programs compute, stated once over plain index functions: the result holds the table in every batch
  row. Entry (b, p, d) of the result is entry (p, d) of the table, whatever b is; nothing is added, scaled or
  rounded, so the statement is the same for words and for extended reals.
-/
import Idealize.ShloMosaic.Lib.ValueIdx

namespace Cert.Spec

open Idealize.ShloMosaic Idealize.ShloMosaic.ValueIdx

/-- The table copied into every batch row: entry (b, p, d) is the table's entry (p, d). -/
def everyRow {α : Type} (tbl : (⟨2, ![200, 64]⟩ : Shape).Idx → α) : (⟨3, ![4096, 200, 64]⟩ : Shape).Idx → α :=
  fun j => tbl (ix2 (n0 := 200) (n1 := 64) (j 1) (j 2))

theorem everyRow_apply {α : Type} (tbl : (⟨2, ![200, 64]⟩ : Shape).Idx → α) (b : Fin 4096) (p : Fin 200) (d : Fin 64) :
    everyRow tbl (ix3 b p d) = tbl (ix2 p d) := rfl

end Cert.Spec
-- ==== Proof.ValueB.lean ====
/-
  What the copies move, index by index. Every array here holds one row of 12800 numbers repeated: the shared
  scratch in each of its sixteen rows, a subcore's buffer in both of its rows, the output in all 4096. A window
  of consecutive whole rows of such an array holds the same row repeated, and one row of it, read flat, is that
  row. On the host side the table's 200 rows of 64 numbers are laid end to end into the row of 12800, and the
  output's rows of 12800 are cut back into 200 rows of 64: entry (b, p, e) of the result is the table's (p, e).
-/
import proofs.«213620_g48704929136794_cont_8to1c4_761_22_alg».proof.Proof.GeomB
import proofs.«213620_g48704929136794_cont_8to1c4_761_22_alg».proof.Proof.Spec
import Idealize.ShloMosaic.Lib.ValueIdx
import Idealize.ShloMosaic.Lib.Pipeline.Value

noncomputable section

namespace Cert.Proof.BcastB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "fV" => (Memref.whole Cert.Kernel.main_v0_scv : Memref Cert.Kernel.sig Kind.scVector Space.hbm Cert.Kernel.S12800 EltTy.f32)
local notation "oV" => (Memref.whole Cert.Kernel.main_v1_scv : Memref Cert.Kernel.sig Kind.scVector Space.hbm Cert.Kernel.S4096x12800 EltTy.f32)
local notation "bV" => (Memref.whole Cert.Kernel.cc0_scratch0 : Memref Cert.Kernel.sig Kind.scVector Space.vmem Cert.Kernel.S2x12800 EltTy.f32)
local notation "shV" => (Memref.whole Cert.Kernel.cc0_scratch1 : Memref Cert.Kernel.sig Kind.scVector Space.shared Cert.Kernel.S16x12800 EltTy.f32)

/-- One row of 12800 numbers copied into every row of an n-row array. -/
def rowsOf {α : Type} {n : ℕ} (p : S12800.Idx → α) : (⟨2, ![n, 12800]⟩ : Shape).Idx → α :=
  fun x => p (ValueIdx.ix1 (n := 12800) (x 1))

theorem rowsOf_apply {α : Type} {n : ℕ} (p : S12800.Idx → α) (a : Fin n) (b : Fin 12800) :
    rowsOf (n := n) p (ValueIdx.ix2 a b) = p (ValueIdx.ix1 b) := rfl

/-- Row 0 and row 1 of a subcore's own buffer, each read flat. -/
abbrev bufRow0 : Memref sig .scVector .vmem S12800 .f32 :=
  ((bV).slice (Rect.unit (s := S2x12800) ![0, 0] S1x12800.size inb_S2x12800_S1x12800_0_0) (fun _ => rfl)).squeeze S12800 squeezes_S1x12800_S12800
abbrev bufRow1 : Memref sig .scVector .vmem S12800 .f32 :=
  ((bV).slice (Rect.unit (s := S2x12800) ![1, 0] S1x12800.size inb_S2x12800_S1x12800_1_0) (fun _ => rfl)).squeeze S12800 squeezes_S1x12800_S12800

/-! ## Windows of whole rows -/

/-- A two-row window of the output reads the repeated row as the repeated row. -/
theorem read_stWin (L : grid0.Coords) (r : Fin 40) (p : S12800.Idx → Elt F .f32) :
    (stWin L r).view.read (Elt F) (rowsOf (n := 4096) p) = rowsOf (n := 2) p := by
  funext x
  rw [View.read_apply]
  refine (cast_eq _ _).trans ?_
  have h : ((stWin L r).view.emb x) 1 = x 1 := by
    refine Fin.ext ?_
    show (k0_off3 L (BitVec.ofNat 32 (2 * r.val))) 1 + 1 * (x 1).val = (x 1).val
    rw [k0_off3_eq L r]
    show 0 + 1 * (x 1).val = (x 1).val
    omega
  exact congrArg (fun a => p (ValueIdx.ix1 (n := 12800) a)) h

/-- A sixteen-row window of the output reads the repeated row as the repeated row. -/
theorem read_dmWin (L : grid0.Coords) (r : Fin 3) (p : S12800.Idx → Elt F .f32) :
    (dmWin L r).view.read (Elt F) (rowsOf (n := 4096) p) = rowsOf (n := 16) p := by
  funext x
  rw [View.read_apply]
  refine (cast_eq _ _).trans ?_
  have h : ((dmWin L r).view.emb x) 1 = x 1 := by
    refine Fin.ext ?_
    show (k0_off2 L (BitVec.ofNat 32 (16 * r.val))) 1 + 1 * (x 1).val = (x 1).val
    rw [k0_off2_eq L r]
    show 0 + 1 * (x 1).val = (x 1).val
    omega
  exact congrArg (fun a => p (ValueIdx.ix1 (n := 12800) a)) h

/-! ## One row, read flat -/

/-- A flat index's place in a one-row array: row 0, the same column. -/
theorem flat_row (h : S12800.numel = S1x12800.numel) (x : S12800.Idx) :
    Shape.reshapeEquiv h x = ValueIdx.ix2 (n0 := 1) (n1 := 12800) 0 (x 0) := by
  refine Shape.reshapeEquiv_eq_of_rowMajor h ?_
  rw [Shape.rowMajor_val_two, Shape.rowMajor_val_one]
  show 0 * 12800 + (x 0).val = (x 0).val
  omega

/-- A subcore's row of the shared scratch, read flat, reads the repeated row as that row. -/
theorem read_shRowK (L : grid0.Coords) (p : S12800.Idx → Elt F .f32) :
    (shRowK L).view.read (Elt F) (rowsOf (n := 16) p) = p := by
  funext x
  rw [View.read_apply]
  refine (cast_eq _ _).trans ?_
  have h : ((shRowK L).view.emb x) 1 = x 0 := by
    refine Fin.ext ?_
    show (k0_off1 L) 1 + 1 * ((Shape.reshapeEquiv _ x) 1).val = (x 0).val
    rw [flat_row]
    have h1 : (k0_off1 L) 1 = 0 := by rw [k0_off1_eq L]; rfl
    show (k0_off1 L) 1 + 1 * (x 0).val = (x 0).val
    omega
  exact (congrArg (fun a => p (ValueIdx.ix1 (n := 12800) a)) h).trans (congrArg p (ValueIdx.eq_ix1 x).symm)

/-- Where row 0 of the own buffer, read flat, sits in the buffer … -/
theorem emb_bufRow0 (y : S12800.Idx) : bufRow0.view.emb y = ValueIdx.ix2 (n0 := 2) (n1 := 12800) 0 (y 0) := by
  have h0 : (bufRow0.view.emb y) 0 = (0 : Fin 2) := by
    refine Fin.ext ?_
    show (![0, 0] : Fin 2 → ℕ) 0 + 1 * ((Shape.reshapeEquiv (s := S1x12800) _ y) 0).val = 0
    rw [flat_row]
    rfl
  have h1 : (bufRow0.view.emb y) 1 = y 0 := by
    refine Fin.ext ?_
    show (![0, 0] : Fin 2 → ℕ) 1 + 1 * ((Shape.reshapeEquiv (s := S1x12800) _ y) 1).val = (y 0).val
    rw [flat_row]
    show 0 + 1 * (y 0).val = (y 0).val
    omega
  refine (ValueIdx.eq_ix2 (n0 := 2) (n1 := 12800) (bufRow0.view.emb y)).trans ?_
  rw [h0, h1]
  rfl

/-- … and row 1. -/
theorem emb_bufRow1 (y : S12800.Idx) : bufRow1.view.emb y = ValueIdx.ix2 (n0 := 2) (n1 := 12800) 1 (y 0) := by
  have h0 : (bufRow1.view.emb y) 0 = (1 : Fin 2) := by
    refine Fin.ext ?_
    show (![1, 0] : Fin 2 → ℕ) 0 + 1 * ((Shape.reshapeEquiv (s := S1x12800) _ y) 0).val = 1
    rw [flat_row]
    rfl
  have h1 : (bufRow1.view.emb y) 1 = y 0 := by
    refine Fin.ext ?_
    show (![1, 0] : Fin 2 → ℕ) 1 + 1 * ((Shape.reshapeEquiv (s := S1x12800) _ y) 1).val = (y 0).val
    rw [flat_row]
    show 0 + 1 * (y 0).val = (y 0).val
    omega
  refine (ValueIdx.eq_ix2 (n0 := 2) (n1 := 12800) (bufRow1.view.emb y)).trans ?_
  rw [h0, h1]
  rfl

/-- The own buffer after the row is written into its row 0 and then into its row 1, at an index. -/
theorem buf_two_rows_at (p : S12800.Idx → Elt F .f32) (fb : S2x12800.Idx → Elt F .f32) (a : Fin 2) (b : Fin 12800) :
    View.write (Elt F) bufRow1.view (View.write (Elt F) bufRow0.view fb p Finset.univ) p Finset.univ (ValueIdx.ix2 a b)
      = p (ValueIdx.ix1 b) := by
  match a with
  | ⟨0, _⟩ =>
    have hn : (ValueIdx.ix2 (n0 := 2) (n1 := 12800) 0 b) ∉ bufRow1.view.setOn Finset.univ := by
      intro hm
      obtain ⟨y, -, hy⟩ := Finset.mem_map.mp hm
      rw [emb_bufRow1] at hy
      have := congrArg (fun i : S2x12800.Idx => (i 0).val) hy
      exact Nat.one_ne_zero this
    have e : ValueIdx.ix2 (n0 := 2) (n1 := 12800) 0 b = bufRow0.view.emb (ValueIdx.ix1 b) := (emb_bufRow0 (ValueIdx.ix1 b)).symm
    show View.write (Elt F) bufRow1.view _ p Finset.univ (ValueIdx.ix2 (n0 := 2) (n1 := 12800) 0 b) = _
    rw [View.write_of_not_mem _ _ _ hn, e, View.write_emb_of_mem _ _ (Finset.mem_univ _)]
    exact cast_eq _ _
  | ⟨1, _⟩ =>
    have e : ValueIdx.ix2 (n0 := 2) (n1 := 12800) 1 b = bufRow1.view.emb (ValueIdx.ix1 b) := (emb_bufRow1 (ValueIdx.ix1 b)).symm
    show View.write (Elt F) bufRow1.view _ p Finset.univ (ValueIdx.ix2 (n0 := 2) (n1 := 12800) 1 b) = _
    rw [e, View.write_emb_of_mem _ _ (Finset.mem_univ _)]
    exact cast_eq _ _

/-- Written into both rows of the own buffer, the row is repeated in it. -/
theorem buf_two_rows (p : S12800.Idx → Elt F .f32) (fb : S2x12800.Idx → Elt F .f32) :
    View.write (Elt F) bufRow1.view (View.write (Elt F) bufRow0.view fb p Finset.univ) p Finset.univ = rowsOf (n := 2) p := by
  funext i
  exact (congrArg _ (ValueIdx.eq_ix2 i)).trans (buf_two_rows_at p fb (i 0) (i 1))

/-! ## The host's two reshapes -/

/-- The table laid end to end, repeated in 4096 rows, and each row cut back into 200 rows of 64, is the table
    in every batch row: entry (b, p, e) sits at row b, column 64 p + e, and column 64 p + e of the flattened
    table is the table's entry (p, e). -/
theorem reshape_rows (tbl : S200x64.Idx → Elt F .f32) :
    shapeCast S4096x200x64 (rowsOf (n := 4096) (shapeCast S12800 tbl shapeCasts_S200x64_S12800)) shapeCasts_S4096x12800_S4096x200x64
      = Cert.Spec.everyRow tbl := by
  funext j
  obtain ⟨b, q, e, rfl⟩ : ∃ (b : Fin 4096) (q : Fin 200) (e : Fin 64), j = ValueIdx.ix3 b q e :=
    ⟨j 0, j 1, j 2, ValueIdx.eq_ix3 j⟩
  rw [Cert.Spec.everyRow_apply]
  have hc : 64 * q.val + e.val < 12800 := by
    have := q.isLt; have := e.isLt; omega
  refine (shapeCast_apply _ _ (ValueIdx.ix3 b q e) (ValueIdx.ix2 (n0 := 4096) (n1 := 12800) b ⟨64 * q.val + e.val, hc⟩) ?_).trans ?_
  · rw [Shape.rowMajor_val_two, Shape.rowMajor_val_three]
    show b.val * 12800 + (64 * q.val + e.val) = (b.val * 200 + q.val) * 64 + e.val
    omega
  rw [rowsOf_apply]
  refine shapeCast_apply _ _ (ValueIdx.ix1 (n := 12800) ⟨64 * q.val + e.val, hc⟩) (ValueIdx.ix2 q e) ?_
  rw [Shape.rowMajor_val_two, Shape.rowMajor_val_one]
  show q.val * 64 + e.val = 64 * q.val + e.val
  omega

end Cert.Proof.BcastB

end
-- ==== Proof.WinB.lean ====
/-
  The rows a subcore fills, window by window.

  Its 80 rows are forty consecutive pairs, its 48 rows three consecutive runs of sixteen: exactly the windows its copies
  write. A window that has received a whole copy holds what the source held, so a pair of rows copied from a buffer
  whose two rows are the flattened table, or sixteen rows copied from a scratch all of whose rows are, holds the
  flattened table in every row.
-/
import proofs.«213620_g48704929136794_cont_8to1c4_761_22_alg».proof.Proof.PayB
import proofs.«213620_g48704929136794_cont_8to1c4_761_22_alg».proof.Proof.ValueB
import Idealize.ShloMosaic.Lib.Exec.Context

noncomputable section

namespace Cert.Proof.BcastB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "fV" => (Memref.whole Cert.Kernel.main_v0_scv : Memref Cert.Kernel.sig Kind.scVector Space.hbm Cert.Kernel.S12800 EltTy.f32)
local notation "oV" => (Memref.whole Cert.Kernel.main_v1_scv : Memref Cert.Kernel.sig Kind.scVector Space.hbm Cert.Kernel.S4096x12800 EltTy.f32)
local notation "bV" => (Memref.whole Cert.Kernel.cc0_scratch0 : Memref Cert.Kernel.sig Kind.scVector Space.vmem Cert.Kernel.S2x12800 EltTy.f32)
local notation "shV" => (Memref.whole Cert.Kernel.cc0_scratch1 : Memref Cert.Kernel.sig Kind.scVector Space.shared Cert.Kernel.S16x12800 EltTy.f32)

variable (fl : (d : Dev nD) → Buf (Elt F) (flLoc d)) (m : (ℓ : Loc nD τ sig) → Buf (Elt F) ℓ)
variable (d : Dev nD) (L : grid0.Coords)

theorem bound_zero : grid0.bound 0 = 2 := rfl
/-- The SparseCore's number within the call. -/
abbrev cL (L : grid0.Coords) : Fin 2 := Fin.cast bound_zero (L 0)

theorem rowsSet_congr {lo lo' len : ℕ} {h : lo + len ≤ 4096} {h' : lo' + len ≤ 4096} (e : lo = lo') : rowsSet lo len h = rowsSet lo' len h' := by
  subst e; rfl

/-! ## A window held by its own elements depends only on what is read through it -/

theorem pts_own_congr [∀ e, Nonempty (Elt F e)] {cs : Space} {s : Shape} {e : EltTy} (thr : Thread nD τ) (w : Memref sig thr.2.kind cs s e)
    (g g' : Buf (Elt F) (w.view.loc thr)) (q : PosShare TreeShare) (h : w.view.read (Elt F) g = w.view.read (Elt F) g') :
    (w.view.loc thr ↦[w.view.set]{q} g : sProp 𝕄) = w.view.loc thr ↦[w.view.set]{q} g' := by
  rw [pointsTo_rep (Ix := HIx 1) (Name := ℕ) (U := UU) (Lvl := ℕ) thr w g q, pointsTo_rep (Ix := HIx 1) (Name := ℕ) (U := UU) (Lvl := ℕ) thr w g' q, h]

theorem tgt_eq (d : Dev nD) : tgt fl d = rowsOf (n := 4096) (fl d) := rfl
theorem shFin_eq (d : Dev nD) (c : Fin τ.nSC) : shFin fl d c = rowsOf (n := 16) (fl d) := rfl

variable [∀ e, Nonempty (Elt F e)]

/-- A pair of rows that received a two-row buffer holding the flattened table twice. -/
theorem st_landed (r : Fin 40) (fo : Buf (Elt F) (oLoc d)) (pay : S2x12800.Idx → Elt F .f32) (hpay : pay = rowsOf (n := 2) (fl d)) :
    ((stWin L r).view.loc (thrV d L) ↦[(stWin L r).view.set]{fullShare} (stWin L r).view.writes (Elt F) fo [⟨Rect.whole S2x12800, pay⟩] : sProp 𝕄)
      = (stWin L r).view.loc (thrV d L) ↦[(stWin L r).view.set]{fullShare} tgt fl d :=
  pts_own_congr (thrV d L) (stWin L r) _ _ _ (by rw [View.read_writes_whole, hpay, tgt_eq]; exact (read_stWin L r (fl d)).symm)

/-- Sixteen rows that received a scratch whose every row is the flattened table. -/
theorem dm_landed (r : Fin 3) (fo : Buf (Elt F) (oLoc d)) (pay : S16x12800.Idx → Elt F .f32) (hpay : pay = rowsOf (n := 16) (fl d)) :
    ((dmWin L r).view.loc (thrV d L) ↦[(dmWin L r).view.set]{fullShare} (dmWin L r).view.writes (Elt F) fo [⟨Rect.whole S16x12800, pay⟩] : sProp 𝕄)
      = (dmWin L r).view.loc (thrV d L) ↦[(dmWin L r).view.set]{fullShare} tgt fl d :=
  pts_own_congr (thrV d L) (dmWin L r) _ _ _ (by rw [View.read_writes_whole, hpay, tgt_eq]; exact (read_dmWin L r (fl d)).symm)

/-- The subcore's row of the shared scratch once it has received the flattened table. -/
theorem sh_landed (fsh : Buf (Elt F) (shLoc d (cV L))) (pay : S12800.Idx → Elt F .f32) (hpay : pay = fl d) :
    ((shRowK L).view.loc (thrV d L) ↦[(shRowK L).view.set]{fullShare} (shRowK L).view.writes (Elt F) fsh [⟨Rect.whole S12800, pay⟩] : sProp 𝕄)
      = shLoc d (cV L) ↦[shRows (jL L)]{fullShare} shFin fl d (cV L) := by
  rw [pts_own_congr (thrV d L) (shRowK L) _ (shFin fl d (cV L)) _ (by rw [View.read_writes_whole, hpay, shFin_eq]; exact (read_shRowK L (fl d)).symm),
    set_shRowK]
  rfl

/-! ## The rows a subcore owns are its windows -/

theorem stWin_lo (r : Fin 40) : stLo (cL L) (jL L) + 2 * r.val = 2048 * (L 0).val + 80 * (L 1).val + 2 * r.val := by
  show 0 + 2048 * (L 0).val + 80 * (L 1).val + 2 * r.val = _; omega
theorem dmWin_lo (r : Fin 3) : dmLo (cL L) (jL L) + 16 * r.val = 2048 * (L 0).val + 48 * (L 1).val + 16 * r.val + 1280 := by
  show 0 + 2048 * (L 0).val + 16 * 80 + 48 * (L 1).val + 16 * r.val = _; omega

theorem st_split (f : Buf (Elt F) (oLoc d)) :
    (oLoc d ↦[stRows (cL L) (jL L)]{fullShare} f : sProp 𝕄)
      = bigSep Finset.univ fun r : Fin 40 => (stWin L r).view.loc (thrV d L) ↦[(stWin L r).view.set]{fullShare} f := by
  refine (pts_chunks (F := F) d (stLo (cL L) (jL L)) 2 40 (by decide) (st_le (cL L) (jL L)) fullShare f).trans (bigSep_congr fun r _ => ?_)
  exact congrArg (fun S => (oLoc d ↦[S]{fullShare} f : sProp 𝕄)) ((rowsSet_congr (stWin_lo L r)).trans (stSet_eq L r).symm)

theorem dm_split (f : Buf (Elt F) (oLoc d)) :
    (oLoc d ↦[dmRows (cL L) (jL L)]{fullShare} f : sProp 𝕄)
      = bigSep Finset.univ fun r : Fin 3 => (dmWin L r).view.loc (thrV d L) ↦[(dmWin L r).view.set]{fullShare} f := by
  refine (pts_chunks (F := F) d (dmLo (cL L) (jL L)) 16 3 (by decide) (dm_le (cL L) (jL L)) fullShare f).trans (bigSep_congr fun r _ => ?_)
  exact congrArg (fun S => (oLoc d ↦[S]{fullShare} f : sProp 𝕄)) ((rowsSet_congr (dmWin_lo L r)).trans (dmSet_eq L r).symm)

theorem univ40 : (Finset.univ : Finset (Fin 40)) = ([0, 1, 2, 3, 4, 5, 6, 7, 8, 9, 10, 11, 12, 13, 14, 15, 16, 17, 18, 19, 20, 21, 22, 23, 24, 25, 26, 27, 28, 29, 30, 31, 32, 33, 34, 35, 36, 37, 38, 39] : List (Fin 40)).toFinset := by decide
theorem nodup40 : ([0, 1, 2, 3, 4, 5, 6, 7, 8, 9, 10, 11, 12, 13, 14, 15, 16, 17, 18, 19, 20, 21, 22, 23, 24, 25, 26, 27, 28, 29, 30, 31, 32, 33, 34, 35, 36, 37, 38, 39] : List (Fin 40)).Nodup := by decide
theorem univ3 : (Finset.univ : Finset (Fin 3)) = ([0, 1, 2] : List (Fin 3)).toFinset := by decide
theorem nodup3 : ([0, 1, 2] : List (Fin 3)).Nodup := by decide

/-- The forty pairs of rows, one by one. -/
theorem st_open (f : Buf (Elt F) (oLoc d)) :
    (oLoc d ↦[stRows (cL L) (jL L)]{fullShare} f : sProp 𝕄)
      = iprop(((stWin L 0).view.loc (thrV d L) ↦[(stWin L 0).view.set]{fullShare} f)
      ∗ ((stWin L 1).view.loc (thrV d L) ↦[(stWin L 1).view.set]{fullShare} f)
      ∗ ((stWin L 2).view.loc (thrV d L) ↦[(stWin L 2).view.set]{fullShare} f)
      ∗ ((stWin L 3).view.loc (thrV d L) ↦[(stWin L 3).view.set]{fullShare} f)
      ∗ ((stWin L 4).view.loc (thrV d L) ↦[(stWin L 4).view.set]{fullShare} f)
      ∗ ((stWin L 5).view.loc (thrV d L) ↦[(stWin L 5).view.set]{fullShare} f)
      ∗ ((stWin L 6).view.loc (thrV d L) ↦[(stWin L 6).view.set]{fullShare} f)
      ∗ ((stWin L 7).view.loc (thrV d L) ↦[(stWin L 7).view.set]{fullShare} f)
      ∗ ((stWin L 8).view.loc (thrV d L) ↦[(stWin L 8).view.set]{fullShare} f)
      ∗ ((stWin L 9).view.loc (thrV d L) ↦[(stWin L 9).view.set]{fullShare} f)
      ∗ ((stWin L 10).view.loc (thrV d L) ↦[(stWin L 10).view.set]{fullShare} f)
      ∗ ((stWin L 11).view.loc (thrV d L) ↦[(stWin L 11).view.set]{fullShare} f)
      ∗ ((stWin L 12).view.loc (thrV d L) ↦[(stWin L 12).view.set]{fullShare} f)
      ∗ ((stWin L 13).view.loc (thrV d L) ↦[(stWin L 13).view.set]{fullShare} f)
      ∗ ((stWin L 14).view.loc (thrV d L) ↦[(stWin L 14).view.set]{fullShare} f)
      ∗ ((stWin L 15).view.loc (thrV d L) ↦[(stWin L 15).view.set]{fullShare} f)
      ∗ ((stWin L 16).view.loc (thrV d L) ↦[(stWin L 16).view.set]{fullShare} f)
      ∗ ((stWin L 17).view.loc (thrV d L) ↦[(stWin L 17).view.set]{fullShare} f)
      ∗ ((stWin L 18).view.loc (thrV d L) ↦[(stWin L 18).view.set]{fullShare} f)
      ∗ ((stWin L 19).view.loc (thrV d L) ↦[(stWin L 19).view.set]{fullShare} f)
      ∗ ((stWin L 20).view.loc (thrV d L) ↦[(stWin L 20).view.set]{fullShare} f)
      ∗ ((stWin L 21).view.loc (thrV d L) ↦[(stWin L 21).view.set]{fullShare} f)
      ∗ ((stWin L 22).view.loc (thrV d L) ↦[(stWin L 22).view.set]{fullShare} f)
      ∗ ((stWin L 23).view.loc (thrV d L) ↦[(stWin L 23).view.set]{fullShare} f)
      ∗ ((stWin L 24).view.loc (thrV d L) ↦[(stWin L 24).view.set]{fullShare} f)
      ∗ ((stWin L 25).view.loc (thrV d L) ↦[(stWin L 25).view.set]{fullShare} f)
      ∗ ((stWin L 26).view.loc (thrV d L) ↦[(stWin L 26).view.set]{fullShare} f)
      ∗ ((stWin L 27).view.loc (thrV d L) ↦[(stWin L 27).view.set]{fullShare} f)
      ∗ ((stWin L 28).view.loc (thrV d L) ↦[(stWin L 28).view.set]{fullShare} f)
      ∗ ((stWin L 29).view.loc (thrV d L) ↦[(stWin L 29).view.set]{fullShare} f)
      ∗ ((stWin L 30).view.loc (thrV d L) ↦[(stWin L 30).view.set]{fullShare} f)
      ∗ ((stWin L 31).view.loc (thrV d L) ↦[(stWin L 31).view.set]{fullShare} f)
      ∗ ((stWin L 32).view.loc (thrV d L) ↦[(stWin L 32).view.set]{fullShare} f)
      ∗ ((stWin L 33).view.loc (thrV d L) ↦[(stWin L 33).view.set]{fullShare} f)
      ∗ ((stWin L 34).view.loc (thrV d L) ↦[(stWin L 34).view.set]{fullShare} f)
      ∗ ((stWin L 35).view.loc (thrV d L) ↦[(stWin L 35).view.set]{fullShare} f)
      ∗ ((stWin L 36).view.loc (thrV d L) ↦[(stWin L 36).view.set]{fullShare} f)
      ∗ ((stWin L 37).view.loc (thrV d L) ↦[(stWin L 37).view.set]{fullShare} f)
      ∗ ((stWin L 38).view.loc (thrV d L) ↦[(stWin L 38).view.set]{fullShare} f)
      ∗ ((stWin L 39).view.loc (thrV d L) ↦[(stWin L 39).view.set]{fullShare} f)) :=
  (st_split d L f).trans (bigSep_univ_eq_bigSepL _ univ40 nodup40 _)

/-- The three runs of sixteen rows, one by one. -/
theorem dm_open (f : Buf (Elt F) (oLoc d)) :
    (oLoc d ↦[dmRows (cL L) (jL L)]{fullShare} f : sProp 𝕄)
      = iprop(((dmWin L 0).view.loc (thrV d L) ↦[(dmWin L 0).view.set]{fullShare} f)
      ∗ ((dmWin L 1).view.loc (thrV d L) ↦[(dmWin L 1).view.set]{fullShare} f)
      ∗ ((dmWin L 2).view.loc (thrV d L) ↦[(dmWin L 2).view.set]{fullShare} f)) :=
  (dm_split d L f).trans (bigSep_univ_eq_bigSepL _ univ3 nodup3 _)

end Cert.Proof.BcastB

end
-- ==== Proof.TileB.lean ====
/-
  One vector subcore's task.

  It copies the flattened table into both rows of its buffer and into its row of the shared scratch, waiting for each
  copy; at the barrier it publishes its row (sixteen read tokens) and receives token s of the whole scratch; it then
  starts its 43 copies to the output and waits for them all. Afterwards each of its 43 windows of the output holds
  what the copy's source held: rows of the flattened table.
-/
import proofs.«213620_g48704929136794_cont_8to1c4_761_22_alg».proof.Proof.PayB
import proofs.«213620_g48704929136794_cont_8to1c4_761_22_alg».proof.Proof.WinB

noncomputable section

namespace Cert.Proof.BcastB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "fV" => (Memref.whole Cert.Kernel.main_v0_scv : Memref Cert.Kernel.sig Kind.scVector Space.hbm Cert.Kernel.S12800 EltTy.f32)
local notation "oV" => (Memref.whole Cert.Kernel.main_v1_scv : Memref Cert.Kernel.sig Kind.scVector Space.hbm Cert.Kernel.S4096x12800 EltTy.f32)
local notation "bV" => (Memref.whole Cert.Kernel.cc0_scratch0 : Memref Cert.Kernel.sig Kind.scVector Space.vmem Cert.Kernel.S2x12800 EltTy.f32)
local notation "shV" => (Memref.whole Cert.Kernel.cc0_scratch1 : Memref Cert.Kernel.sig Kind.scVector Space.shared Cert.Kernel.S16x12800 EltTy.f32)

variable (fl : (d : Dev nD) → Buf (Elt F) (flLoc d)) (m : (ℓ : Loc nD τ sig) → Buf (Elt F) ℓ)
variable (d : Dev nD) (L : grid0.Coords)

/-! ## The subcore's own semaphores and buffer -/

abbrev c6cell (d : Dev nD) (c : Fin τ.nSC) (i : Fin τ.nSub) : GSem nD τ sig := (V d c i, .dma cc0_scratch2.sem)
abbrev c7cell (d : Dev nD) (c : Fin τ.nSC) (i : Fin τ.nSub) : GSem nD τ sig := (V d c i, .dma cc0_scratch3.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scoped2.sem)

theorem cell_ne {thr : Thread nD τ} {a b : DmaSem sig} (h : a ≠ b) : ((thr, SemLoc.dma a) : GSem nD τ sig) ≠ (thr, SemLoc.dma b) :=
  fun e => h (SemLoc.dma.inj (Prod.mk.inj e).2)

theorem ownSems0_V :
    (ownSems0 (thrV d L) : sProp 𝕄)
      = iprop(semVal (c6cell d (cV L) (jV L)) 0 ∗ semVal (c7cell d (cV L) (jV L)) 0 ∗ semVal (cAcell d (cV L) (jV L)) 0 ∗ semVal (cBcell d (cV L) (jV L)) 0 ∗ semVal (cCcell d (cV L) (jV L)) 0
          ∗ bigSep ((((((ownCells (thrV d L)).erase (c6cell d (cV L) (jV L))).erase (c7cell d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := c6cell d (cV L) (jV L))).mpr ⟨rfl, by show (SemLoc.dma cc0_scratch2.sem : SemLoc sig).isScoped .scVector = true; decide⟩),
    SparseCore.bigSep_erase' (Finset.mem_erase.mpr ⟨cell_ne (by decide : (cc0_scratch3.sem : DmaSem sig) ≠ cc0_scratch2.sem), (mem_ownCells (g := c7cell d (cV L) (jV L))).mpr ⟨rfl, by show (SemLoc.dma cc0_scratch3.sem : SemLoc sig).isScoped .scVector = true; decide⟩⟩),
    SparseCore.bigSep_erase' (Finset.mem_erase.mpr ⟨cell_ne (by decide : (cc0_scoped0.sem : DmaSem sig) ≠ cc0_scratch3.sem), Finset.mem_erase.mpr ⟨cell_ne (by decide : (cc0_scoped0.sem : DmaSem sig) ≠ cc0_scratch2.sem), (mem_ownCells (g := cAcell d (cV L) (jV L))).mpr ⟨rfl, by show (SemLoc.dma cc0_scoped0.sem : SemLoc sig).isScoped .scVector = true; decide⟩⟩⟩),
    SparseCore.bigSep_erase' (Finset.mem_erase.mpr ⟨cell_ne (by decide : (cc0_scoped1.sem : DmaSem sig) ≠ cc0_scoped0.sem), Finset.mem_erase.mpr ⟨cell_ne (by decide : (cc0_scoped1.sem : DmaSem sig) ≠ cc0_scratch3.sem), Finset.mem_erase.mpr ⟨cell_ne (by decide : (cc0_scoped1.sem : DmaSem sig) ≠ cc0_scratch2.sem), (mem_ownCells (g := cBcell d (cV L) (jV L))).mpr ⟨rfl, by show (SemLoc.dma cc0_scoped1.sem : SemLoc sig).isScoped .scVector = true; decide⟩⟩⟩⟩),
    SparseCore.bigSep_erase' (Finset.mem_erase.mpr ⟨cell_ne (by decide : (cc0_scoped2.sem : DmaSem sig) ≠ cc0_scoped1.sem), Finset.mem_erase.mpr ⟨cell_ne (by decide : (cc0_scoped2.sem : DmaSem sig) ≠ cc0_scoped0.sem), Finset.mem_erase.mpr ⟨cell_ne (by decide : (cc0_scoped2.sem : DmaSem sig) ≠ cc0_scratch3.sem), Finset.mem_erase.mpr ⟨cell_ne (by decide : (cc0_scoped2.sem : DmaSem sig) ≠ cc0_scratch2.sem), (mem_ownCells (g := cCcell d (cV L) (jV L))).mpr ⟨rfl, by show (SemLoc.dma cc0_scoped2.sem : SemLoc sig).isScoped .scVector = true; decide⟩⟩⟩⟩⟩)]

/-- The two-row buffer is among the subcore's own: it is it, at some contents, and the rest. -/
theorem ownBufs_V :
    (ownBufs (thrV d L) : sProp 𝕄)
      = iprop((∃ f, bLoc d L ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L)) (b := (Proc.scVector (cV L) (jV L)).devRef cc0_scratch0) rfl)

/-! ## The task's program, copy by copy -/

/-- The same operations in the same order, each copy's window written through the closed form of its offsets. -/
def taskProg (L : grid0.Coords) : Prog (TpuEff nD τ sig (Elt F) Λ₀ (.scVector ((L 0).castLE hcore0) ((L 1).castLE hsub0))) PUnit := do
  Prog.lift (.enqueueDma fV (.here bufRow0) (.dma cc0_scoped0.sem) (Memref.isWhole_whole _).wordExact ((View.wordExact_bits rfl).reshape _ _) ⟨Or.inl rfl, trivial⟩)
  Prog.lift (.waitDma2 cc0_scoped0.sem fV bufRow0 (Memref.isWhole_whole _).wordExact ((View.wordExact_bits rfl).reshape _ _))
  Prog.lift (.enqueueDma fV (.here bufRow1) (.dma cc0_scoped1.sem) (Memref.isWhole_whole _).wordExact ((View.wordExact_bits rfl).reshape _ _) ⟨Or.inl rfl, trivial⟩)
  Prog.lift (.waitDma2 cc0_scoped1.sem fV bufRow1 (Memref.isWhole_whole _).wordExact ((View.wordExact_bits rfl).reshape _ _))
  Prog.lift (.enqueueDma fV (.here (shRowK L)) (.dma cc0_scoped2.sem) (Memref.isWhole_whole _).wordExact ((View.wordExact_bits rfl).reshape _ _) ⟨Or.inl rfl, trivial⟩)
  Prog.lift (.waitDma2 cc0_scoped2.sem fV (shRowK L) (Memref.isWhole_whole _).wordExact ((View.wordExact_bits rfl).reshape _ _))
  SparseCore.subcoreBarrier sc_bar0 (grid0.bound 1) hsub0
  Prog.lift (.enqueueDma shV (.here (dmWin L 0)) (.dma cc0_scratch3.sem) (Memref.isWhole_whole _).wordExact (View.wordExact_bits rfl) ⟨Or.inl rfl, trivial⟩)
  Prog.lift (.enqueueDma shV (.here (dmWin L 1)) (.dma cc0_scratch3.sem) (Memref.isWhole_whole _).wordExact (View.wordExact_bits rfl) ⟨Or.inl rfl, trivial⟩)
  Prog.lift (.enqueueDma shV (.here (dmWin L 2)) (.dma cc0_scratch3.sem) (Memref.isWhole_whole _).wordExact (View.wordExact_bits rfl) ⟨Or.inl rfl, trivial⟩)
  Prog.lift (.enqueueDma bV (.here (stWin L 0)) (.dma cc0_scratch2.sem) (Memref.isWhole_whole _).wordExact (View.wordExact_bits rfl) ⟨Or.inl rfl, trivial⟩)
  Prog.lift (.enqueueDma bV (.here (stWin L 1)) (.dma cc0_scratch2.sem) (Memref.isWhole_whole _).wordExact (View.wordExact_bits rfl) ⟨Or.inl rfl, trivial⟩)
  Prog.lift (.enqueueDma bV (.here (stWin L 2)) (.dma cc0_scratch2.sem) (Memref.isWhole_whole _).wordExact (View.wordExact_bits rfl) ⟨Or.inl rfl, trivial⟩)
  Prog.lift (.enqueueDma bV (.here (stWin L 3)) (.dma cc0_scratch2.sem) (Memref.isWhole_whole _).wordExact (View.wordExact_bits rfl) ⟨Or.inl rfl, trivial⟩)
  Prog.lift (.enqueueDma bV (.here (stWin L 4)) (.dma cc0_scratch2.sem) (Memref.isWhole_whole _).wordExact (View.wordExact_bits rfl) ⟨Or.inl rfl, trivial⟩)
  Prog.lift (.enqueueDma bV (.here (stWin L 5)) (.dma cc0_scratch2.sem) (Memref.isWhole_whole _).wordExact (View.wordExact_bits rfl) ⟨Or.inl rfl, trivial⟩)
  Prog.lift (.enqueueDma bV (.here (stWin L 6)) (.dma cc0_scratch2.sem) (Memref.isWhole_whole _).wordExact (View.wordExact_bits rfl) ⟨Or.inl rfl, trivial⟩)
  Prog.lift (.enqueueDma bV (.here (stWin L 7)) (.dma cc0_scratch2.sem) (Memref.isWhole_whole _).wordExact (View.wordExact_bits rfl) ⟨Or.inl rfl, trivial⟩)
  Prog.lift (.enqueueDma bV (.here (stWin L 8)) (.dma cc0_scratch2.sem) (Memref.isWhole_whole _).wordExact (View.wordExact_bits rfl) ⟨Or.inl rfl, trivial⟩)
  Prog.lift (.enqueueDma bV (.here (stWin L 9)) (.dma cc0_scratch2.sem) (Memref.isWhole_whole _).wordExact (View.wordExact_bits rfl) ⟨Or.inl rfl, trivial⟩)
  Prog.lift (.enqueueDma bV (.here (stWin L 10)) (.dma cc0_scratch2.sem) (Memref.isWhole_whole _).wordExact (View.wordExact_bits rfl) ⟨Or.inl rfl, trivial⟩)
  Prog.lift (.enqueueDma bV (.here (stWin L 11)) (.dma cc0_scratch2.sem) (Memref.isWhole_whole _).wordExact (View.wordExact_bits rfl) ⟨Or.inl rfl, trivial⟩)
  Prog.lift (.enqueueDma bV (.here (stWin L 12)) (.dma cc0_scratch2.sem) (Memref.isWhole_whole _).wordExact (View.wordExact_bits rfl) ⟨Or.inl rfl, trivial⟩)
  Prog.lift (.enqueueDma bV (.here (stWin L 13)) (.dma cc0_scratch2.sem) (Memref.isWhole_whole _).wordExact (View.wordExact_bits rfl) ⟨Or.inl rfl, trivial⟩)
  Prog.lift (.enqueueDma bV (.here (stWin L 14)) (.dma cc0_scratch2.sem) (Memref.isWhole_whole _).wordExact (View.wordExact_bits rfl) ⟨Or.inl rfl, trivial⟩)
  Prog.lift (.enqueueDma bV (.here (stWin L 15)) (.dma cc0_scratch2.sem) (Memref.isWhole_whole _).wordExact (View.wordExact_bits rfl) ⟨Or.inl rfl, trivial⟩)
  Prog.lift (.enqueueDma bV (.here (stWin L 16)) (.dma cc0_scratch2.sem) (Memref.isWhole_whole _).wordExact (View.wordExact_bits rfl) ⟨Or.inl rfl, trivial⟩)
  Prog.lift (.enqueueDma bV (.here (stWin L 17)) (.dma cc0_scratch2.sem) (Memref.isWhole_whole _).wordExact (View.wordExact_bits rfl) ⟨Or.inl rfl, trivial⟩)
  Prog.lift (.enqueueDma bV (.here (stWin L 18)) (.dma cc0_scratch2.sem) (Memref.isWhole_whole _).wordExact (View.wordExact_bits rfl) ⟨Or.inl rfl, trivial⟩)
  Prog.lift (.enqueueDma bV (.here (stWin L 19)) (.dma cc0_scratch2.sem) (Memref.isWhole_whole _).wordExact (View.wordExact_bits rfl) ⟨Or.inl rfl, trivial⟩)
  Prog.lift (.enqueueDma bV (.here (stWin L 20)) (.dma cc0_scratch2.sem) (Memref.isWhole_whole _).wordExact (View.wordExact_bits rfl) ⟨Or.inl rfl, trivial⟩)
  Prog.lift (.enqueueDma bV (.here (stWin L 21)) (.dma cc0_scratch2.sem) (Memref.isWhole_whole _).wordExact (View.wordExact_bits rfl) ⟨Or.inl rfl, trivial⟩)
  Prog.lift (.enqueueDma bV (.here (stWin L 22)) (.dma cc0_scratch2.sem) (Memref.isWhole_whole _).wordExact (View.wordExact_bits rfl) ⟨Or.inl rfl, trivial⟩)
  Prog.lift (.enqueueDma bV (.here (stWin L 23)) (.dma cc0_scratch2.sem) (Memref.isWhole_whole _).wordExact (View.wordExact_bits rfl) ⟨Or.inl rfl, trivial⟩)
  Prog.lift (.enqueueDma bV (.here (stWin L 24)) (.dma cc0_scratch2.sem) (Memref.isWhole_whole _).wordExact (View.wordExact_bits rfl) ⟨Or.inl rfl, trivial⟩)
  Prog.lift (.enqueueDma bV (.here (stWin L 25)) (.dma cc0_scratch2.sem) (Memref.isWhole_whole _).wordExact (View.wordExact_bits rfl) ⟨Or.inl rfl, trivial⟩)
  Prog.lift (.enqueueDma bV (.here (stWin L 26)) (.dma cc0_scratch2.sem) (Memref.isWhole_whole _).wordExact (View.wordExact_bits rfl) ⟨Or.inl rfl, trivial⟩)
  Prog.lift (.enqueueDma bV (.here (stWin L 27)) (.dma cc0_scratch2.sem) (Memref.isWhole_whole _).wordExact (View.wordExact_bits rfl) ⟨Or.inl rfl, trivial⟩)
  Prog.lift (.enqueueDma bV (.here (stWin L 28)) (.dma cc0_scratch2.sem) (Memref.isWhole_whole _).wordExact (View.wordExact_bits rfl) ⟨Or.inl rfl, trivial⟩)
  Prog.lift (.enqueueDma bV (.here (stWin L 29)) (.dma cc0_scratch2.sem) (Memref.isWhole_whole _).wordExact (View.wordExact_bits rfl) ⟨Or.inl rfl, trivial⟩)
  Prog.lift (.enqueueDma bV (.here (stWin L 30)) (.dma cc0_scratch2.sem) (Memref.isWhole_whole _).wordExact (View.wordExact_bits rfl) ⟨Or.inl rfl, trivial⟩)
  Prog.lift (.enqueueDma bV (.here (stWin L 31)) (.dma cc0_scratch2.sem) (Memref.isWhole_whole _).wordExact (View.wordExact_bits rfl) ⟨Or.inl rfl, trivial⟩)
  Prog.lift (.enqueueDma bV (.here (stWin L 32)) (.dma cc0_scratch2.sem) (Memref.isWhole_whole _).wordExact (View.wordExact_bits rfl) ⟨Or.inl rfl, trivial⟩)
  Prog.lift (.enqueueDma bV (.here (stWin L 33)) (.dma cc0_scratch2.sem) (Memref.isWhole_whole _).wordExact (View.wordExact_bits rfl) ⟨Or.inl rfl, trivial⟩)
  Prog.lift (.enqueueDma bV (.here (stWin L 34)) (.dma cc0_scratch2.sem) (Memref.isWhole_whole _).wordExact (View.wordExact_bits rfl) ⟨Or.inl rfl, trivial⟩)
  Prog.lift (.enqueueDma bV (.here (stWin L 35)) (.dma cc0_scratch2.sem) (Memref.isWhole_whole _).wordExact (View.wordExact_bits rfl) ⟨Or.inl rfl, trivial⟩)
  Prog.lift (.enqueueDma bV (.here (stWin L 36)) (.dma cc0_scratch2.sem) (Memref.isWhole_whole _).wordExact (View.wordExact_bits rfl) ⟨Or.inl rfl, trivial⟩)
  Prog.lift (.enqueueDma bV (.here (stWin L 37)) (.dma cc0_scratch2.sem) (Memref.isWhole_whole _).wordExact (View.wordExact_bits rfl) ⟨Or.inl rfl, trivial⟩)
  Prog.lift (.enqueueDma bV (.here (stWin L 38)) (.dma cc0_scratch2.sem) (Memref.isWhole_whole _).wordExact (View.wordExact_bits rfl) ⟨Or.inl rfl, trivial⟩)
  Prog.lift (.enqueueDma bV (.here (stWin L 39)) (.dma cc0_scratch2.sem) (Memref.isWhole_whole _).wordExact (View.wordExact_bits rfl) ⟨Or.inl rfl, trivial⟩)
  Prog.lift (.waitDma2 cc0_scratch3.sem shV (dmWin L 0) (Memref.isWhole_whole _).wordExact (View.wordExact_bits rfl))
  Prog.lift (.waitDma2 cc0_scratch3.sem shV (dmWin L 1) (Memref.isWhole_whole _).wordExact (View.wordExact_bits rfl))
  Prog.lift (.waitDma2 cc0_scratch3.sem shV (dmWin L 2) (Memref.isWhole_whole _).wordExact (View.wordExact_bits rfl))
  Prog.lift (.waitDma2 cc0_scratch2.sem bV (stWin L 0) (Memref.isWhole_whole _).wordExact (View.wordExact_bits rfl))
  Prog.lift (.waitDma2 cc0_scratch2.sem bV (stWin L 1) (Memref.isWhole_whole _).wordExact (View.wordExact_bits rfl))
  Prog.lift (.waitDma2 cc0_scratch2.sem bV (stWin L 2) (Memref.isWhole_whole _).wordExact (View.wordExact_bits rfl))
  Prog.lift (.waitDma2 cc0_scratch2.sem bV (stWin L 3) (Memref.isWhole_whole _).wordExact (View.wordExact_bits rfl))
  Prog.lift (.waitDma2 cc0_scratch2.sem bV (stWin L 4) (Memref.isWhole_whole _).wordExact (View.wordExact_bits rfl))
  Prog.lift (.waitDma2 cc0_scratch2.sem bV (stWin L 5) (Memref.isWhole_whole _).wordExact (View.wordExact_bits rfl))
  Prog.lift (.waitDma2 cc0_scratch2.sem bV (stWin L 6) (Memref.isWhole_whole _).wordExact (View.wordExact_bits rfl))
  Prog.lift (.waitDma2 cc0_scratch2.sem bV (stWin L 7) (Memref.isWhole_whole _).wordExact (View.wordExact_bits rfl))
  Prog.lift (.waitDma2 cc0_scratch2.sem bV (stWin L 8) (Memref.isWhole_whole _).wordExact (View.wordExact_bits rfl))
  Prog.lift (.waitDma2 cc0_scratch2.sem bV (stWin L 9) (Memref.isWhole_whole _).wordExact (View.wordExact_bits rfl))
  Prog.lift (.waitDma2 cc0_scratch2.sem bV (stWin L 10) (Memref.isWhole_whole _).wordExact (View.wordExact_bits rfl))
  Prog.lift (.waitDma2 cc0_scratch2.sem bV (stWin L 11) (Memref.isWhole_whole _).wordExact (View.wordExact_bits rfl))
  Prog.lift (.waitDma2 cc0_scratch2.sem bV (stWin L 12) (Memref.isWhole_whole _).wordExact (View.wordExact_bits rfl))
  Prog.lift (.waitDma2 cc0_scratch2.sem bV (stWin L 13) (Memref.isWhole_whole _).wordExact (View.wordExact_bits rfl))
  Prog.lift (.waitDma2 cc0_scratch2.sem bV (stWin L 14) (Memref.isWhole_whole _).wordExact (View.wordExact_bits rfl))
  Prog.lift (.waitDma2 cc0_scratch2.sem bV (stWin L 15) (Memref.isWhole_whole _).wordExact (View.wordExact_bits rfl))
  Prog.lift (.waitDma2 cc0_scratch2.sem bV (stWin L 16) (Memref.isWhole_whole _).wordExact (View.wordExact_bits rfl))
  Prog.lift (.waitDma2 cc0_scratch2.sem bV (stWin L 17) (Memref.isWhole_whole _).wordExact (View.wordExact_bits rfl))
  Prog.lift (.waitDma2 cc0_scratch2.sem bV (stWin L 18) (Memref.isWhole_whole _).wordExact (View.wordExact_bits rfl))
  Prog.lift (.waitDma2 cc0_scratch2.sem bV (stWin L 19) (Memref.isWhole_whole _).wordExact (View.wordExact_bits rfl))
  Prog.lift (.waitDma2 cc0_scratch2.sem bV (stWin L 20) (Memref.isWhole_whole _).wordExact (View.wordExact_bits rfl))
  Prog.lift (.waitDma2 cc0_scratch2.sem bV (stWin L 21) (Memref.isWhole_whole _).wordExact (View.wordExact_bits rfl))
  Prog.lift (.waitDma2 cc0_scratch2.sem bV (stWin L 22) (Memref.isWhole_whole _).wordExact (View.wordExact_bits rfl))
  Prog.lift (.waitDma2 cc0_scratch2.sem bV (stWin L 23) (Memref.isWhole_whole _).wordExact (View.wordExact_bits rfl))
  Prog.lift (.waitDma2 cc0_scratch2.sem bV (stWin L 24) (Memref.isWhole_whole _).wordExact (View.wordExact_bits rfl))
  Prog.lift (.waitDma2 cc0_scratch2.sem bV (stWin L 25) (Memref.isWhole_whole _).wordExact (View.wordExact_bits rfl))
  Prog.lift (.waitDma2 cc0_scratch2.sem bV (stWin L 26) (Memref.isWhole_whole _).wordExact (View.wordExact_bits rfl))
  Prog.lift (.waitDma2 cc0_scratch2.sem bV (stWin L 27) (Memref.isWhole_whole _).wordExact (View.wordExact_bits rfl))
  Prog.lift (.waitDma2 cc0_scratch2.sem bV (stWin L 28) (Memref.isWhole_whole _).wordExact (View.wordExact_bits rfl))
  Prog.lift (.waitDma2 cc0_scratch2.sem bV (stWin L 29) (Memref.isWhole_whole _).wordExact (View.wordExact_bits rfl))
  Prog.lift (.waitDma2 cc0_scratch2.sem bV (stWin L 30) (Memref.isWhole_whole _).wordExact (View.wordExact_bits rfl))
  Prog.lift (.waitDma2 cc0_scratch2.sem bV (stWin L 31) (Memref.isWhole_whole _).wordExact (View.wordExact_bits rfl))
  Prog.lift (.waitDma2 cc0_scratch2.sem bV (stWin L 32) (Memref.isWhole_whole _).wordExact (View.wordExact_bits rfl))
  Prog.lift (.waitDma2 cc0_scratch2.sem bV (stWin L 33) (Memref.isWhole_whole _).wordExact (View.wordExact_bits rfl))
  Prog.lift (.waitDma2 cc0_scratch2.sem bV (stWin L 34) (Memref.isWhole_whole _).wordExact (View.wordExact_bits rfl))
  Prog.lift (.waitDma2 cc0_scratch2.sem bV (stWin L 35) (Memref.isWhole_whole _).wordExact (View.wordExact_bits rfl))
  Prog.lift (.waitDma2 cc0_scratch2.sem bV (stWin L 36) (Memref.isWhole_whole _).wordExact (View.wordExact_bits rfl))
  Prog.lift (.waitDma2 cc0_scratch2.sem bV (stWin L 37) (Memref.isWhole_whole _).wordExact (View.wordExact_bits rfl))
  Prog.lift (.waitDma2 cc0_scratch2.sem bV (stWin L 38) (Memref.isWhole_whole _).wordExact (View.wordExact_bits rfl))
  Prog.lift (.waitDma2 cc0_scratch2.sem bV (stWin L 39) (Memref.isWhole_whole _).wordExact (View.wordExact_bits rfl))
  pure ⟨⟩

set_option maxRecDepth 65536 in
theorem bcast_eq_task (L : grid0.Coords) :
    cc0_bcast (F := F) L fV (Memref.isWhole_whole _) oV (Memref.isWhole_whole _) bV (Memref.isWhole_whole _) shV (Memref.isWhole_whole _)
        cc0_scratch2 cc0_scratch3 cc0_scoped0 cc0_scoped1 cc0_scoped2
      = taskProg (F := F) L := rfl

/-! ## The arrays as the subcore's memrefs address them -/

theorem pts_fl (q : PosShare TreeShare) (f : Buf (Elt F) (flLoc d)) :
    ((fV).view.loc (thrV d L) ↦{q} f : sProp 𝕄) = flLoc d ↦{q} f := rfl
theorem pts_b (f : Buf (Elt F) (bLoc d L)) :
    ((bV).view.loc (thrV d L) ↦{fullShare} f : sProp 𝕄) = bLoc d L ↦{fullShare} f := rfl
theorem pts_shRow (f : Buf (Elt F) (shLoc d (cV L))) :
    ((shRowK L).view.loc (thrV d L) ↦[(shRowK L).view.set]{fullShare} f : sProp 𝕄) = shLoc d (cV L) ↦[shRows (jL L)]{fullShare} f := by
  rw [set_shRowK]; rfl
theorem pts_shw (q : PosShare TreeShare) (f : Buf (Elt F) (shLoc d (cV L))) :
    ((shV).view.loc (thrV d L) ↦{q} f : sProp 𝕄) = shLoc d (cV L) ↦{q} f := rfl

/-! ## The task -/

variable [FloatOps F] [∀ e, Nonempty (Elt F e)]

set_option maxHeartbeats 8000000 in
set_option maxRecDepth 65536 in
theorem tile_body (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι)
    (_planD : Transfers.BatchOf (thrV d L) (SemLoc.dma (sig := sig) cc0_scratch3.sem) 3 (windows := true))
    (_planS : Transfers.BatchOf (thrV d L) (SemLoc.dma (sig := sig) cc0_scratch2.sem) 40 (windows := true)) :
    iprop(levAts (K (F := F)).L (K (F := F)).lev ∗ bkit fl d (cV L) (jV L)
        ∗ (flTok fl d (qT (cL L) (jL L)) ∗ (oLoc d ↦[stRows (cL L) (jL L)]{fullShare} m (oLoc d)) ∗ (oLoc d ↦[dmRows (cL L) (jL L)]{fullShare} m (oLoc d))
            ∗ ∃ f, shLoc d (cV L) ↦[shRows (jL L)]{fullShare} f)
        ∗ scopedBufs (thrV d L) ∗ scopedSems0 (thrV d L) ∗ owes (thrV d L) (O + oxV d (cV L)) W)
      ⊢ wp frame (wpE (defs₀ (F := F)) 𝒱₀ (thrV d L) none) Set.univ (taskProg (F := F) L)
          fun _ => iprop((flTok fl d (qT (cL L) (jL L)) ∗ (oLoc d ↦[stRows (cL L) (jL L)]{fullShare} tgt fl d) ∗ (oLoc d ↦[dmRows (cL L) (jL L)]{fullShare} tgt fl d)
              ∗ (shLoc d (cV L) ↦{Transfers.shareTok fullShare 16 (jL L)} shFin fl d (cV L))
              ∗ (shLoc d (cV L) ↦[shRows (jL L)]{Transfers.shareDrop fullShare 16} shFin fl d (cV L)))
            ∗ scopedBufs (thrV d L) ∗ scopedSems0 (thrV d L)
            ∗ ∃ W', ⌜∀ p ∈ W', p ∈ W ∨ p.2 = none ∨ p.2 = some (0 : Fin 1)⌝ ∗ owes (thrV d L) O W') := by
  unfold taskProg
  rw [(K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, Htoks, #Hrch, Hat, Hcred⟩, ⟨Hfl, Hst, Hdm, %fsh, Hsh⟩, ⟨⟨%fb, Hb⟩, Hbufs⟩, ⟨Hs6, Hs7, HsA, HsB, HsC, Hsems⟩, HO⟩
  -- the waits' evidence: at index `none`, under either debt
  have hO' : ∀ g, (O + oxV d (cV L)) g none = 0 := fun g => by rw [Pi.add_apply, Finsupp.add_apply, hO g, oxV_none]
  ihave Hmw1 := (show levAts (K (F := F)).L (K (F := F)).lev ⊢ Transfers.MayWaits (thrV d L) (default : HIx 1) (O + oxV d (cV L)) from
    (K (F := F)).mayWaits_none (thr := thrV d L) hO') $$ Hlv
  ihave Hmw2 := (show levAts (K (F := F)).L (K (F := F)).lev ⊢ Transfers.MayWaits (thrV d L) (default : HIx 1) O from
    (K (F := F)).mayWaits_none (thr := thrV d L) hO) $$ Hlv
  ihave Hfl' := (Entails.of_eq (pts_fl (F := F) d L _ _).symm) $$ Hfl
  ihave Hb' := (Entails.of_eq (pts_b (F := F) d L _).symm) $$ Hb
  ihave Hsh' := (Entails.of_eq (pts_shRow (F := F) d L _).symm) $$ Hsh
  -- the flattened table into both rows of the buffer and into the subcore's row of the scratch, each waited for
  sl_exec
  -- the row published: sixteen read tokens, the remainder kept
  have hp0 : (tile_body.sl.dma0 fl d : S12800.Idx → Elt F .f32) = fl d := rfl
  ihave Hsh2 := (Entails.of_eq (sh_landed fl d L _ _ hp0)) $$ Hsh'
  ihave Hp := (pays_intro fl d L) $$ Hsh2
  icases Hp with ⟨Hkeep, Hpays⟩
  iapply (SparseCore.wp_subcoreBarrier 𝒱₀ none EB (barRd (F := F) fl) d (sc := cV L) (i := jV L) sc_bar0 (grid0.bound 1) hsub0 (L 1) rfl κ (fun _ => 0) (jV L).val
      (fun j => barRd_mem₀ fl d _ _ _) (fun _ => rfl) (barRd_expect fl d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := thrV d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  -- received: token `L 1` of the whole scratch
  ihave Hshw := (pays_elim fl d L) $$ Hgot
  ihave Hshw' := (Entails.of_eq (pts_shw (F := F) d L _ _).symm) $$ Hshw
  -- the rows to fill, window by window
  ihave Hst' := (Entails.of_eq (st_open (F := F) d L _)) $$ Hst
  icases Hst' with ⟨Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Ht27, Ht28, Ht29, Ht30, Ht31, Ht32, Ht33, Ht34, Ht35, Ht36, Ht37, Ht38, Ht39⟩
  ihave Hdm' := (Entails.of_eq (dm_open (F := F) d L _)) $$ Hdm
  icases Hdm' with ⟨Hd0, Hd1, Hd2⟩
  -- the 43 copies started, then waited for
  sl_exec
  sl_step
  -- every window holds the flattened table in each of its rows
  have hp3 : (tile_body.sl.dma3 fl d L fb : S2x12800.Idx → Elt F .f32) = rowsOf (n := 2) (fl d) := buf_two_rows (fl d) fb
  have hp1 : (tile_body.sl.dma0_1 fl d L : S16x12800.Idx → Elt F .f32) = rowsOf (n := 16) (fl d) := rfl
  ihave Ht0 := (Entails.of_eq (st_landed fl d L 0 _ _ hp3)) $$ Ht0
  ihave Ht1 := (Entails.of_eq (st_landed fl d L 1 _ _ hp3)) $$ Ht1
  ihave Ht2 := (Entails.of_eq (st_landed fl d L 2 _ _ hp3)) $$ Ht2
  ihave Ht3 := (Entails.of_eq (st_landed fl d L 3 _ _ hp3)) $$ Ht3
  ihave Ht4 := (Entails.of_eq (st_landed fl d L 4 _ _ hp3)) $$ Ht4
  ihave Ht5 := (Entails.of_eq (st_landed fl d L 5 _ _ hp3)) $$ Ht5
  ihave Ht6 := (Entails.of_eq (st_landed fl d L 6 _ _ hp3)) $$ Ht6
  ihave Ht7 := (Entails.of_eq (st_landed fl d L 7 _ _ hp3)) $$ Ht7
  ihave Ht8 := (Entails.of_eq (st_landed fl d L 8 _ _ hp3)) $$ Ht8
  ihave Ht9 := (Entails.of_eq (st_landed fl d L 9 _ _ hp3)) $$ Ht9
  ihave Ht10 := (Entails.of_eq (st_landed fl d L 10 _ _ hp3)) $$ Ht10
  ihave Ht11 := (Entails.of_eq (st_landed fl d L 11 _ _ hp3)) $$ Ht11
  ihave Ht12 := (Entails.of_eq (st_landed fl d L 12 _ _ hp3)) $$ Ht12
  ihave Ht13 := (Entails.of_eq (st_landed fl d L 13 _ _ hp3)) $$ Ht13
  ihave Ht14 := (Entails.of_eq (st_landed fl d L 14 _ _ hp3)) $$ Ht14
  ihave Ht15 := (Entails.of_eq (st_landed fl d L 15 _ _ hp3)) $$ Ht15
  ihave Ht16 := (Entails.of_eq (st_landed fl d L 16 _ _ hp3)) $$ Ht16
  ihave Ht17 := (Entails.of_eq (st_landed fl d L 17 _ _ hp3)) $$ Ht17
  ihave Ht18 := (Entails.of_eq (st_landed fl d L 18 _ _ hp3)) $$ Ht18
  ihave Ht19 := (Entails.of_eq (st_landed fl d L 19 _ _ hp3)) $$ Ht19
  ihave Ht20 := (Entails.of_eq (st_landed fl d L 20 _ _ hp3)) $$ Ht20
  ihave Ht21 := (Entails.of_eq (st_landed fl d L 21 _ _ hp3)) $$ Ht21
  ihave Ht22 := (Entails.of_eq (st_landed fl d L 22 _ _ hp3)) $$ Ht22
  ihave Ht23 := (Entails.of_eq (st_landed fl d L 23 _ _ hp3)) $$ Ht23
  ihave Ht24 := (Entails.of_eq (st_landed fl d L 24 _ _ hp3)) $$ Ht24
  ihave Ht25 := (Entails.of_eq (st_landed fl d L 25 _ _ hp3)) $$ Ht25
  ihave Ht26 := (Entails.of_eq (st_landed fl d L 26 _ _ hp3)) $$ Ht26
  ihave Ht27 := (Entails.of_eq (st_landed fl d L 27 _ _ hp3)) $$ Ht27
  ihave Ht28 := (Entails.of_eq (st_landed fl d L 28 _ _ hp3)) $$ Ht28
  ihave Ht29 := (Entails.of_eq (st_landed fl d L 29 _ _ hp3)) $$ Ht29
  ihave Ht30 := (Entails.of_eq (st_landed fl d L 30 _ _ hp3)) $$ Ht30
  ihave Ht31 := (Entails.of_eq (st_landed fl d L 31 _ _ hp3)) $$ Ht31
  ihave Ht32 := (Entails.of_eq (st_landed fl d L 32 _ _ hp3)) $$ Ht32
  ihave Ht33 := (Entails.of_eq (st_landed fl d L 33 _ _ hp3)) $$ Ht33
  ihave Ht34 := (Entails.of_eq (st_landed fl d L 34 _ _ hp3)) $$ Ht34
  ihave Ht35 := (Entails.of_eq (st_landed fl d L 35 _ _ hp3)) $$ Ht35
  ihave Ht36 := (Entails.of_eq (st_landed fl d L 36 _ _ hp3)) $$ Ht36
  ihave Ht37 := (Entails.of_eq (st_landed fl d L 37 _ _ hp3)) $$ Ht37
  ihave Ht38 := (Entails.of_eq (st_landed fl d L 38 _ _ hp3)) $$ Ht38
  ihave Ht39 := (Entails.of_eq (st_landed fl d L 39 _ _ hp3)) $$ Ht39
  ihave Hd0 := (Entails.of_eq (dm_landed fl d L 0 _ _ hp1)) $$ Hd0
  ihave Hd1 := (Entails.of_eq (dm_landed fl d L 1 _ _ hp1)) $$ Hd1
  ihave Hd2 := (Entails.of_eq (dm_landed fl d L 2 _ _ hp1)) $$ Hd2
  isplitl [Hfl' Ht0 Ht1 Ht2 Ht3 Ht4 Ht5 Ht6 Ht7 Ht8 Ht9 Ht10 Ht11 Ht12 Ht13 Ht14 Ht15 Ht16 Ht17 Ht18 Ht19 Ht20 Ht21 Ht22 Ht23 Ht24 Ht25 Ht26 Ht27 Ht28 Ht29 Ht30 Ht31 Ht32 Ht33 Ht34 Ht35 Ht36 Ht37 Ht38 Ht39 Hd0 Hd1 Hd2 Hshw' Hkeep]
  · isplitl [Hfl']; · iapply (Entails.of_eq (pts_fl (F := F) d L _ _)); iexact Hfl'
    isplitl [Ht0 Ht1 Ht2 Ht3 Ht4 Ht5 Ht6 Ht7 Ht8 Ht9 Ht10 Ht11 Ht12 Ht13 Ht14 Ht15 Ht16 Ht17 Ht18 Ht19 Ht20 Ht21 Ht22 Ht23 Ht24 Ht25 Ht26 Ht27 Ht28 Ht29 Ht30 Ht31 Ht32 Ht33 Ht34 Ht35 Ht36 Ht37 Ht38 Ht39]
    · iapply (Entails.of_eq (st_open (F := F) d L (tgt fl d)).symm)
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      isplitl [Ht7]; · iexact Ht7
      isplitl [Ht8]; · iexact Ht8
      isplitl [Ht9]; · iexact Ht9
      isplitl [Ht10]; · iexact Ht10
      isplitl [Ht11]; · iexact Ht11
      isplitl [Ht12]; · iexact Ht12
      isplitl [Ht13]; · iexact Ht13
      isplitl [Ht14]; · iexact Ht14
      isplitl [Ht15]; · iexact Ht15
      isplitl [Ht16]; · iexact Ht16
      isplitl [Ht17]; · iexact Ht17
      isplitl [Ht18]; · iexact Ht18
      isplitl [Ht19]; · iexact Ht19
      isplitl [Ht20]; · iexact Ht20
      isplitl [Ht21]; · iexact Ht21
      isplitl [Ht22]; · iexact Ht22
      isplitl [Ht23]; · iexact Ht23
      isplitl [Ht24]; · iexact Ht24
      isplitl [Ht25]; · iexact Ht25
      isplitl [Ht26]; · iexact Ht26
      isplitl [Ht27]; · iexact Ht27
      isplitl [Ht28]; · iexact Ht28
      isplitl [Ht29]; · iexact Ht29
      isplitl [Ht30]; · iexact Ht30
      isplitl [Ht31]; · iexact Ht31
      isplitl [Ht32]; · iexact Ht32
      isplitl [Ht33]; · iexact Ht33
      isplitl [Ht34]; · iexact Ht34
      isplitl [Ht35]; · iexact Ht35
      isplitl [Ht36]; · iexact Ht36
      isplitl [Ht37]; · iexact Ht37
      isplitl [Ht38]; · iexact Ht38
      iexact Ht39
    isplitl [Hd0 Hd1 Hd2]
    · iapply (Entails.of_eq (dm_open (F := F) d L (tgt fl d)).symm)
      isplitl [Hd0]; · iexact Hd0
      isplitl [Hd1]; · iexact Hd1
      iexact Hd2
    isplitl [Hshw']; · iapply (Entails.of_eq (pts_shw (F := F) d L _ _)); iexact Hshw'
    iexact Hkeep
  isplitl [Hb' Hbufs]
  · isplitl [Hb']; · iexists _; iapply (Entails.of_eq (pts_b (F := F) d L _)); iexact Hb'
    iexact Hbufs
  isplitl [Hs6 Hs7 HsA HsB HsC Hsems]
  · isplitl [Hs6]; · iexact Hs6
    isplitl [Hs7]; · iexact Hs7
    isplitl [HsA]; · iexact HsA
    isplitl [HsB]; · iexact HsB
    isplitl [HsC]; · iexact HsC
    iexact Hsems
  iexists _; isplitr
  swap; · iexact HO
  ipureintro; intro p hp
  repeat (rcases Finset.mem_insert.mp hp with hp | hp; · first | exact .inr (.inl (hp ▸ rfl)) | exact .inr (.inr (hp ▸ rfl)))
  exact .inl hp

end Cert.Proof.BcastB

end
-- ==== Proof.SplitB.lean ====
/-
  How one SparseCore's operands are dealt to its sixteen subcores, and how its results are gathered from theirs.

  Going out: the SparseCore's read token of the flattened table is sixteen tokens and a remainder that stays
  behind; its 2048 rows of the output are 16 · 80 + 16 · 48 rows, each part sixteen equal consecutive chunks; the
  shared scratch, one of the sequencer's own buffers, is its sixteen rows. Coming back: the sixteen table tokens
  and the remainder are the SparseCore's token again; the chunks, now holding the flattened table in every row,
  are the 2048 rows; of the scratch each subcore returns one token of the whole and the remainder of one row, which
  together are the scratch whole.
-/
import proofs.«213620_g48704929136794_cont_8to1c4_761_22_alg».proof.Proof.PayB

noncomputable section

namespace Cert.Proof.BcastB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "fV" => (Memref.whole Cert.Kernel.main_v0_scv : Memref Cert.Kernel.sig Kind.scVector Space.hbm Cert.Kernel.S12800 EltTy.f32)
local notation "oV" => (Memref.whole Cert.Kernel.main_v1_scv : Memref Cert.Kernel.sig Kind.scVector Space.hbm Cert.Kernel.S4096x12800 EltTy.f32)
local notation "bV" => (Memref.whole Cert.Kernel.cc0_scratch0 : Memref Cert.Kernel.sig Kind.scVector Space.vmem Cert.Kernel.S2x12800 EltTy.f32)
local notation "shV" => (Memref.whole Cert.Kernel.cc0_scratch1 : Memref Cert.Kernel.sig Kind.scVector Space.shared Cert.Kernel.S16x12800 EltTy.f32)

/-! ## Ranges of rows, cut in two and in chunks -/

omit F in
/-- Holding a range of a + b rows is holding its first a rows and its last b. -/
theorem pts_split2 {F : FTy → Type} (d : Dev nD) (lo a b : ℕ) (h : lo + (a + b) ≤ 4096) (q : PosShare TreeShare) (f : Buf (Elt F) (oLoc d)) :
    (oLoc d ↦[rowsSet lo (a + b) h]{q} f : sProp (MT nD τ sig (HIx 1) (Elt F) ℕ UU ℕ))
      = iprop((oLoc d ↦[rowsSet lo a (by omega)]{q} f) ∗ oLoc d ↦[rowsSet (lo + a) b (by omega)]{q} f) := by
  have hu : rowsSet lo (a + b) h = rowsSet lo a (by omega) ∪ rowsSet (lo + a) b (by omega) := by
    ext i
    rw [Finset.mem_union, mem_rowsSet, mem_rowsSet, mem_rowsSet]
    omega
  have hd : Disjoint (rowsSet lo a (show lo + a ≤ 4096 by omega)) (rowsSet (lo + a) b (show lo + a + b ≤ 4096 by omega)) :=
    rowsSet_disjoint (Or.inl (Nat.le_refl _))
  rw [hu]
  exact BI.equiv_iff.mp ⟨(pointsTo_union hd).1, (pointsTo_union hd).2⟩

omit F in
/-- Two ways of counting one number of rows: the range is the same. -/
theorem rowsSet_len {lo n n' : ℕ} (e : n = n') (h : lo + n ≤ 4096) : rowsSet lo n h = rowsSet lo n' (e ▸ h) := by
  subst e; rfl

/-- A SparseCore's 2048 rows are its subcores' chunks: sixteen of 80 rows, then sixteen of 48. -/
theorem rows_split (d : Dev nD) (cc : Fin 2) (q : PosShare TreeShare) (f : Buf (Elt F) (oLoc d)) :
    (oLoc d ↦[coreRows cc]{q} f : sProp 𝕄)
      = iprop((bigSep Finset.univ fun i : Fin 16 => oLoc d ↦[stRows cc i]{q} f)
          ∗ bigSep Finset.univ fun i : Fin 16 => oLoc d ↦[dmRows cc i]{q} f) := by
  have h2 : coreLo cc + (16 * 80 + 16 * 48) ≤ 4096 := core_le cc
  show (oLoc d ↦[rowsSet (coreLo cc) (16 * 80 + 16 * 48) h2]{q} f : sProp 𝕄) = _
  rw [pts_split2 d (coreLo cc) (16 * 80) (16 * 48) h2 q f, pts_chunks d (coreLo cc) 80 16 (by decide) (coreSt_le cc) q f,
    pts_chunks d (coreLo cc + 16 * 80) 48 16 (by decide) (coreDm_le cc) q f]

/-! ## The read token of the flattened table -/

variable (fl : (d : Dev nD) → Buf (Elt F) (flLoc d)) (m : (ℓ : Loc nD τ sig) → Buf (Elt F) ℓ)

/-- A SparseCore's read token is its subcores' sixteen and a remainder. -/
theorem tok_split (d : Dev nD) (cc : Fin 2) :
    (flTok fl d (qC cc) : sProp 𝕄)
      = iprop((flLoc d ↦{Transfers.shareDrop (qC cc) 16} fl d) ∗ bigSep Finset.univ fun i : Fin 16 => flTok fl d (qT cc i)) :=
  BI.equiv_iff.mp ⟨(Transfers.pointsTo_toks (qC cc) 16).1, (Transfers.pointsTo_toks (qC cc) 16).2⟩

/-! ## The shared scratch -/

/-- Held whole at some contents, the scratch is its sixteen rows, each at some contents. -/
theorem sh_fwd (d : Dev nD) (sc : Fin τ.nSC) :
    (iprop(∃ f, shLoc d sc ↦{fullShare} f) : sProp 𝕄)
      ⊢ bigSep Finset.univ fun i : Fin 16 => iprop(∃ f, shLoc d sc ↦[shRows i]{fullShare} f) := by
  refine exists_elim fun f => ?_
  rw [shPts_rows d sc fullShare f]
  exact bigSep_mono fun i _ =>
    exists_intro (PROP := sProp 𝕄) (Φ := fun g : Buf (Elt F) (shLoc d sc) => (shLoc d sc ↦[shRows i]{fullShare} g : sProp 𝕄)) f

/-- One token of the whole scratch from each subcore, and from each the remainder of its own row, all at the
    flattened table in every row: the scratch whole. -/
theorem sh_bwd (d : Dev nD) (sc : Fin τ.nSC) :
    (iprop((bigSep Finset.univ fun i : Fin 16 => shLoc d sc ↦{Transfers.shareTok fullShare 16 i} shFin fl d sc)
        ∗ bigSep Finset.univ fun i : Fin 16 => shLoc d sc ↦[shRows i]{Transfers.shareDrop fullShare 16} shFin fl d sc) : sProp 𝕄)
      ⊢ iprop(∃ f, shLoc d sc ↦{fullShare} f) := by
  rw [← shPts_rows d sc (Transfers.shareDrop fullShare 16) (shFin fl d sc)]
  iintro ⟨Ht, Hd⟩
  iexists (shFin fl d sc)
  iapply (Transfers.pointsTo_toks_join fullShare 16)
  isplitl [Hd]; · iexact Hd
  iexact Ht

/-! ## Going out and coming back -/

/-- Going out: what the SparseCore holds, with the scratch, is a remainder of the table token that stays
    behind and what the sixteen subcores are handed. -/
theorem split_fwd (d : Dev nD) (cc : Fin 2) :
    (iprop(stC fl m d cc ∗ ∃ f, shLoc d (scOf cc) ↦{fullShare} f) : sProp 𝕄)
      ⊢ iprop((flLoc d ↦{Transfers.shareDrop (qC cc) 16} fl d) ∗ bigSep Finset.univ fun i : Fin 16 => goT fl m d cc i) := by
  unfold stC goT
  rw [bigSep_sep', bigSep_sep', bigSep_sep', rows_split d cc fullShare (m (oLoc d)), tok_split fl d cc]
  iintro ⟨⟨⟨Hkeep, Htoks⟩, Hst, Hdm⟩, Hsh⟩
  isplitl [Hkeep]; · iexact Hkeep
  isplitl [Htoks]; · iexact Htoks
  isplitl [Hst]; · iexact Hst
  isplitl [Hdm]; · iexact Hdm
  iapply (sh_fwd d (scOf cc)); iexact Hsh

/-- Coming back: the remainder and what the sixteen subcores return are what the SparseCore returns, and the
    scratch whole. -/
theorem split_bwd (d : Dev nD) (cc : Fin 2) :
    (iprop((flLoc d ↦{Transfers.shareDrop (qC cc) 16} fl d) ∗ bigSep Finset.univ fun i : Fin 16 => tdT fl d cc i) : sProp 𝕄)
      ⊢ iprop(dnC fl d cc ∗ ∃ f, shLoc d (scOf cc) ↦{fullShare} f) := by
  unfold dnC tdT
  rw [bigSep_sep', bigSep_sep', bigSep_sep', bigSep_sep', rows_split d cc fullShare (tgt fl d), tok_split fl d cc]
  iintro ⟨Hkeep, Htoks, Hst, Hdm, Ht, Hr⟩
  isplitl [Hkeep Htoks Hst Hdm]
  · isplitl [Hkeep Htoks]
    · isplitl [Hkeep]; · iexact Hkeep
      iexact Htoks
    isplitl [Hst]; · iexact Hst
    iexact Hdm
  iapply (sh_bwd fl d (scOf cc))
  isplitl [Ht]; · iexact Ht
  iexact Hr

/-- The split, over sixteen subcores and with whatever else the sequencer owns carried along. -/
theorem split_core (d : Dev nD) (cc : Fin 2) (R : sProp 𝕄) :
    (iprop(stC fl m d cc ∗ ((∃ f, shLoc d (scOf cc) ↦{fullShare} f) ∗ R)) : sProp 𝕄)
      ⊢ |={Set.univ}=> iprop((bigSep Finset.univ fun i : Fin 16 => goT fl m d cc i)
          ∗ ((bigSep Finset.univ fun i : Fin 16 => tdT fl d cc i)
              -∗ iprop(dnC fl d cc ∗ ((∃ f, shLoc d (scOf cc) ↦{fullShare} f) ∗ R)))) := by
  iintro ⟨Hst, Hsh, HR⟩
  ihave H := (split_fwd fl m d cc) $$ [Hst Hsh]
  · isplitl [Hst]; · iexact Hst
    iexact Hsh
  icases H with ⟨Hkeep, Hgo⟩
  imodintro
  isplitl [Hgo]; · iexact Hgo
  iintro Htd
  ihave H2 := (split_bwd fl d cc) $$ [Hkeep Htd]
  · isplitl [Hkeep]; · iexact Hkeep
    iexact Htd
  icases H2 with ⟨Hdn, Hsh⟩
  isplitl [Hdn]; · iexact Hdn
  isplitl [Hsh]; · iexact Hsh
  iexact HR

/-- The tasks of the call are the sixteen subcores. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

variable [FloatOps F]

/-- How SparseCore c's operands split into its sixteen subcores' and its results gather from theirs. -/
theorem vecSplit : (K (F := F)).VecSplit (P fl m) 0 := by
  intro d c
  show iprop(stC fl m d (Fin.cast nCore_zero c) ∗ ownBufs (S d (coreOf c))) ⊢ |={Set.univ}=> iprop(
      (bigSep Finset.univ fun i : Fin ((K (F := F)).nSub 0) => goT fl m d (Fin.cast nCore_zero c) (Fin.cast nSub_zero i))
      ∗ ((bigSep Finset.univ fun i : Fin ((K (F := F)).nSub 0) => tdT fl d (Fin.cast nCore_zero c) (Fin.cast nSub_zero i))
          -∗ iprop(dnC fl d (Fin.cast nCore_zero c) ∗ ownBufs (S d (coreOf c)))))
  rw [bigSep_tasks (F := F) (fun i => goT fl m d (Fin.cast nCore_zero c) i),
    bigSep_tasks (F := F) (fun i => tdT fl d (Fin.cast nCore_zero c) i)]
  unfold SparseCore.Cfg.ownBufs
  rw [SparseCore.bigSep_erase' (show shRef (coreOf c) ∈ ownRefs (S d (coreOf c)).2 from mem_ownRefs.mpr rfl)]
  exact split_core fl m d (Fin.cast nCore_zero c) _

end Cert.Proof.BcastB

end
-- ==== Proof.LaunchB.lean ====
/-
  The whole program: @main on the TensorCore around the one SparseCore call.

  @main flattens the table (a reshape), starts the call and waits for it, and reshapes the 4096 x 12800 result to
  4096 x 200 x 64. Through the call each SparseCore gets a read token of the flattened table and its half of the
  output's rows, and brings them back holding the flattened table in every row; the two halves are the whole output.
-/
import proofs.«213620_g48704929136794_cont_8to1c4_761_22_alg».proof.Proof.TileB
import proofs.«213620_g48704929136794_cont_8to1c4_761_22_alg».proof.Proof.SplitB

noncomputable section

namespace Cert.Proof.BcastB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "fV" => (Memref.whole Cert.Kernel.main_v0_scv : Memref Cert.Kernel.sig Kind.scVector Space.hbm Cert.Kernel.S12800 EltTy.f32)
local notation "oV" => (Memref.whole Cert.Kernel.main_v1_scv : Memref Cert.Kernel.sig Kind.scVector Space.hbm Cert.Kernel.S4096x12800 EltTy.f32)
local notation "bV" => (Memref.whole Cert.Kernel.cc0_scratch0 : Memref Cert.Kernel.sig Kind.scVector Space.vmem Cert.Kernel.S2x12800 EltTy.f32)
local notation "shV" => (Memref.whole Cert.Kernel.cc0_scratch1 : Memref Cert.Kernel.sig Kind.scVector Space.shared Cert.Kernel.S16x12800 EltTy.f32)

open Idealize.ShloMosaic.StableHlo (held held_split held_sdiff_result wp_hlo_within)

variable (fl : (d : Dev nD) → Buf (Elt F) (flLoc d)) (m : (ℓ : Loc nD τ sig) → Buf (Elt F) ℓ) (ρ : Dev nD → PrngReg)
variable [FloatOps F] [∀ e, Nonempty (Elt F e)]

/-! ## The obligation of one subcore's task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_bcast (coordsV c s)
          fV (Memref.isWhole_whole _) oV (Memref.isWhole_whole _) bV (Memref.isWhole_whole _) shV (Memref.isWhole_whole _)
          cc0_scratch2 cc0_scratch3 cc0_scoped0 cc0_scoped1 cc0_scoped2) ⟨⟩ c s := rfl

set_option maxRecDepth 16384 in
theorem tileObl (hF : (K (F := F)).Facts) : (K (F := F)).TileObl (D (F := F)) 𝒱 (P fl m) v₀ 0 := by
  intro d c i O W hO hOlev _
  have hc : ((K (F := F)).core 0 c).val < 2 := c.isLt
  have hci : ((K (F := F)).core 0 c).val < grid0.bound 0 ∧ ((K (F := F)).sub 0 i).val < grid0.bound 1 := ⟨c.isLt, i.isLt⟩
  rw [show (P fl m).ox 0 (V d ((K (F := F)).core 0 c) ((K (F := F)).sub 0 i)) = oxV d ((K (F := F)).core 0 c) from if_pos hc,
    show (P fl m).x 0 (V d ((K (F := F)).core 0 c) ((K (F := F)).sub 0 i)) = bkit fl d ((K (F := F)).core 0 c) ((K (F := F)).sub 0 i) from if_pos hc]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [bcast_eq_task]
  exact tile_body fl m d (coordsV ⟨_, hci.1⟩ ⟨_, hci.2⟩) hF O W hO hOlev trivial trivial

end Cert.Proof.BcastB

end
-- ==== Proof.MainB.lean ====
/-
  @main on the TensorCore: flatten the table, make the one SparseCore call, reshape its result.

  The flattened table goes to the call as two read tokens (one per SparseCore; the remainder stays with the
  TensorCore) and the output as its two halves of 2048 rows; both come back, the output holding the flattened table in
  every row, and the last reshape reads that as the 4096 x 200 x 64 result. The arguments are never written.
-/
import proofs.«213620_g48704929136794_cont_8to1c4_761_22_alg».proof.Proof.PayB
import Idealize.ShloMosaic.Lib.StableHlo.Run

noncomputable section

namespace Cert.Proof.BcastB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "fV" => (Memref.whole Cert.Kernel.main_v0_scv : Memref Cert.Kernel.sig Kind.scVector Space.hbm Cert.Kernel.S12800 EltTy.f32)
local notation "oV" => (Memref.whole Cert.Kernel.main_v1_scv : Memref Cert.Kernel.sig Kind.scVector Space.hbm Cert.Kernel.S4096x12800 EltTy.f32)
local notation "bV" => (Memref.whole Cert.Kernel.cc0_scratch0 : Memref Cert.Kernel.sig Kind.scVector Space.vmem Cert.Kernel.S2x12800 EltTy.f32)
local notation "shV" => (Memref.whole Cert.Kernel.cc0_scratch1 : Memref Cert.Kernel.sig Kind.scVector Space.shared Cert.Kernel.S16x12800 EltTy.f32)

open Idealize.ShloMosaic.StableHlo (held held_split held_sdiff_result wp_hlo_within)

variable (m : (ℓ : Loc nD τ sig) → Buf (Elt F) ℓ) (ρ : Dev nD → PrngReg)

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev a0Loc (d : Dev nD) : Loc nD τ sig := (SparseCore.T d).loc main_arg0
abbrev a1Loc (d : Dev nD) : Loc nD τ sig := (SparseCore.T d).loc main_arg1
abbrev v2Loc (d : Dev nD) : Loc nD τ sig := (SparseCore.T d).loc main_v2

/-- The TensorCore's arrays, all unscoped. -/
abbrev S5 : Finset (DevRef τ sig) := {a0', a1', v0', v1', v2'}

variable [FloatOps F]

abbrev opFlat : HloOp τ sig (Elt F) := StableHlo.reshape main_arg1 main_v0 rfl shapeCasts_S200x64_S12800
abbrev opOut : HloOp τ sig (Elt F) := StableHlo.reshape main_v1 main_v2 rfl shapeCasts_S4096x12800_S4096x200x64

/-- The launch valuation; the flattened table as the first reshape leaves it; the valuation once the call has
    filled the output; the result as the last reshape leaves it. -/
def V0 (d : Dev nD) : Valuation τ sig (Elt F) := fun b => m (d, b)
abbrev Vf (d : Dev nD) : Valuation τ sig (Elt F) := (opFlat (F := F)).result (V0 m d)
def flOf (d : Dev nD) : Buf (Elt F) (flLoc d) := Vf m d v0'
def V1 (d : Dev nD) : Valuation τ sig (Elt F) := Function.update (Vf m d) v1' (tgt (flOf m) d)
abbrev V2 (d : Dev nD) : Valuation τ sig (Elt F) := (opOut (F := F)).result (V1 m d)
def outOf (d : Dev nD) : Buf (Elt F) (v2Loc d) := V2 m d v2'

omit [FloatOps F] in
theorem held_S5 (d : Dev nD) (W : Valuation τ sig (Elt F)) :
    (held (T d) S5 W : sProp 𝕄) = iprop((a0Loc d ↦{fullShare} W a0') ∗ (a1Loc d ↦{fullShare} W a1') ∗ (flLoc d ↦{fullShare} W v0')
      ∗ (oLoc d ↦{fullShare} W v1') ∗ v2Loc d ↦{fullShare} W v2') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (flLoc d ↦{fullShare} W main_v0)
      ∗ (oLoc d ↦{fullShare} W main_v1) ∗ v2Loc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

theorem unscoped_held (d : Dev nD) : (unscopedBufs d (fun b => m ((SparseCore.T d).loc b)) : sProp 𝕄) = held (T d) S5 (V0 m d) := by
  rw [unscopedBufs_eq, held_S5]; rfl

theorem hFlat : (opFlat (F := F)).bufs ⊆ S5 := show ({a1', v0'} : Finset (DevRef τ sig)) ⊆ S5 by decide
theorem hOut : (opOut (F := F)).bufs ⊆ S5 := show ({v1', v2'} : Finset (DevRef τ sig)) ⊆ S5 by decide

/-- The first reshape writes the flattened table only. -/
theorem Vf_a0 (d : Dev nD) : Vf m d a0' = m (a0Loc d) :=
  (opFlat (F := F)).result_of_not_mem (V0 m d) (b := a0') (show a0' ∉ ({v0'} : Finset (DevRef τ sig)) by decide)
theorem Vf_a1 (d : Dev nD) : Vf m d a1' = m (a1Loc d) :=
  (opFlat (F := F)).result_of_not_mem (V0 m d) (b := a1') (show a1' ∉ ({v0'} : Finset (DevRef τ sig)) by decide)
theorem Vf_v1 (d : Dev nD) : Vf m d v1' = m (oLoc d) :=
  (opFlat (F := F)).result_of_not_mem (V0 m d) (b := v1') (show v1' ∉ ({v0'} : Finset (DevRef τ sig)) by decide)
theorem V1_a0 (d : Dev nD) : V1 m d a0' = m (a0Loc d) := (Function.update_of_ne (show a0' ≠ v1' by decide) _ _).trans (Vf_a0 m d)
theorem V1_a1 (d : Dev nD) : V1 m d a1' = m (a1Loc d) := (Function.update_of_ne (show a1' ≠ v1' by decide) _ _).trans (Vf_a1 m d)
theorem V1_v0 (d : Dev nD) : V1 m d v0' = flOf m d := Function.update_of_ne (show v0' ≠ v1' by decide) _ _
theorem V1_v1 (d : Dev nD) : V1 m d v1' = tgt (flOf m) d := Function.update_self _ _ _
theorem V1_v2 (d : Dev nD) : V1 m d v2' = Vf m d v2' := Function.update_of_ne (show v2' ≠ v1' by decide) _ _
/-- The last reshape writes the result only. -/
theorem V2_a0 (d : Dev nD) : V2 m d a0' = m (a0Loc d) :=
  ((opOut (F := F)).result_of_not_mem (V1 m d) (b := a0') (show a0' ∉ ({v2'} : Finset (DevRef τ sig)) by decide)).trans (V1_a0 m d)
theorem V2_a1 (d : Dev nD) : V2 m d a1' = m (a1Loc d) :=
  ((opOut (F := F)).result_of_not_mem (V1 m d) (b := a1') (show a1' ∉ ({v2'} : Finset (DevRef τ sig)) by decide)).trans (V1_a1 m d)

/-! ## What the call takes for the two SparseCores, and what it hands back -/

theorem univ2 : (Finset.univ : Finset (Fin 2)) = {0, 1} := by decide

theorem st0_eq (d : Dev nD) :
    (bigSep Finset.univ fun c : Fin ((K (F := F)).nCore 0) => (P (flOf m) m).st 0 d c) = iprop(stC (flOf m) m d 0 ∗ stC (flOf m) m d 1) := by
  show (bigSep (Finset.univ : Finset (Fin 2)) fun c => stC (flOf m) m d c) = _
  rw [univ2, SparseCore.bigSep_insert' (by decide), bigSep_singleton]
theorem dn0_eq (d : Dev nD) :
    (bigSep Finset.univ fun c : Fin ((K (F := F)).nCore 0) => (P (flOf m) m).dn 0 d c) = iprop(dnC (flOf m) d 0 ∗ dnC (flOf m) d 1) := by
  show (bigSep (Finset.univ : Finset (Fin 2)) fun c => dnC (flOf m) d c) = _
  rw [univ2, SparseCore.bigSep_insert' (by decide), bigSep_singleton]

omit [FloatOps F] in
/-- The whole output is the two SparseCores' halves, at any contents. -/
theorem out_halves (d : Dev nD) (f : Buf (Elt F) (oLoc d)) :
    (oLoc d ↦{fullShare} f : sProp 𝕄) = iprop((oLoc d ↦[coreRows 0]{fullShare} f) ∗ oLoc d ↦[coreRows 1]{fullShare} f) := by
  have h := pts_chunks (F := F) d 0 2048 2 (by decide) whole_le fullShare f
  rw [univ2, SparseCore.bigSep_insert' (by decide), bigSep_singleton] at h
  rw [← h]
  exact congrArg (fun S => (oLoc d ↦[S]{fullShare} f : sProp 𝕄)) rowsSet_univ.symm

omit [FloatOps F] in
/-- The flattened table whole is the two SparseCores' read tokens and a remainder. -/
theorem fl_toks (d : Dev nD) (f : Buf (Elt F) (flLoc d)) :
    (flLoc d ↦{fullShare} f : sProp 𝕄) ⊣⊢ iprop((flLoc d ↦{Transfers.shareDrop fullShare 2} f) ∗ (flLoc d ↦{qC 0} f) ∗ flLoc d ↦{qC 1} f) := by
  have h := Transfers.pointsTo_toks (ℓ := flLoc d) (S := Finset.univ) (f := f) (Ix := HIx 1) (Name := ℕ) (U := UU) (Lvl := ℕ) fullShare 2
  rw [univ2, SparseCore.bigSep_insert' (by decide), bigSep_singleton] at h
  exact h

/-- What @main leaves the claim: the arguments at their launch contents, the result at what the last reshape made. -/
abbrev FIN (d : Dev nD) : sProp 𝕄 := iprop((a0Loc d ↦{fullShare} m (a0Loc d)) ∗ (a1Loc d ↦{fullShare} m (a1Loc d)) ∗ v2Loc d ↦{fullShare} outOf m d)

theorem hmain (κ : GSem nD τ sig → ℕ) (d : Dev nD) :
    iprop((K (F := F)).ctx EH (P (flOf m) m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the table flattened
  iapply (wp_hlo_within 𝒱 (SparseCore.T d) none Set.univ (op := opFlat) (S := S5) hFlat (V := V0 m d)) $$ [Hb Hheld]
  · isplitl [Hb]; · iexact Hb
    iexact Hheld
  iintro ⟨Hb, Hheld⟩
  ihave Hh := (Entails.of_eq (held_S5 (F := F) d _)) $$ Hheld
  icases Hh with ⟨Ha0, Ha1, Hfl, Ho, Hv2⟩
  rw [wp_ret]; imodintro
  -- the call: each SparseCore a read token of the flattened table and its half of the output
  ihave Hfl' := (fl_toks (F := F) d _).1 $$ Hfl
  icases Hfl' with ⟨Hflk, Hfl0, Hfl1⟩
  ihave Ho' := (Entails.of_eq ((congrArg (fun f => (oLoc d ↦{fullShare} f : sProp 𝕄)) (Vf_v1 m d)).trans (out_halves (F := F) d _))) $$ Ho
  icases Ho' with ⟨Ho0, Ho1⟩
  iapply ((K (F := F)).wp_run (D (F := F)) 𝒱 (EH := EH) (P := P (flOf m) m) κ d 0) $$ [Hst Hfl0 Hfl1 Ho0 Ho1 Hb Ha0 Ha1 Hv2 Hflk]
  isplitr; · iexact Hctx
  isplitl [Hst]; · iexact Hst
  isplitl [Hfl0 Hfl1 Ho0 Ho1]
  · rw [st0_eq]; unfold stC flTok
    isplitl [Hfl0 Ho0]
    · isplitl [Hfl0]; · iexact Hfl0
      iexact Ho0
    · isplitl [Hfl1]; · iexact Hfl1
      iexact Ho1
  iintro ⟨Hst, Hdn⟩
  ihave Hdn' := (Entails.of_eq (dn0_eq m d)) $$ Hdn
  unfold dnC flTok
  icases Hdn' with ⟨⟨Hfl0, Ho0⟩, Hfl1, Ho1⟩
  ihave Hfl := (fl_toks (F := F) d _).2 $$ [Hflk Hfl0 Hfl1]
  · isplitl [Hflk]; · iexact Hflk
    isplitl [Hfl0]; · iexact Hfl0
    iexact Hfl1
  ihave Ho := (Entails.of_eq (out_halves (F := F) d (tgt (flOf m) d)).symm) $$ [Ho0 Ho1]
  · isplitl [Ho0]; · iexact Ho0
    iexact Ho1
  -- the result reshaped
  iapply (wp_hlo_within 𝒱 (SparseCore.T d) none Set.univ (op := opOut) (S := S5) hOut (V := V1 m d)) $$ [Hb Ha0 Ha1 Hfl Ho Hv2]
  · isplitl [Hb]; · iexact Hb
    rw [held_S5, V1_a0, V1_a1, V1_v0, V1_v1, V1_v2, ← Vf_a0 m d, ← Vf_a1 m d]
    isplitl [Ha0]; · iexact Ha0
    isplitl [Ha1]; · iexact Ha1
    isplitl [Hfl]; · iexact Hfl
    isplitl [Ho]; · iexact Ho
    iexact Hv2
  iintro ⟨Hb, Hheld⟩
  ihave Hh := (Entails.of_eq (held_S5 (F := F) d _)) $$ Hheld
  icases Hh with ⟨Ha0, Ha1, -, -, Hv2⟩
  rw [wp_ret]; imodintro; imodintro
  isplitl [Hst]; · iexact Hst
  isplitl [Ha0]; · iapply (Entails.of_eq (congrArg (fun f => (a0Loc d ↦{fullShare} f : sProp 𝕄)) (V2_a0 m d))); iexact Ha0
  isplitl [Ha1]; · iapply (Entails.of_eq (congrArg (fun f => (a1Loc d ↦{fullShare} f : sProp 𝕄)) (V2_a1 m d))); iexact Ha1
  iexact Hv2

def fq (d : Dev nD) (s' : Phys nD τ sig (Elt F)) : Prop :=
  s'.mem.mem (v2Loc d) = outOf m d ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨Ha0, Ha1, Hv2⟩, HSI⟩
  icombine HSI Ha0 gives %h0
  icombine HSI Ha1 gives %h1
  icombine HSI Hv2 gives %h2
  ipureintro
  exact ⟨funext fun i => h2 i (Finset.mem_univ i), funext fun i => h0 i (Finset.mem_univ i), funext fun i => h1 i (Finset.mem_univ i)⟩

/-- What the program's run ends in, on every device. -/
def QC : PUnit × MemSt nD τ sig (Elt F) → Prop := fun r => ∀ c : Dev nD,
  r.2.mem (v2Loc c) = outOf m c ∧ r.2.mem (a0Loc c) = m (a0Loc c) ∧ r.2.mem (a1Loc c) = m (a1Loc c)

end Cert.Proof.BcastB

end
-- ==== Proof.ElemB.lean ====
/-
  The launch element of the ghost state: what the program starts from.

  Beside the handshakes' rounds, the ghost state holds one round on every subcore's barrier semaphore, with a
  unit duty per subcore of the same SparseCore, named by its number. From that element, the barrier semaphores
  at zero and the credit for every unit the subcores will signal on them, each subcore is dealt what it needs at
  the barrier: the invariants of its SparseCore's sixteen barrier cells (allocated here, once, for all), its own
  duty's token in each of the sixteen rounds, that each round is reached, its position at the start of its own
  cell's round, and the credit for the sixteen units it will wait for.
-/
import proofs.«213620_g48704929136794_cont_8to1c4_761_22_alg».proof.Proof.PayB

noncomputable section

namespace Cert.Proof.BcastB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "fV" => (Memref.whole Cert.Kernel.main_v0_scv : Memref Cert.Kernel.sig Kind.scVector Space.hbm Cert.Kernel.S12800 EltTy.f32)
local notation "oV" => (Memref.whole Cert.Kernel.main_v1_scv : Memref Cert.Kernel.sig Kind.scVector Space.hbm Cert.Kernel.S4096x12800 EltTy.f32)
local notation "bV" => (Memref.whole Cert.Kernel.cc0_scratch0 : Memref Cert.Kernel.sig Kind.scVector Space.vmem Cert.Kernel.S2x12800 EltTy.f32)
local notation "shV" => (Memref.whole Cert.Kernel.cc0_scratch1 : Memref Cert.Kernel.sig Kind.scVector Space.shared Cert.Kernel.S16x12800 EltTy.f32)

/-! ## The barrier cells, their duties' tokens, and the element -/

/-- A device, a SparseCore of it, a subcore of that. -/
abbrev I3 : Type := Dev nD × Fin τ.nSC × Fin τ.nSub

/-- Every subcore's barrier cell. -/
def barCells : Finset (GSem nD τ sig) := Finset.univ.image fun x : I3 => bcell x.1 x.2.1 x.2.2

/-- For every subcore (d, c, i) and every cell j of its SparseCore: duty i of round 0 of cell j. -/
def barToks : Finset (GSem nD τ sig × ℕ × ℕ) :=
  Finset.univ.image fun x : I3 × Fin τ.nSub => (bcell x.1.1 x.1.2.1 x.2, 0, x.1.2.2.val)

/-- The element: the handshakes' rounds, the barrier cells' rounds, no transfer counted. -/
def u₀ : UU := (initOf (K (F := F)).hsCells (K (F := F)).hsToks, (launchOf barCells ∅ barToks, 1))

theorem bcell_inj : Function.Injective fun x : I3 => bcell x.1 x.2.1 x.2.2 := by
  intro a b e
  obtain ⟨h1, h2⟩ := Prod.mk.inj (Prod.mk.inj e).1
  obtain ⟨h3, h4⟩ := Proc.scVector.inj h2
  exact Prod.ext h1 (Prod.ext h3 h4)

theorem barTok_inj : Function.Injective fun x : I3 × Fin τ.nSub => ((bcell x.1.1 x.1.2.1 x.2, 0, x.1.2.2.val) : GSem nD τ sig × ℕ × ℕ) := by
  intro a b e
  obtain ⟨e1, e2⟩ := Prod.mk.inj e
  obtain ⟨h1, h2⟩ := Prod.mk.inj (Prod.mk.inj e1).1
  obtain ⟨h3, h4⟩ := Proc.scVector.inj h2
  have h5 : a.1.2.2 = b.1.2.2 := Fin.ext (Prod.mk.inj e2).2
  exact Prod.ext (Prod.ext h1 (Prod.ext h3 h5)) h4

/-- The element is its two halves. -/
theorem ownU_split3 (a : UH) (b : UB) :
    (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op ((b, 1) : UB × Counters))))

/-! ## The barrier semaphores at zero -/

omit F in
theorem bar_mem : (SemLoc.reg sc_bar0 : SemLoc sig) ∈ ((Finset.univ.filter fun sm : SemLoc sig => ¬sm.isScoped .scVector).erase (.reg sc_go)) := by
  decide

/-- The free semaphores of the SparseCore threads hold every barrier cell's counter at zero. -/
theorem sems_bar : ((K (F := F)).freeSems0 : sProp 𝕄) ⊢ bigSep barCells fun g => semVal g 0 := by
  unfold SparseCore.Cfg.freeSems0 barCells
  rw [SparseCore.bigSep_image_of_injOn (bcell_inj.injOn) (fun g => (semVal g 0 : sProp 𝕄))]
  refine sep_elim_right.trans (bigSep_mono fun x _ => ?_)
  unfold SparseCore.Cfg.vcSems0
  exact bigSep_elim (i := (SemLoc.reg sc_bar0 : SemLoc sig)) bar_mem

/-! ## The rounds funded, the invariants allocated -/

variable (fl : (d : Dev nD) → Buf (Elt F) (flLoc d))

/-- From the barrier cells' counters at zero and their half of the element: every cell's invariant under names
    of the update's choosing, that round 0 of each is reached, each owner's position, and every duty's token. -/
theorem fund_bar :
    (iprop((bigSep barCells fun g => (semVal g 0 : sProp 𝕄)) ∗ BI.own (EB (launchOf barCells ∅ barToks))) : sProp 𝕄)
      ⊢ iprop(|={Set.univ}=> ∃ κ : GSem nD τ sig → ℕ,
          (bigSep barCells fun g => cellInv EB (barRd (F := F) fl) (κ g) g)
          ∗ (bigSep barCells fun g => reached EB g 0) ∗ (bigSep barCells fun g => atPos EB g 0 ∅ 0)
          ∗ bigSep barToks fun x => dutyTok EB x.1 x.2.1 x.2.2) := by
  have h := fund_launch (Es := Set.univ) EB (barRd (F := F) fl) (S := barCells) (Sd := ∅) (Finset.disjoint_empty_right _)
    (fun g hg => absurd hg (Finset.notMem_empty g)) barToks
  rw [Finset.union_empty] at h
  iintro H
  imod h $$ H with ⟨%κ, -, Hinv, Hr, Hat, -, Htok⟩
  imodintro
  iexists κ
  isplitl [Hinv]; · iexact Hinv
  isplitl [Hr]; · iexact Hr
  isplitl [Hat]; · iexact Hat
  iexact Htok

/-! ## The credit, regrouped by cell -/

omit F in
theorem nsmul_tallyAt (g : GSem nD τ sig) (ι : HIx 1) (n : ℕ) :
    n • (tallyAt g ι 1 : CellTallies nD τ sig (HIx 1)) = tallyAt g ι n := by
  induction n with
  | zero => rw [zero_nsmul, tallyAt_zero]
  | succ k ih => rw [succ_nsmul, ih, tallyAt_add]

omit F in
/-- What one subcore owes for the barrier, with the cells counted as the chip counts them. -/
theorem oxV_eq (d : Dev nD) (c : Fin τ.nSC) : oxV d c = ∑ j : Fin τ.nSub, tallyAt (bcell d c j) (some 0) 1 := by
  unfold oxV
  exact Fintype.sum_equiv (finCongr (show grid0.bound 1 = τ.nSub from rfl)) _ _
    (fun j => congrArg (fun k : Fin τ.nSub => (tallyAt (bcell d c k) (some 0) 1 : CellTallies nD τ sig (HIx 1))) (Fin.ext rfl))

omit F in
/-- Sixteen subcores each owe one unit on every cell of their SparseCore: sixteen units on each cell. -/
theorem sum_oxV (d : Dev nD) (c : Fin τ.nSC) :
    (∑ _i : Fin τ.nSub, oxV d c) = ∑ j : Fin τ.nSub, tallyAt (bcell d c j) (some 0) (grid0.bound 1) := by
  rw [Finset.sum_const, Finset.card_univ, Fintype.card_fin, oxV_eq, Finset.smul_sum]
  exact Finset.sum_congr rfl fun j _ => nsmul_tallyAt _ _ _

/-- The same as credit. -/
theorem cred_row (d : Dev nD) (c : Fin τ.nSC) :
    (bigSep Finset.univ fun _i : Fin τ.nSub => (cred (oxV d c) : sProp 𝕄))
      = bigSep Finset.univ fun j : Fin τ.nSub => cred (tallyAt (bcell d c j) (some 0) (grid0.bound 1)) :=
  (SparseCore.Cfg.cred_finsum Finset.univ (fun _ : Fin τ.nSub => oxV d c)).symm.trans
    ((congrArg cred (sum_oxV d c)).trans (SparseCore.Cfg.cred_finsum Finset.univ _))

variable (m : (ℓ : Loc nD τ sig) → Buf (Elt F) ℓ) [FloatOps F]

theorem oxFrom_V (d : Dev nD) (c : Fin τ.nSC) (i : Fin τ.nSub) : (P fl m).oxFrom 0 (V d c i) = oxV d c := by
  have h := (P fl m).oxFrom_step (0 : Fin 1) (V d c i)
  rw [(P fl m).oxFrom_end (V d c i) (show 1 ≤ (0 : Fin 1).val + 1 from Nat.le_refl 1), add_zero] at h
  refine h.trans ?_
  show (if c.val < 2 then oxV d c else 0) = oxV d c
  exact if_pos c.isLt

/-- The credit of everything the subcores owe for the barrier is, per cell, the sixteen units its owner waits for. -/
theorem creds_bar :
    ((P fl m).oxCred : sProp 𝕄) ⊢ bigSep Finset.univ fun x : I3 => cred (tallyAt (bcell x.1 x.2.1 x.2.2) (some 0) (grid0.bound 1)) := by
  unfold SparseCore.Cfg.Pay.oxCred
  rw [SparseCore.Cfg.bigSep_threads (fun thr => (cred ((P fl m).oxFrom 0 thr) : sProp 𝕄))]
  refine sep_elim_right.trans (sep_elim_right.trans (Entails.of_eq ?_))
  rw [bigSep_univ_prod, bigSep_univ_prod (fun x : I3 => (cred (tallyAt (bcell x.1 x.2.1 x.2.2) (some 0) (grid0.bound 1)) : sProp 𝕄))]
  refine bigSep_congr fun d _ => ?_
  rw [bigSep_univ_prod, bigSep_univ_prod (fun y : Fin τ.nSC × Fin τ.nSub => (cred (tallyAt (bcell d y.1 y.2) (some 0) (grid0.bound 1)) : sProp 𝕄))]
  refine bigSep_congr fun c _ => ?_
  refine (bigSep_congr fun i _ => ?_).trans (cred_row d c)
  show cred ((P fl m).oxFrom 0 (V d c i)) = cred (oxV d c)
  rw [oxFrom_V]

/-! ## What every thread is dealt -/

omit F in
theorem mem_barCells (d : Dev nD) (c : Fin τ.nSC) (j : Fin τ.nSub) : bcell d c j ∈ barCells :=
  Finset.mem_image.mpr ⟨(d, c, j), Finset.mem_univ _, rfl⟩

omit [FloatOps F] in
/-- The subcores of a SparseCore, counted as the grid counts them or as the chip does. -/
theorem bigSep_subs (Φ : Fin τ.nSub → sProp 𝕄) :
    (bigSep Finset.univ fun j : Fin (grid0.bound 1) => Φ (j.castLE hsub0)) = bigSep Finset.univ Φ :=
  bigSep_congr fun _ _ => congrArg Φ (Fin.ext rfl)

omit [FloatOps F] in
theorem inv_cells (κ : GSem nD τ sig → ℕ) (d : Dev nD) (c : Fin τ.nSC) :
    (bigSep barCells fun g => cellInv EB (barRd (F := F) fl) (κ g) g : sProp 𝕄)
      ⊢ bigSep Finset.univ fun j : Fin (grid0.bound 1) =>
          cellInv EB (barRd (F := F) fl) (κ (bcell d c (j.castLE hsub0))) (bcell d c (j.castLE hsub0)) :=
  bigSep_intro_persistent fun j _ => bigSep_elim (mem_barCells d c (j.castLE hsub0))

omit [FloatOps F] in
theorem reached_cells (d : Dev nD) (c : Fin τ.nSC) :
    (bigSep barCells fun g => reached EB g 0 : sProp 𝕄) ⊢ bigSep Finset.univ fun j : Fin τ.nSub => reached EB (bcell d c j) 0 :=
  bigSep_intro_persistent fun j _ => bigSep_elim (mem_barCells d c j)

omit [FloatOps F] in
/-- One subcore's kit from the shared persistent families and its own tokens, position and credit. -/
theorem deal_one (κ : GSem nD τ sig → ℕ) (d : Dev nD) (c : Fin τ.nSC) (i : Fin τ.nSub) :
    (iprop(((bigSep barCells fun g => cellInv EB (barRd (F := F) fl) (κ g) g) ∗ bigSep barCells fun g => reached EB g 0)
        ∗ ((bigSep Finset.univ fun j : Fin τ.nSub => dutyTok EB (bcell d c j) 0 i.val)
          ∗ atPos EB (bcell d c i) 0 ∅ 0
          ∗ cred (tallyAt (bcell d c i) (some 0) (grid0.bound 1)))) : sProp 𝕄)
      ⊢ bkit fl d c i := by
  unfold bkit
  rw [bigSep_subs (fun j => dutyTok EB (bcell d c j) 0 i.val), bigSep_subs (fun j => reached EB (bcell d c j) 0)]
  iintro ⟨⟨#Hinv, #Hr⟩, Htok, Hat, Hcr⟩
  isplitr
  · iexists κ
    iapply (inv_cells fl κ d c); iexact Hinv
  isplitl [Htok]; · iexact Htok
  isplitr
  · iapply (reached_cells d c); iexact Hr
  isplitl [Hat]; · iexact Hat
  iexact Hcr

omit [FloatOps F] in
/-- Every subcore's kit. -/
theorem deal_V (κ : GSem nD τ sig → ℕ) :
    (iprop(((bigSep barCells fun g => cellInv EB (barRd (F := F) fl) (κ g) g) ∗ bigSep barCells fun g => reached EB g 0)
        ∗ bigSep Finset.univ fun x : I3 =>
            iprop((bigSep Finset.univ fun j : Fin τ.nSub => dutyTok EB (bcell x.1 x.2.1 j) 0 x.2.2.val)
              ∗ atPos EB (bcell x.1 x.2.1 x.2.2) 0 ∅ 0
              ∗ cred (tallyAt (bcell x.1 x.2.1 x.2.2) (some 0) (grid0.bound 1)))) : sProp 𝕄)
      ⊢ bigSep Finset.univ fun x : I3 => bkit fl x.1 x.2.1 x.2.2 :=
  bigSep_with_persistent fun x _ => deal_one fl κ x.1 x.2.1 x.2.2

omit [FloatOps F] in
theorem atPos_cells : (bigSep barCells fun g => (atPos EB g 0 ∅ 0 : sProp 𝕄)) = bigSep Finset.univ fun x : I3 => atPos EB (bcell x.1 x.2.1 x.2.2) 0 ∅ 0 := by
  unfold barCells
  exact SparseCore.bigSep_image_of_injOn bcell_inj.injOn _

omit [FloatOps F] in
theorem toks_cells :
    (bigSep barToks fun x => (dutyTok EB x.1 x.2.1 x.2.2 : sProp 𝕄))
      = bigSep Finset.univ fun x : I3 => bigSep Finset.univ fun j : Fin τ.nSub => dutyTok EB (bcell x.1 x.2.1 j) 0 x.2.2.val := by
  unfold barToks
  rw [SparseCore.bigSep_image_of_injOn barTok_inj.injOn, bigSep_univ_prod]

theorem Px_T (d : Dev nD) : (bigSep Finset.univ fun q : Fin 1 => (P (F := F) fl m).x q (SparseCore.T d)) = iprop(emp) :=
  bigSep_univ_of_subsingleton (0 : Fin 1)
theorem Px_S (d : Dev nD) (c : Fin τ.nSC) : (bigSep Finset.univ fun q : Fin 1 => (P (F := F) fl m).x q (S d c)) = iprop(emp) :=
  bigSep_univ_of_subsingleton (0 : Fin 1)
theorem Px_V (d : Dev nD) (c : Fin τ.nSC) (i : Fin τ.nSub) :
    (bigSep Finset.univ fun q : Fin 1 => (P (F := F) fl m).x q (V d c i)) = bkit fl d c i := by
  rw [bigSep_univ_of_subsingleton (0 : Fin 1)]
  show (if c.val < 2 then bkit fl d c i else iprop(emp)) = _
  exact if_pos c.isLt

/-- Every thread's start: nothing for the TensorCores and the sequencers, its kit for every subcore. -/
theorem deal_all (κ : GSem nD τ sig → ℕ) :
    (iprop(((bigSep barCells fun g => cellInv EB (barRd (F := F) fl) (κ g) g) ∗ bigSep barCells fun g => reached EB g 0)
        ∗ ((bigSep barCells fun g => atPos EB g 0 ∅ 0) ∗ (bigSep barToks fun x => dutyTok EB x.1 x.2.1 x.2.2)
          ∗ bigSep Finset.univ fun x : I3 => cred (tallyAt (bcell x.1 x.2.1 x.2.2) (some 0) (grid0.bound 1)))) : sProp 𝕄)
      ⊢ bigSep Finset.univ fun thr : Thread nD τ => bigSep Finset.univ fun q : Fin 1 => (P fl m).x q thr := by
  rw [SparseCore.Cfg.bigSep_threads (fun thr : Thread nD τ => bigSep Finset.univ fun q : Fin 1 => (P fl m).x q thr), atPos_cells, toks_cells]
  simp only [Px_T, Px_S, Px_V, bigSep_emp']
  refine (sep_mono_right ?_).trans ((deal_V fl κ).trans ?_)
  · rw [bigSep_sep', bigSep_sep']
    iintro ⟨Hat, Htok, Hcr⟩
    isplitl [Htok]; · iexact Htok
    isplitl [Hat]; · iexact Hat
    iexact Hcr
  · iintro H
    isplitr; · iempintro
    isplitr; · iempintro
    iexact H

/-! ## The launch element -/

/-- From the element, the credit and the free semaphores: the handshakes' rounds, and every thread's start. -/
theorem hu₀ :
    iprop(ownU (u₀ (F := F)) ∗ (P (F := F) fl m).oxCred ∗ (K (F := F)).freeSems0)
      ⊢ |={Set.univ}=> iprop(BI.own (EH (initOf (K (F := F)).hsCells (K (F := F)).hsToks)) ∗ (bigSep Finset.univ fun _ : Dev nD => iprop(emp))
          ∗ (bigSep Finset.univ fun thr : Thread nD τ => bigSep Finset.univ fun q : Fin 1 => (P fl m).x q thr) : sProp (MT nD τ sig (HIx 1) (Elt F) ℕ UU ℕ)) := by
  unfold u₀
  iintro ⟨Hu, Hcr, Hfree⟩
  ihave H := (ownU_split3 _ _) $$ Hu
  icases H with ⟨HH, HB⟩
  ihave Hs := (sems_bar (F := F)) $$ Hfree
  imod (fund_bar fl) $$ [Hs HB] with ⟨%κ, Hinv, Hr, Hat, Htok⟩
  · isplitl [Hs]; · iexact Hs
    iexact HB
  ihave Hcr' := (creds_bar fl m) $$ Hcr
  imodintro
  isplitl [HH]; · iexact HH
  isplitr; · rw [bigSep_emp']; iempintro
  iapply (deal_all fl m κ)
  isplitl [Hinv Hr]
  · isplitl [Hinv]; · iexact Hinv
    iexact Hr
  isplitl [Hat]; · iexact Hat
  isplitl [Htok]; · iexact Htok
  iexact Hcr'

end Cert.Proof.BcastB

end
-- ==== Proof.RunB.lean ====
/-
  The program's run, and what the result holds.

  Every weakly fair execution of the TensorCore's @main beside the two sequencers and thirty-two vector subcores
  ends, nothing faulting, with the arguments as they were and the result equal to the last reshape of an output whose
  every row is the flattened table: entry (b, p, e) of the result is entry (p, e) of the table.
-/
import proofs.«213620_g48704929136794_cont_8to1c4_761_22_alg».proof.Proof.LaunchB
import proofs.«213620_g48704929136794_cont_8to1c4_761_22_alg».proof.Proof.MainB
import proofs.«213620_g48704929136794_cont_8to1c4_761_22_alg».proof.Proof.ElemB

noncomputable section

namespace Cert.Proof.BcastB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "fV" => (Memref.whole Cert.Kernel.main_v0_scv : Memref Cert.Kernel.sig Kind.scVector Space.hbm Cert.Kernel.S12800 EltTy.f32)
local notation "oV" => (Memref.whole Cert.Kernel.main_v1_scv : Memref Cert.Kernel.sig Kind.scVector Space.hbm Cert.Kernel.S4096x12800 EltTy.f32)
local notation "bV" => (Memref.whole Cert.Kernel.cc0_scratch0 : Memref Cert.Kernel.sig Kind.scVector Space.vmem Cert.Kernel.S2x12800 EltTy.f32)
local notation "shV" => (Memref.whole Cert.Kernel.cc0_scratch1 : Memref Cert.Kernel.sig Kind.scVector Space.shared Cert.Kernel.S16x12800 EltTy.f32)

variable (m : (ℓ : Loc nD τ sig) → Buf (Elt F) ℓ) (ρ : Dev nD → PrngReg)
variable [FloatOps F]

theorem run_main [∀ e, Nonempty (Elt F e)] : θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (flOf m) m) facts v₀
    (fun q hq => match q with | 0 => nomatch hq)
    (fun q _ => match q with | 0 => tileObl (flOf m) m facts)
    (fun q _ => match q with | 0 => vecSplit (flOf m) m)
    m ρ main (fun _ => iprop(emp)) (FIN m) (u₀ (F := F)) (hu₀ (flOf m) m) (hmain m ρ) (fq m) (hfin m) (QC m) (fun _ h => h)

/-- The flattened table is the table read in row-major order. -/
theorem flOf_eq (d : Dev nD) : flOf m d = shapeCast S12800 (m (a1Loc d)) shapeCasts_S200x64_S12800 :=
  StableHlo.reshape_result main_arg1 main_v0 rfl _ _ _ (V0 m d)

/-- The result is the table in every batch row. -/
theorem outOf_eq (d : Dev nD) : outOf m d = Cert.Spec.everyRow (m (a1Loc d)) := by
  have h1 : outOf m d = shapeCast S4096x200x64 (V1 m d v1') shapeCasts_S4096x12800_S4096x200x64 :=
    StableHlo.reshape_result main_v1 main_v2 rfl _ _ _ (V1 m d)
  rw [h1, V1_v1, tgt_eq, flOf_eq]
  exact reshape_rows _

end Cert.Proof.BcastB

end
-- ==== Proof.SetupI.lean ====
/-
  The broadcast kernel as the SparseCore launch theorem sees it: the configuration of the one call, the ghost state
  (the handshakes' rounds, the barrier cells' rounds, the transfers' counters), the arrays' locations, and the
  geometry of the rows each vector subcore writes.

  The kernel runs on 2 SparseCores x 16 vector subcores. Subcore s of SparseCore c copies the flattened table
  (12800 numbers) into both rows of its own 2-row buffer and into row s of its SparseCore's shared 16-row scratch;
  all sixteen meet at the subcore barrier, after which every row of the shared scratch holds the flattened table;
  then it sends the shared scratch (16 rows at a time, 3 times) to rows 2048 c + 1280 + 48 s + 16 k of the output and
  its own buffer (2 rows at a time, 40 times) to rows 2048 c + 80 s + 2 k, and waits for all 43 copies.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«213620_g48704929136794_cont_8to1c4_761_22_alg».proof.Proof.Gen.KernelIdeal
import proofs.«213620_g48704929136794_cont_8to1c4_761_22_alg».proof.Proof.Gen.KernelIdeal.Skeleton

noncomputable section

namespace Cert.Proof.BcastI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

end Cert.Proof.BcastI

end
-- ==== Proof.GeomI.lean ====
/-
  Where the arrays are and which elements each copy touches.

  The output has 4096 rows of 12800 numbers. SparseCore c owns rows 2048 c … 2048 c + 2047: the first 1280 of them
  are written two at a time from the subcores' own buffers (subcore s: rows 2048 c + 80 s + 2 k, k < 40), the last
  768 sixteen at a time from the shared scratch (subcore s: rows 2048 c + 1280 + 48 s + 16 k, k < 3). A range of
  rows cut into equal consecutive chunks is held chunk by chunk: the one splitting law everything here uses.
-/
import proofs.«213620_g48704929136794_cont_8to1c4_761_22_alg».proof.Proof.SetupI

noncomputable section

namespace Cert.Proof.BcastI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "fV" => (Memref.whole Cert.KernelIdeal.main_v0_scv : Memref Cert.KernelIdeal.sig Kind.scVector Space.hbm Cert.KernelIdeal.S12800 EltTy.f32)
local notation "oV" => (Memref.whole Cert.KernelIdeal.main_v1_scv : Memref Cert.KernelIdeal.sig Kind.scVector Space.hbm Cert.KernelIdeal.S4096x12800 EltTy.f32)
local notation "bV" => (Memref.whole Cert.KernelIdeal.cc0_scratch0 : Memref Cert.KernelIdeal.sig Kind.scVector Space.vmem Cert.KernelIdeal.S2x12800 EltTy.f32)
local notation "shV" => (Memref.whole Cert.KernelIdeal.cc0_scratch1 : Memref Cert.KernelIdeal.sig Kind.scVector Space.shared Cert.KernelIdeal.S16x12800 EltTy.f32)

/-! ## Places and locations -/

abbrev cV (L : grid0.Coords) : Fin τ.nSC := (L 0).castLE hcore0
abbrev jV (L : grid0.Coords) : Fin τ.nSub := (L 1).castLE hsub0
/-- The vector subcore at grid coordinates `L` of device `d`. -/
abbrev thrV (d : Dev nD) (L : grid0.Coords) : Thread nD τ := V d (cV L) (jV L)

/-- The flattened table, the output, a subcore's own two-row buffer, a SparseCore's shared sixteen-row scratch. -/
abbrev flLoc (d : Dev nD) : Loc nD τ sig := (SparseCore.T d).loc main_v0
abbrev oLoc (d : Dev nD) : Loc nD τ sig := (SparseCore.T d).loc main_v1
abbrev bLoc (d : Dev nD) (L : grid0.Coords) : Loc nD τ sig := (thrV d L).loc cc0_scratch0
abbrev shRef (c : Fin τ.nSC) : DevRef τ sig := ⟨.shared, ⟨0, by decide⟩, c⟩
abbrev shLoc (d : Dev nD) (c : Fin τ.nSC) : Loc nD τ sig := (d, shRef c)

/-- Row `L 1` of the shared scratch, as the subcore addresses it. -/
abbrev shRowK (L : grid0.Coords) : Memref sig .scVector .shared S12800 .f32 :=
  ((shV).slice (Rect.unit (s := S16x12800) (k0_off1 L) S1x12800.size (k0_off1_inb L)) (fun _ => rfl)).squeeze S12800 squeezes_S1x12800_S12800
/-- The k-th sixteen-row window the subcore fills from the shared scratch, and the k-th two-row window it fills from
    its own buffer. -/
abbrev dmWin (L : grid0.Coords) (r : Fin 3) : Memref sig .scVector .hbm S16x12800 .f32 :=
  (oV).slice (Rect.unit (s := S4096x12800) (k0_off2 L (BitVec.ofNat 32 (16 * r.val))) S16x12800.size (k0_off2_inb L r)) (fun _ => rfl)
abbrev stWin (L : grid0.Coords) (r : Fin 40) : Memref sig .scVector .hbm S2x12800 .f32 :=
  (oV).slice (Rect.unit (s := S4096x12800) (k0_off3 L (BitVec.ofNat 32 (2 * r.val))) S2x12800.size (k0_off3_inb L r)) (fun _ => rfl)

/-! ## Ranges of rows of the output -/

theorem rows_inb (lo len : ℕ) (h : lo + len ≤ 4096) :
    ∀ a, (![lo, 0] : Fin 2 → ℕ) a + (![len, 12800] : Fin 2 → ℕ) a ≤ S4096x12800.size a := by
  intro a
  match a with
  | ⟨0, _⟩ => exact h
  | ⟨1, _⟩ => exact Nat.le_refl _

/-- Rows `lo … lo + len - 1` of the output, every column. -/
def rowsSet (lo len : ℕ) (h : lo + len ≤ 4096) : Finset S4096x12800.Idx :=
  (Rect.unit (s := S4096x12800) ![lo, 0] ![len, 12800] (rows_inb lo len h)).set

theorem mem_rowsSet {lo len : ℕ} {h : lo + len ≤ 4096} {i : S4096x12800.Idx} :
    i ∈ rowsSet lo len h ↔ lo ≤ (i 0).val ∧ (i 0).val < lo + len := by
  unfold rowsSet
  rw [Rect.mem_set_unit]
  constructor
  · intro H; exact H 0
  · intro H a
    match a with
    | ⟨0, _⟩ => exact H
    | ⟨1, _⟩ => exact ⟨Nat.zero_le _, (i 1).isLt⟩

theorem rowsSet_disjoint {lo len lo' len' : ℕ} {h : lo + len ≤ 4096} {h' : lo' + len' ≤ 4096}
    (hd : lo + len ≤ lo' ∨ lo' + len' ≤ lo) : Disjoint (rowsSet lo len h) (rowsSet lo' len' h') := by
  rw [Finset.disjoint_left]
  intro i hi hi'
  rw [mem_rowsSet] at hi hi'
  omega

theorem rowsSet_univ : rowsSet 0 4096 (Nat.le_refl _) = Finset.univ := by
  ext i
  simp only [mem_rowsSet, Finset.mem_univ, iff_true]
  exact ⟨Nat.zero_le _, by have := (i 0).isLt; simpa using this⟩

theorem chunk_le (k n : ℕ) (j : Fin n) : k * j.val + k ≤ n * k := by
  have h := Nat.mul_le_mul_left k (Nat.succ_le_of_lt j.isLt)
  rw [Nat.mul_succ] at h
  rw [Nat.mul_comm n k]; exact h

theorem chunk_inb (lo k n : ℕ) (h : lo + n * k ≤ 4096) (j : Fin n) : lo + k * j.val + k ≤ 4096 := by
  have := chunk_le k n j; omega

/-- A range of `n k` rows is its `n` consecutive chunks of `k` rows. -/
theorem rowsSet_chunks (lo k n : ℕ) (hk : 0 < k) (h : lo + n * k ≤ 4096) :
    (Finset.univ : Finset (Fin n)).biUnion (fun j => rowsSet (lo + k * j.val) k (chunk_inb lo k n h j)) = rowsSet lo (n * k) h := by
  ext i
  simp only [Finset.mem_biUnion, Finset.mem_univ, true_and, mem_rowsSet]
  constructor
  · rintro ⟨j, h1, h2⟩
    have := chunk_le k n j
    omega
  · rintro ⟨h1, h2⟩
    have hlt : ((i 0).val - lo) / k < n := by
      rw [Nat.div_lt_iff_lt_mul hk]; omega
    refine ⟨⟨((i 0).val - lo) / k, hlt⟩, ?_, ?_⟩
    · have := Nat.mul_div_le ((i 0).val - lo) k
      show lo + k * (((i 0).val - lo) / k) ≤ (i 0).val
      omega
    · have := Nat.lt_mul_div_succ ((i 0).val - lo) hk
      show (i 0).val < lo + k * (((i 0).val - lo) / k) + k
      rw [Nat.mul_succ] at this
      omega

theorem chunks_disjoint (lo k n : ℕ) (h : lo + n * k ≤ 4096) :
    ∀ j ∈ (Finset.univ : Finset (Fin n)), ∀ j' ∈ (Finset.univ : Finset (Fin n)), j ≠ j' →
      Disjoint (rowsSet (lo + k * j.val) k (chunk_inb lo k n h j)) (rowsSet (lo + k * j'.val) k (chunk_inb lo k n h j')) := by
  intro j _ j' _ hne
  apply rowsSet_disjoint
  rcases Nat.lt_or_gt_of_ne (Fin.val_ne_of_ne hne) with hlt | hlt
  · left
    have := Nat.mul_le_mul_left k (Nat.succ_le_of_lt hlt)
    rw [Nat.mul_succ] at this; omega
  · right
    have := Nat.mul_le_mul_left k (Nat.succ_le_of_lt hlt)
    rw [Nat.mul_succ] at this; omega

omit F in
/-- Holding a range of rows is holding each of its chunks, at any share and any contents. -/
theorem pts_chunks {F : FTy → Type} (d : Dev nD) (lo k n : ℕ) (hk : 0 < k) (h : lo + n * k ≤ 4096) (q : PosShare TreeShare) (f : Buf (Elt F) (oLoc d)) :
    (oLoc d ↦[rowsSet lo (n * k) h]{q} f : sProp (MT nD τ sig (HIx 1) (Elt F) ℕ UU ℕ))
      = bigSep Finset.univ fun j : Fin n => oLoc d ↦[rowsSet (lo + k * j.val) k (chunk_inb lo k n h j)]{q} f := by
  rw [← rowsSet_chunks lo k n hk h, pointsTo_biUnion Finset.univ (ℓ := oLoc d) _ (chunks_disjoint lo k n h)]

/-! ## The copies' windows are ranges of rows -/

theorem st_inb (L : grid0.Coords) (r : Fin 40) : 2048 * (L 0).val + 80 * (L 1).val + 2 * r.val + 2 ≤ 4096 := by
  have h0 : (L 0).val < 2 := (L 0).isLt
  have h1 : (L 1).val < 16 := (L 1).isLt
  have := r.isLt; omega
theorem dm_inb (L : grid0.Coords) (r : Fin 3) : 2048 * (L 0).val + 48 * (L 1).val + 16 * r.val + 1280 + 16 ≤ 4096 := by
  have h0 : (L 0).val < 2 := (L 0).isLt
  have h1 : (L 1).val < 16 := (L 1).isLt
  have := r.isLt; omega

theorem stSet_eq (L : grid0.Coords) (r : Fin 40) :
    (stWin L r).view.set = rowsSet (2048 * (L 0).val + 80 * (L 1).val + 2 * r.val) 2 (st_inb L r) := by
  show ((View.whole main_v1_scv).slice (Rect.unit (s := S4096x12800) (k0_off3 L (BitVec.ofNat 32 (2 * r.val))) S2x12800.size (k0_off3_inb L r))).set = _
  rw [View.set_slice_whole]
  ext i
  rw [Rect.mem_set_unit, mem_rowsSet, k0_off3_eq L r]
  constructor
  · intro H; exact H 0
  · intro H a
    match a with
    | ⟨0, _⟩ => exact H
    | ⟨1, _⟩ => exact ⟨Nat.zero_le _, (i 1).isLt⟩

theorem dmSet_eq (L : grid0.Coords) (r : Fin 3) :
    (dmWin L r).view.set = rowsSet (2048 * (L 0).val + 48 * (L 1).val + 16 * r.val + 1280) 16 (dm_inb L r) := by
  show ((View.whole main_v1_scv).slice (Rect.unit (s := S4096x12800) (k0_off2 L (BitVec.ofNat 32 (16 * r.val))) S16x12800.size (k0_off2_inb L r))).set = _
  rw [View.set_slice_whole]
  ext i
  rw [Rect.mem_set_unit, mem_rowsSet, k0_off2_eq L r]
  constructor
  · intro H; exact H 0
  · intro H a
    match a with
    | ⟨0, _⟩ => exact H
    | ⟨1, _⟩ => exact ⟨Nat.zero_le _, (i 1).isLt⟩

end Cert.Proof.BcastI

end
-- ==== Proof.BarrierI.lean ====
/-
  The subcore barrier as a hand-over of read access.

  Before the barrier subcore n of a SparseCore has filled row n of the shared scratch with the flattened table and
  holds that row outright. Arriving, it gives each of the sixteen subcores j of its SparseCore one read token of
  its row (the j-th of sixteen tokens split off the full share) and keeps the remainder. Waiting for its own
  sixteen arrivals, subcore j collects token j of every row, that is, token j of the whole scratch, every row of
  which holds the flattened table: enough to send the scratch to the output.
-/
import proofs.«213620_g48704929136794_cont_8to1c4_761_22_alg».proof.Proof.GeomI
import Idealize.ShloMosaic.Lib.ValueIdx

noncomputable section

namespace Cert.Proof.BcastI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "fV" => (Memref.whole Cert.KernelIdeal.main_v0_scv : Memref Cert.KernelIdeal.sig Kind.scVector Space.hbm Cert.KernelIdeal.S12800 EltTy.f32)
local notation "oV" => (Memref.whole Cert.KernelIdeal.main_v1_scv : Memref Cert.KernelIdeal.sig Kind.scVector Space.hbm Cert.KernelIdeal.S4096x12800 EltTy.f32)
local notation "bV" => (Memref.whole Cert.KernelIdeal.cc0_scratch0 : Memref Cert.KernelIdeal.sig Kind.scVector Space.vmem Cert.KernelIdeal.S2x12800 EltTy.f32)
local notation "shV" => (Memref.whole Cert.KernelIdeal.cc0_scratch1 : Memref Cert.KernelIdeal.sig Kind.scVector Space.shared Cert.KernelIdeal.S16x12800 EltTy.f32)

theorem nSub_eq : τ.nSub = 16 := rfl
theorem bound_one : grid0.bound 1 = 16 := rfl
/-- The subcore's number within its SparseCore. -/
abbrev jL (L : grid0.Coords) : Fin 16 := Fin.cast bound_one (L 1)

/-! ## Rows of the shared scratch -/

theorem shRows_inb (i : Fin 16) : ∀ a, (![i.val, 0] : Fin 2 → ℕ) a + (![1, 12800] : Fin 2 → ℕ) a ≤ S16x12800.size a := by
  intro a
  match a with
  | ⟨0, _⟩ => exact i.isLt
  | ⟨1, _⟩ => exact Nat.le_refl _

/-- Row `i` of the shared scratch. -/
def shRows (i : Fin 16) : Finset S16x12800.Idx := (Rect.unit (s := S16x12800) ![i.val, 0] ![1, 12800] (shRows_inb i)).set

theorem mem_shRows {i : Fin 16} {x : S16x12800.Idx} : x ∈ shRows i ↔ (x 0).val = i.val := by
  unfold shRows
  rw [Rect.mem_set_unit]
  constructor
  · intro H; have := H 0
    have h1 : i.val ≤ (x 0).val := this.1
    have h2 : (x 0).val < i.val + 1 := this.2
    omega
  · intro H a
    match a with
    | ⟨0, _⟩ => exact ⟨Nat.le_of_eq H.symm, by show (x 0).val < i.val + 1; omega⟩
    | ⟨1, _⟩ => exact ⟨Nat.zero_le _, (x 1).isLt⟩

theorem shRows_disjoint : ∀ i ∈ (Finset.univ : Finset (Fin 16)), ∀ j ∈ (Finset.univ : Finset (Fin 16)), i ≠ j → Disjoint (shRows i) (shRows j) := by
  intro i _ j _ hne
  rw [Finset.disjoint_left]
  intro x hx hx'
  rw [mem_shRows] at hx hx'
  exact hne (Fin.ext (hx.symm.trans hx'))

theorem shRows_cover : (Finset.univ : Finset (Fin 16)).biUnion shRows = Finset.univ := by
  ext x
  simp only [Finset.mem_biUnion, Finset.mem_univ, true_and, iff_true]
  exact ⟨⟨(x 0).val, (x 0).isLt⟩, mem_shRows.mpr rfl⟩

/-- The row a subcore fills is its own. -/
theorem set_shRowK (L : grid0.Coords) : (shRowK L).view.set = shRows (jL L) := by
  show (((View.whole cc0_scratch1).slice (Rect.unit (s := S16x12800) (k0_off1 L) S1x12800.size (k0_off1_inb L))).reshape S12800 squeezes_S1x12800_S12800.numel_eq).set = _
  rw [View.set_reshape, View.set_slice_whole]
  ext x
  rw [Rect.mem_set_unit, mem_shRows, k0_off1_eq L]
  constructor
  · intro H; have := H 0
    have h1 : (L 1).val ≤ (x 0).val := this.1
    have h2 : (x 0).val < (L 1).val + 1 := this.2
    show (x 0).val = (L 1).val
    omega
  · intro H a
    have H' : (x 0).val = (L 1).val := H
    match a with
    | ⟨0, _⟩ => exact ⟨Nat.le_of_eq H'.symm, by show (x 0).val < (L 1).val + 1; omega⟩
    | ⟨1, _⟩ => exact ⟨Nat.zero_le _, (x 1).isLt⟩

/-! ## What the scratch holds after the barrier -/

variable (fl : (d : Dev nD) → Buf (Elt F) (flLoc d))

/-- Every row of the shared scratch is the flattened table: entry (r, k) is entry k of it. -/
def shFin (d : Dev nD) (c : Fin τ.nSC) : Buf (Elt F) (shLoc d c) :=
  fun x => fl d (ValueIdx.ix1 (n := 12800) (x 1))

/-- Whole at share `q`, the scratch is its rows at share `q`. -/
theorem shPts_rows (d : Dev nD) (c : Fin τ.nSC) (q : PosShare TreeShare) (f : Buf (Elt F) (shLoc d c)) :
    (shLoc d c ↦{q} f : sProp 𝕄) = bigSep Finset.univ fun i : Fin 16 => shLoc d c ↦[shRows i]{q} f := by
  rw [← pointsTo_biUnion Finset.univ (ℓ := shLoc d c) shRows shRows_disjoint, shRows_cover]; try rfl

/-! ## The barrier cells and their schedule -/

/-- Subcore `(c, j)`'s barrier semaphore of device `d`. -/
abbrev bcell (d : Dev nD) (c : Fin τ.nSC) (j : Fin τ.nSub) : GSem nD τ sig := (V d c j, .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

/-- The read token of row `n` that subcore `n` hands subcore `j`: the j-th of sixteen split off the full share. -/
abbrev rowTok (d : Dev nD) (c : Fin τ.nSC) (j : Fin 16) (n : Fin 16) : sProp 𝕄 :=
  shLoc d c ↦[shRows n]{Transfers.shareTok fullShare 16 j} shFin fl d c

/-- What duty `n` of subcore `j`'s round hands over: subcore `n`'s token for `j` of its row. -/
def barPay (g : GSem nD τ sig) (n : ℕ) : sProp 𝕄 :=
  match g with
  | ((d, .scVector c j), _) => if h : n < 16 then rowTok fl d c (Fin.cast nSub_eq j) ⟨n, h⟩ else iprop(emp)
  | _ => iprop(emp)

/-- One round on each barrier cell: a unit duty per subcore of the SparseCore, named by its number. -/
def barRd : Rounds.Schedule (GSem nD τ sig) ℕ 𝕄 where
  duties g r := if isBar g ∧ r = 0 then (Finset.univ : Finset (Fin τ.nSub)).image Fin.val else ∅
  amount _ _ _ := 1
  payload g _ n := barPay fl g n
  amount_pos _ _ _ _ := Nat.one_pos

instance barRd_payload_storable (g : GSem nD τ sig) (r n : ℕ) : BI.Storable (upEmb : UEmb _ 𝕄) ((barRd (F := F) fl).payload g r n) := by
  show BI.Storable upEmb (barPay fl g n)
  unfold barPay
  rcases g with ⟨⟨d, _ | c | ⟨c, i⟩⟩, sm⟩ <;> dsimp only <;> (repeat' split) <;> infer_instance

theorem bigSep_emp' {I : Type} (s : Finset I) : (bigSep s fun _ => iprop(emp)) = (iprop(emp) : sProp 𝕄) := bigSep_emp_const s

theorem barRd_duties₀ (d : Dev nD) (c : Fin τ.nSC) (j : Fin τ.nSub) :
    (barRd (F := F) fl).duties (bcell d c j) 0 = (Finset.univ : Finset (Fin τ.nSub)).image Fin.val := by
  simp [barRd, isBar]
theorem barRd_mem₀ (d : Dev nD) (c : Fin τ.nSC) (j i : Fin τ.nSub) : i.val ∈ (barRd (F := F) fl).duties (bcell d c j) 0 := by
  rw [barRd_duties₀]; exact Finset.mem_image_of_mem _ (Finset.mem_univ i)
theorem barRd_expect (d : Dev nD) (c : Fin τ.nSC) (j : Fin τ.nSub) : 0 + grid0.bound 1 = (barRd (F := F) fl).expect (bcell d c j) 0 := by
  unfold Rounds.Schedule.expect; rw [barRd_duties₀]
  show 0 + 16 = ∑ x ∈ (Finset.univ : Finset (Fin 16)).image Fin.val, 1
  rw [Finset.sum_const, Finset.card_image_of_injective _ Fin.val_injective]; rfl

/-- What a subcore owes for the barrier: a unit on every cell of its SparseCore, at the call's index. -/
def oxV (d : Dev nD) (c : Fin τ.nSC) : CellTallies nD τ sig (HIx 1) := ∑ j : Fin (grid0.bound 1), tallyAt (bcell d c (j.castLE hsub0)) (some 0) 1

omit fl in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit fl in
theorem oxV_apply_pos {d : Dev nD} {c : Fin τ.nSC} {g : GSem nD τ sig} {ι : HIx 1} (h : 0 < oxV d c g ι) :
    ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- What a subcore needs at the barrier: every cell's invariant of its SparseCore, its duty token in every cell's
    round 0, that each cell has reached round 0, its own position at the origin of round 0, and the credit for the
    sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (barRd (F := F) fl) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## Paying in and collecting -/

variable (d : Dev nD) (L : grid0.Coords)

/-- A subcore's own row, held outright at the flattened table, is sixteen read tokens — one per subcore's round —
    and a remainder it keeps. -/
theorem pays_intro :
    (shLoc d (cV L) ↦[shRows (jL L)]{fullShare} shFin fl d (cV L) : sProp 𝕄)
      ⊢ iprop((shLoc d (cV L) ↦[shRows (jL L)]{Transfers.shareDrop fullShare 16} shFin fl d (cV L))
          ∗ bigSep Finset.univ fun j : Fin (grid0.bound 1) => (barRd (F := F) fl).payload (bcell d (cV L) (j.castLE hsub0)) 0 (jV L).val) := by
  refine (Transfers.pointsTo_toks_split fullShare 16).trans (sep_mono_right (Entails.of_eq ?_))
  refine bigSep_congr fun j _ => ?_
  show _ = barPay fl (bcell d (cV L) (j.castLE hsub0)) (jV L).val
  unfold barPay; dsimp only
  rw [dif_pos (show (jV L).val < 16 from (L 1).isLt)]
  rfl

/-- What its own round collected: token `L 1` of every row, that is, of the whole scratch. -/
theorem pays_elim :
    (bigSep ((barRd (F := F) fl).duties (bcell d (cV L) (jV L)) 0 \ ∅) fun n => (barRd (F := F) fl).payload (bcell d (cV L) (jV L)) 0 n)
      ⊢ (shLoc d (cV L) ↦{Transfers.shareTok fullShare 16 (jL L)} shFin fl d (cV L) : sProp 𝕄) := by
  rw [Finset.sdiff_empty, barRd_duties₀, shPts_rows]
  rw [SparseCore.bigSep_image_of_injOn (fun a _ b _ e => Fin.val_injective e)]
  refine Entails.of_eq (bigSep_congr fun n _ => ?_)
  show barPay fl (bcell d (cV L) (jV L)) n.val = _
  unfold barPay; dsimp only
  rw [dif_pos n.isLt]
  rfl

end Cert.Proof.BcastI

end
-- ==== Proof.PayI.lean ====
/-
  What travels with the launch's handshakes.

  The TensorCore hands SparseCore c a read token of the flattened table and rows 2048 c … 2048 c + 2047 of the
  output; the sequencer hands subcore s a read token cut from that one, the 80 rows it fills from its own buffer, the
  48 rows it fills from the shared scratch, and row s of the shared scratch. Coming back, the rows of the output
  hold the flattened table in every row, the read tokens are returned, and of the shared scratch each subcore
  returns what it then holds: token s of the whole scratch and the remainder of its own row, all at the flattened
  table, which is exactly the scratch whole again.
-/
import proofs.«213620_g48704929136794_cont_8to1c4_761_22_alg».proof.Proof.BarrierI

noncomputable section

namespace Cert.Proof.BcastI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "fV" => (Memref.whole Cert.KernelIdeal.main_v0_scv : Memref Cert.KernelIdeal.sig Kind.scVector Space.hbm Cert.KernelIdeal.S12800 EltTy.f32)
local notation "oV" => (Memref.whole Cert.KernelIdeal.main_v1_scv : Memref Cert.KernelIdeal.sig Kind.scVector Space.hbm Cert.KernelIdeal.S4096x12800 EltTy.f32)
local notation "bV" => (Memref.whole Cert.KernelIdeal.cc0_scratch0 : Memref Cert.KernelIdeal.sig Kind.scVector Space.vmem Cert.KernelIdeal.S2x12800 EltTy.f32)
local notation "shV" => (Memref.whole Cert.KernelIdeal.cc0_scratch1 : Memref Cert.KernelIdeal.sig Kind.scVector Space.shared Cert.KernelIdeal.S16x12800 EltTy.f32)

variable (fl : (d : Dev nD) → Buf (Elt F) (flLoc d)) (m : (ℓ : Loc nD τ sig) → Buf (Elt F) ℓ)

/-- The output the kernel leaves: every row the flattened table. -/
def tgt (d : Dev nD) : Buf (Elt F) (oLoc d) := fun x => fl d (ValueIdx.ix1 (n := 12800) (x 1))

/-! ## Shares of the flattened table -/

/-- SparseCore `c`'s read token, and subcore `i`'s, cut from it. -/
abbrev qC (c : Fin 2) : PosShare TreeShare := Transfers.shareTok fullShare 2 c
abbrev qT (c : Fin 2) (i : Fin 16) : PosShare TreeShare := Transfers.shareTok (qC c) 16 i

/-! ## Rows by owner -/

theorem whole_le : 0 + 2 * 2048 ≤ 4096 := by decide
abbrev coreLo (c : Fin 2) : ℕ := 0 + 2048 * c.val
theorem core_le (c : Fin 2) : coreLo c + 2048 ≤ 4096 := chunk_inb 0 2048 2 whole_le c
theorem coreSt_le (c : Fin 2) : coreLo c + 16 * 80 ≤ 4096 := by have := core_le c; omega
theorem coreDm_le (c : Fin 2) : coreLo c + 16 * 80 + 16 * 48 ≤ 4096 := by have := core_le c; omega
abbrev stLo (c : Fin 2) (i : Fin 16) : ℕ := coreLo c + 80 * i.val
abbrev dmLo (c : Fin 2) (i : Fin 16) : ℕ := coreLo c + 16 * 80 + 48 * i.val
theorem st_le (c : Fin 2) (i : Fin 16) : stLo c i + 80 ≤ 4096 := chunk_inb (coreLo c) 80 16 (coreSt_le c) i
theorem dm_le (c : Fin 2) (i : Fin 16) : dmLo c i + 48 ≤ 4096 := chunk_inb (coreLo c + 16 * 80) 48 16 (coreDm_le c) i

/-- SparseCore `c`'s rows of the output; subcore `i`'s rows filled from its own buffer, and from the shared scratch. -/
abbrev coreRows (c : Fin 2) : Finset S4096x12800.Idx := rowsSet (coreLo c) 2048 (core_le c)
abbrev stRows (c : Fin 2) (i : Fin 16) : Finset S4096x12800.Idx := rowsSet (stLo c i) 80 (st_le c i)
abbrev dmRows (c : Fin 2) (i : Fin 16) : Finset S4096x12800.Idx := rowsSet (dmLo c i) 48 (dm_le c i)

/-- The SparseCore of core number `c` of the call. -/
abbrev scOf (c : Fin 2) : Fin τ.nSC := c.castLE (by decide)

/-! ## The payloads -/

abbrev flTok (d : Dev nD) (q : PosShare TreeShare) : sProp 𝕄 := flLoc d ↦{q} fl d

def stC (d : Dev nD) (c : Fin 2) : sProp 𝕄 := iprop(flTok fl d (qC c) ∗ oLoc d ↦[coreRows c]{fullShare} m (oLoc d))
def dnC (d : Dev nD) (c : Fin 2) : sProp 𝕄 := iprop(flTok fl d (qC c) ∗ oLoc d ↦[coreRows c]{fullShare} tgt fl d)
def goT (d : Dev nD) (c : Fin 2) (i : Fin 16) : sProp 𝕄 :=
  iprop(flTok fl d (qT c i) ∗ (oLoc d ↦[stRows c i]{fullShare} m (oLoc d)) ∗ (oLoc d ↦[dmRows c i]{fullShare} m (oLoc d))
    ∗ ∃ f, shLoc d (scOf c) ↦[shRows i]{fullShare} f)
def tdT (d : Dev nD) (c : Fin 2) (i : Fin 16) : sProp 𝕄 :=
  iprop(flTok fl d (qT c i) ∗ (oLoc d ↦[stRows c i]{fullShare} tgt fl d) ∗ (oLoc d ↦[dmRows c i]{fullShare} tgt fl d)
    ∗ (shLoc d (scOf c) ↦{Transfers.shareTok fullShare 16 i} shFin fl d (scOf c))
    ∗ (shLoc d (scOf c) ↦[shRows i]{Transfers.shareDrop fullShare 16} shFin fl d (scOf c)))

variable [FloatOps F]

def P : (K (F := F)).Pay (nD := nD) (Val := Elt F) (Name := ℕ) (U := UU) where
  st := fun q d c => match q with | 0 => stC fl m d (Fin.cast nCore_zero c)
  dn := fun q d c => match q with | 0 => dnC fl d (Fin.cast nCore_zero c)
  go := fun q d c i => match q with | 0 => goT fl m d (Fin.cast nCore_zero c) (Fin.cast nSub_zero i)
  td := fun q d c i => match q with | 0 => tdT fl d (Fin.cast nCore_zero c) (Fin.cast nSub_zero i)
  x := fun _ thr => match thr with
    | (d, .scVector c i) => if c.val < 2 then bkit fl d c i else iprop(emp)
    | _ => iprop(emp)
  ox := fun _ thr => match thr with
    | (d, .scVector c _) => if c.val < 2 then oxV d c else 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      split at h
      · obtain ⟨j, rfl, rfl⟩ := oxV_apply_pos h
        rw [(K (F := F)).lev_V_reg d c (j.castLE hsub0) (show (sc_bar0 : Sem sig) ≠ (K (F := F)).go from sc_bar0_ne_go)]; exact ⟨le_rfl, by decide⟩
      · exact absurd h (lt_irrefl 0)
  ox_tc := fun _ _ => rfl
  ox_sc := fun _ _ _ h => absurd rfl h
  ox_vc := by
    intro q d c i h
    obtain rfl : q = 0 := Subsingleton.elim _ _
    dsimp only at h
    split at h
    · next hc => exact ⟨rfl, hc, i.isLt⟩
    · exact absurd rfl h

instance P_storable : (P (F := F) fl m).IsStorable where
  st q d c := match q with
    | 0 => by show BI.Storable (upEmb : UEmb _ 𝕄) (stC fl m d (Fin.cast nCore_zero c)); unfold stC; infer_instance
  dn q d c := match q with
    | 0 => by show BI.Storable (upEmb : UEmb _ 𝕄) (dnC fl d (Fin.cast nCore_zero c)); unfold dnC; infer_instance
  go q d c i := match q with
    | 0 => by show BI.Storable (upEmb : UEmb _ 𝕄) (goT fl m d (Fin.cast nCore_zero c) (Fin.cast nSub_zero i)); unfold goT; infer_instance
  td q d c i := match q with
    | 0 => by show BI.Storable (upEmb : UEmb _ 𝕄) (tdT fl d (Fin.cast nCore_zero c) (Fin.cast nSub_zero i)); unfold tdT; infer_instance

end Cert.Proof.BcastI

end
-- ==== Proof.ValueI.lean ====
/-
  What the copies move, index by index. Every array here holds one row of 12800 numbers repeated: the shared
  scratch in each of its sixteen rows, a subcore's buffer in both of its rows, the output in all 4096. A window
  of consecutive whole rows of such an array holds the same row repeated, and one row of it, read flat, is that
  row. On the host side the table's 200 rows of 64 numbers are laid end to end into the row of 12800, and the
  output's rows of 12800 are cut back into 200 rows of 64: entry (b, p, e) of the result is the table's (p, e).
-/
import proofs.«213620_g48704929136794_cont_8to1c4_761_22_alg».proof.Proof.GeomI
import proofs.«213620_g48704929136794_cont_8to1c4_761_22_alg».proof.Proof.Spec
import Idealize.ShloMosaic.Lib.ValueIdx
import Idealize.ShloMosaic.Lib.Pipeline.Value

noncomputable section

namespace Cert.Proof.BcastI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "fV" => (Memref.whole Cert.KernelIdeal.main_v0_scv : Memref Cert.KernelIdeal.sig Kind.scVector Space.hbm Cert.KernelIdeal.S12800 EltTy.f32)
local notation "oV" => (Memref.whole Cert.KernelIdeal.main_v1_scv : Memref Cert.KernelIdeal.sig Kind.scVector Space.hbm Cert.KernelIdeal.S4096x12800 EltTy.f32)
local notation "bV" => (Memref.whole Cert.KernelIdeal.cc0_scratch0 : Memref Cert.KernelIdeal.sig Kind.scVector Space.vmem Cert.KernelIdeal.S2x12800 EltTy.f32)
local notation "shV" => (Memref.whole Cert.KernelIdeal.cc0_scratch1 : Memref Cert.KernelIdeal.sig Kind.scVector Space.shared Cert.KernelIdeal.S16x12800 EltTy.f32)

/-- One row of 12800 numbers copied into every row of an n-row array. -/
def rowsOf {α : Type} {n : ℕ} (p : S12800.Idx → α) : (⟨2, ![n, 12800]⟩ : Shape).Idx → α :=
  fun x => p (ValueIdx.ix1 (n := 12800) (x 1))

theorem rowsOf_apply {α : Type} {n : ℕ} (p : S12800.Idx → α) (a : Fin n) (b : Fin 12800) :
    rowsOf (n := n) p (ValueIdx.ix2 a b) = p (ValueIdx.ix1 b) := rfl

/-- Row 0 and row 1 of a subcore's own buffer, each read flat. -/
abbrev bufRow0 : Memref sig .scVector .vmem S12800 .f32 :=
  ((bV).slice (Rect.unit (s := S2x12800) ![0, 0] S1x12800.size inb_S2x12800_S1x12800_0_0) (fun _ => rfl)).squeeze S12800 squeezes_S1x12800_S12800
abbrev bufRow1 : Memref sig .scVector .vmem S12800 .f32 :=
  ((bV).slice (Rect.unit (s := S2x12800) ![1, 0] S1x12800.size inb_S2x12800_S1x12800_1_0) (fun _ => rfl)).squeeze S12800 squeezes_S1x12800_S12800

/-! ## Windows of whole rows -/

/-- A two-row window of the output reads the repeated row as the repeated row. -/
theorem read_stWin (L : grid0.Coords) (r : Fin 40) (p : S12800.Idx → Elt F .f32) :
    (stWin L r).view.read (Elt F) (rowsOf (n := 4096) p) = rowsOf (n := 2) p := by
  funext x
  rw [View.read_apply]
  refine (cast_eq _ _).trans ?_
  have h : ((stWin L r).view.emb x) 1 = x 1 := by
    refine Fin.ext ?_
    show (k0_off3 L (BitVec.ofNat 32 (2 * r.val))) 1 + 1 * (x 1).val = (x 1).val
    rw [k0_off3_eq L r]
    show 0 + 1 * (x 1).val = (x 1).val
    omega
  exact congrArg (fun a => p (ValueIdx.ix1 (n := 12800) a)) h

/-- A sixteen-row window of the output reads the repeated row as the repeated row. -/
theorem read_dmWin (L : grid0.Coords) (r : Fin 3) (p : S12800.Idx → Elt F .f32) :
    (dmWin L r).view.read (Elt F) (rowsOf (n := 4096) p) = rowsOf (n := 16) p := by
  funext x
  rw [View.read_apply]
  refine (cast_eq _ _).trans ?_
  have h : ((dmWin L r).view.emb x) 1 = x 1 := by
    refine Fin.ext ?_
    show (k0_off2 L (BitVec.ofNat 32 (16 * r.val))) 1 + 1 * (x 1).val = (x 1).val
    rw [k0_off2_eq L r]
    show 0 + 1 * (x 1).val = (x 1).val
    omega
  exact congrArg (fun a => p (ValueIdx.ix1 (n := 12800) a)) h

/-! ## One row, read flat -/

/-- A flat index's place in a one-row array: row 0, the same column. -/
theorem flat_row (h : S12800.numel = S1x12800.numel) (x : S12800.Idx) :
    Shape.reshapeEquiv h x = ValueIdx.ix2 (n0 := 1) (n1 := 12800) 0 (x 0) := by
  refine Shape.reshapeEquiv_eq_of_rowMajor h ?_
  rw [Shape.rowMajor_val_two, Shape.rowMajor_val_one]
  show 0 * 12800 + (x 0).val = (x 0).val
  omega

/-- A subcore's row of the shared scratch, read flat, reads the repeated row as that row. -/
theorem read_shRowK (L : grid0.Coords) (p : S12800.Idx → Elt F .f32) :
    (shRowK L).view.read (Elt F) (rowsOf (n := 16) p) = p := by
  funext x
  rw [View.read_apply]
  refine (cast_eq _ _).trans ?_
  have h : ((shRowK L).view.emb x) 1 = x 0 := by
    refine Fin.ext ?_
    show (k0_off1 L) 1 + 1 * ((Shape.reshapeEquiv _ x) 1).val = (x 0).val
    rw [flat_row]
    have h1 : (k0_off1 L) 1 = 0 := by rw [k0_off1_eq L]; rfl
    show (k0_off1 L) 1 + 1 * (x 0).val = (x 0).val
    omega
  exact (congrArg (fun a => p (ValueIdx.ix1 (n := 12800) a)) h).trans (congrArg p (ValueIdx.eq_ix1 x).symm)

/-- Where row 0 of the own buffer, read flat, sits in the buffer … -/
theorem emb_bufRow0 (y : S12800.Idx) : bufRow0.view.emb y = ValueIdx.ix2 (n0 := 2) (n1 := 12800) 0 (y 0) := by
  have h0 : (bufRow0.view.emb y) 0 = (0 : Fin 2) := by
    refine Fin.ext ?_
    show (![0, 0] : Fin 2 → ℕ) 0 + 1 * ((Shape.reshapeEquiv (s := S1x12800) _ y) 0).val = 0
    rw [flat_row]
    rfl
  have h1 : (bufRow0.view.emb y) 1 = y 0 := by
    refine Fin.ext ?_
    show (![0, 0] : Fin 2 → ℕ) 1 + 1 * ((Shape.reshapeEquiv (s := S1x12800) _ y) 1).val = (y 0).val
    rw [flat_row]
    show 0 + 1 * (y 0).val = (y 0).val
    omega
  refine (ValueIdx.eq_ix2 (n0 := 2) (n1 := 12800) (bufRow0.view.emb y)).trans ?_
  rw [h0, h1]
  rfl

/-- … and row 1. -/
theorem emb_bufRow1 (y : S12800.Idx) : bufRow1.view.emb y = ValueIdx.ix2 (n0 := 2) (n1 := 12800) 1 (y 0) := by
  have h0 : (bufRow1.view.emb y) 0 = (1 : Fin 2) := by
    refine Fin.ext ?_
    show (![1, 0] : Fin 2 → ℕ) 0 + 1 * ((Shape.reshapeEquiv (s := S1x12800) _ y) 0).val = 1
    rw [flat_row]
    rfl
  have h1 : (bufRow1.view.emb y) 1 = y 0 := by
    refine Fin.ext ?_
    show (![1, 0] : Fin 2 → ℕ) 1 + 1 * ((Shape.reshapeEquiv (s := S1x12800) _ y) 1).val = (y 0).val
    rw [flat_row]
    show 0 + 1 * (y 0).val = (y 0).val
    omega
  refine (ValueIdx.eq_ix2 (n0 := 2) (n1 := 12800) (bufRow1.view.emb y)).trans ?_
  rw [h0, h1]
  rfl

/-- The own buffer after the row is written into its row 0 and then into its row 1, at an index. -/
theorem buf_two_rows_at (p : S12800.Idx → Elt F .f32) (fb : S2x12800.Idx → Elt F .f32) (a : Fin 2) (b : Fin 12800) :
    View.write (Elt F) bufRow1.view (View.write (Elt F) bufRow0.view fb p Finset.univ) p Finset.univ (ValueIdx.ix2 a b)
      = p (ValueIdx.ix1 b) := by
  match a with
  | ⟨0, _⟩ =>
    have hn : (ValueIdx.ix2 (n0 := 2) (n1 := 12800) 0 b) ∉ bufRow1.view.setOn Finset.univ := by
      intro hm
      obtain ⟨y, -, hy⟩ := Finset.mem_map.mp hm
      rw [emb_bufRow1] at hy
      have := congrArg (fun i : S2x12800.Idx => (i 0).val) hy
      exact Nat.one_ne_zero this
    have e : ValueIdx.ix2 (n0 := 2) (n1 := 12800) 0 b = bufRow0.view.emb (ValueIdx.ix1 b) := (emb_bufRow0 (ValueIdx.ix1 b)).symm
    show View.write (Elt F) bufRow1.view _ p Finset.univ (ValueIdx.ix2 (n0 := 2) (n1 := 12800) 0 b) = _
    rw [View.write_of_not_mem _ _ _ hn, e, View.write_emb_of_mem _ _ (Finset.mem_univ _)]
    exact cast_eq _ _
  | ⟨1, _⟩ =>
    have e : ValueIdx.ix2 (n0 := 2) (n1 := 12800) 1 b = bufRow1.view.emb (ValueIdx.ix1 b) := (emb_bufRow1 (ValueIdx.ix1 b)).symm
    show View.write (Elt F) bufRow1.view _ p Finset.univ (ValueIdx.ix2 (n0 := 2) (n1 := 12800) 1 b) = _
    rw [e, View.write_emb_of_mem _ _ (Finset.mem_univ _)]
    exact cast_eq _ _

/-- Written into both rows of the own buffer, the row is repeated in it. -/
theorem buf_two_rows (p : S12800.Idx → Elt F .f32) (fb : S2x12800.Idx → Elt F .f32) :
    View.write (Elt F) bufRow1.view (View.write (Elt F) bufRow0.view fb p Finset.univ) p Finset.univ = rowsOf (n := 2) p := by
  funext i
  exact (congrArg _ (ValueIdx.eq_ix2 i)).trans (buf_two_rows_at p fb (i 0) (i 1))

/-! ## The host's two reshapes -/

/-- The table laid end to end, repeated in 4096 rows, and each row cut back into 200 rows of 64, is the table
    in every batch row: entry (b, p, e) sits at row b, column 64 p + e, and column 64 p + e of the flattened
    table is the table's entry (p, e). -/
theorem reshape_rows (tbl : S200x64.Idx → Elt F .f32) :
    shapeCast S4096x200x64 (rowsOf (n := 4096) (shapeCast S12800 tbl shapeCasts_S200x64_S12800)) shapeCasts_S4096x12800_S4096x200x64
      = Cert.Spec.everyRow tbl := by
  funext j
  obtain ⟨b, q, e, rfl⟩ : ∃ (b : Fin 4096) (q : Fin 200) (e : Fin 64), j = ValueIdx.ix3 b q e :=
    ⟨j 0, j 1, j 2, ValueIdx.eq_ix3 j⟩
  rw [Cert.Spec.everyRow_apply]
  have hc : 64 * q.val + e.val < 12800 := by
    have := q.isLt; have := e.isLt; omega
  refine (shapeCast_apply _ _ (ValueIdx.ix3 b q e) (ValueIdx.ix2 (n0 := 4096) (n1 := 12800) b ⟨64 * q.val + e.val, hc⟩) ?_).trans ?_
  · rw [Shape.rowMajor_val_two, Shape.rowMajor_val_three]
    show b.val * 12800 + (64 * q.val + e.val) = (b.val * 200 + q.val) * 64 + e.val
    omega
  rw [rowsOf_apply]
  refine shapeCast_apply _ _ (ValueIdx.ix1 (n := 12800) ⟨64 * q.val + e.val, hc⟩) (ValueIdx.ix2 q e) ?_
  rw [Shape.rowMajor_val_two, Shape.rowMajor_val_one]
  show q.val * 64 + e.val = 64 * q.val + e.val
  omega

end Cert.Proof.BcastI

end
-- ==== Proof.WinI.lean ====
/-
  The rows a subcore fills, window by window.

  Its 80 rows are forty consecutive pairs, its 48 rows three consecutive runs of sixteen: exactly the windows its copies
  write. A window that has received a whole copy holds what the source held, so a pair of rows copied from a buffer
  whose two rows are the flattened table, or sixteen rows copied from a scratch all of whose rows are, holds the
  flattened table in every row.
-/
import proofs.«213620_g48704929136794_cont_8to1c4_761_22_alg».proof.Proof.PayI
import proofs.«213620_g48704929136794_cont_8to1c4_761_22_alg».proof.Proof.ValueI
import Idealize.ShloMosaic.Lib.Exec.Context

noncomputable section

namespace Cert.Proof.BcastI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "fV" => (Memref.whole Cert.KernelIdeal.main_v0_scv : Memref Cert.KernelIdeal.sig Kind.scVector Space.hbm Cert.KernelIdeal.S12800 EltTy.f32)
local notation "oV" => (Memref.whole Cert.KernelIdeal.main_v1_scv : Memref Cert.KernelIdeal.sig Kind.scVector Space.hbm Cert.KernelIdeal.S4096x12800 EltTy.f32)
local notation "bV" => (Memref.whole Cert.KernelIdeal.cc0_scratch0 : Memref Cert.KernelIdeal.sig Kind.scVector Space.vmem Cert.KernelIdeal.S2x12800 EltTy.f32)
local notation "shV" => (Memref.whole Cert.KernelIdeal.cc0_scratch1 : Memref Cert.KernelIdeal.sig Kind.scVector Space.shared Cert.KernelIdeal.S16x12800 EltTy.f32)

variable (fl : (d : Dev nD) → Buf (Elt F) (flLoc d)) (m : (ℓ : Loc nD τ sig) → Buf (Elt F) ℓ)
variable (d : Dev nD) (L : grid0.Coords)

theorem bound_zero : grid0.bound 0 = 2 := rfl
/-- The SparseCore's number within the call. -/
abbrev cL (L : grid0.Coords) : Fin 2 := Fin.cast bound_zero (L 0)

theorem rowsSet_congr {lo lo' len : ℕ} {h : lo + len ≤ 4096} {h' : lo' + len ≤ 4096} (e : lo = lo') : rowsSet lo len h = rowsSet lo' len h' := by
  subst e; rfl

/-! ## A window held by its own elements depends only on what is read through it -/

theorem pts_own_congr [∀ e, Nonempty (Elt F e)] {cs : Space} {s : Shape} {e : EltTy} (thr : Thread nD τ) (w : Memref sig thr.2.kind cs s e)
    (g g' : Buf (Elt F) (w.view.loc thr)) (q : PosShare TreeShare) (h : w.view.read (Elt F) g = w.view.read (Elt F) g') :
    (w.view.loc thr ↦[w.view.set]{q} g : sProp 𝕄) = w.view.loc thr ↦[w.view.set]{q} g' := by
  rw [pointsTo_rep (Ix := HIx 1) (Name := ℕ) (U := UU) (Lvl := ℕ) thr w g q, pointsTo_rep (Ix := HIx 1) (Name := ℕ) (U := UU) (Lvl := ℕ) thr w g' q, h]

theorem tgt_eq (d : Dev nD) : tgt fl d = rowsOf (n := 4096) (fl d) := rfl
theorem shFin_eq (d : Dev nD) (c : Fin τ.nSC) : shFin fl d c = rowsOf (n := 16) (fl d) := rfl

variable [∀ e, Nonempty (Elt F e)]

/-- A pair of rows that received a two-row buffer holding the flattened table twice. -/
theorem st_landed (r : Fin 40) (fo : Buf (Elt F) (oLoc d)) (pay : S2x12800.Idx → Elt F .f32) (hpay : pay = rowsOf (n := 2) (fl d)) :
    ((stWin L r).view.loc (thrV d L) ↦[(stWin L r).view.set]{fullShare} (stWin L r).view.writes (Elt F) fo [⟨Rect.whole S2x12800, pay⟩] : sProp 𝕄)
      = (stWin L r).view.loc (thrV d L) ↦[(stWin L r).view.set]{fullShare} tgt fl d :=
  pts_own_congr (thrV d L) (stWin L r) _ _ _ (by rw [View.read_writes_whole, hpay, tgt_eq]; exact (read_stWin L r (fl d)).symm)

/-- Sixteen rows that received a scratch whose every row is the flattened table. -/
theorem dm_landed (r : Fin 3) (fo : Buf (Elt F) (oLoc d)) (pay : S16x12800.Idx → Elt F .f32) (hpay : pay = rowsOf (n := 16) (fl d)) :
    ((dmWin L r).view.loc (thrV d L) ↦[(dmWin L r).view.set]{fullShare} (dmWin L r).view.writes (Elt F) fo [⟨Rect.whole S16x12800, pay⟩] : sProp 𝕄)
      = (dmWin L r).view.loc (thrV d L) ↦[(dmWin L r).view.set]{fullShare} tgt fl d :=
  pts_own_congr (thrV d L) (dmWin L r) _ _ _ (by rw [View.read_writes_whole, hpay, tgt_eq]; exact (read_dmWin L r (fl d)).symm)

/-- The subcore's row of the shared scratch once it has received the flattened table. -/
theorem sh_landed (fsh : Buf (Elt F) (shLoc d (cV L))) (pay : S12800.Idx → Elt F .f32) (hpay : pay = fl d) :
    ((shRowK L).view.loc (thrV d L) ↦[(shRowK L).view.set]{fullShare} (shRowK L).view.writes (Elt F) fsh [⟨Rect.whole S12800, pay⟩] : sProp 𝕄)
      = shLoc d (cV L) ↦[shRows (jL L)]{fullShare} shFin fl d (cV L) := by
  rw [pts_own_congr (thrV d L) (shRowK L) _ (shFin fl d (cV L)) _ (by rw [View.read_writes_whole, hpay, shFin_eq]; exact (read_shRowK L (fl d)).symm),
    set_shRowK]
  rfl

/-! ## The rows a subcore owns are its windows -/

theorem stWin_lo (r : Fin 40) : stLo (cL L) (jL L) + 2 * r.val = 2048 * (L 0).val + 80 * (L 1).val + 2 * r.val := by
  show 0 + 2048 * (L 0).val + 80 * (L 1).val + 2 * r.val = _; omega
theorem dmWin_lo (r : Fin 3) : dmLo (cL L) (jL L) + 16 * r.val = 2048 * (L 0).val + 48 * (L 1).val + 16 * r.val + 1280 := by
  show 0 + 2048 * (L 0).val + 16 * 80 + 48 * (L 1).val + 16 * r.val = _; omega

theorem st_split (f : Buf (Elt F) (oLoc d)) :
    (oLoc d ↦[stRows (cL L) (jL L)]{fullShare} f : sProp 𝕄)
      = bigSep Finset.univ fun r : Fin 40 => (stWin L r).view.loc (thrV d L) ↦[(stWin L r).view.set]{fullShare} f := by
  refine (pts_chunks (F := F) d (stLo (cL L) (jL L)) 2 40 (by decide) (st_le (cL L) (jL L)) fullShare f).trans (bigSep_congr fun r _ => ?_)
  exact congrArg (fun S => (oLoc d ↦[S]{fullShare} f : sProp 𝕄)) ((rowsSet_congr (stWin_lo L r)).trans (stSet_eq L r).symm)

theorem dm_split (f : Buf (Elt F) (oLoc d)) :
    (oLoc d ↦[dmRows (cL L) (jL L)]{fullShare} f : sProp 𝕄)
      = bigSep Finset.univ fun r : Fin 3 => (dmWin L r).view.loc (thrV d L) ↦[(dmWin L r).view.set]{fullShare} f := by
  refine (pts_chunks (F := F) d (dmLo (cL L) (jL L)) 16 3 (by decide) (dm_le (cL L) (jL L)) fullShare f).trans (bigSep_congr fun r _ => ?_)
  exact congrArg (fun S => (oLoc d ↦[S]{fullShare} f : sProp 𝕄)) ((rowsSet_congr (dmWin_lo L r)).trans (dmSet_eq L r).symm)

theorem univ40 : (Finset.univ : Finset (Fin 40)) = ([0, 1, 2, 3, 4, 5, 6, 7, 8, 9, 10, 11, 12, 13, 14, 15, 16, 17, 18, 19, 20, 21, 22, 23, 24, 25, 26, 27, 28, 29, 30, 31, 32, 33, 34, 35, 36, 37, 38, 39] : List (Fin 40)).toFinset := by decide
theorem nodup40 : ([0, 1, 2, 3, 4, 5, 6, 7, 8, 9, 10, 11, 12, 13, 14, 15, 16, 17, 18, 19, 20, 21, 22, 23, 24, 25, 26, 27, 28, 29, 30, 31, 32, 33, 34, 35, 36, 37, 38, 39] : List (Fin 40)).Nodup := by decide
theorem univ3 : (Finset.univ : Finset (Fin 3)) = ([0, 1, 2] : List (Fin 3)).toFinset := by decide
theorem nodup3 : ([0, 1, 2] : List (Fin 3)).Nodup := by decide

/-- The forty pairs of rows, one by one. -/
theorem st_open (f : Buf (Elt F) (oLoc d)) :
    (oLoc d ↦[stRows (cL L) (jL L)]{fullShare} f : sProp 𝕄)
      = iprop(((stWin L 0).view.loc (thrV d L) ↦[(stWin L 0).view.set]{fullShare} f)
      ∗ ((stWin L 1).view.loc (thrV d L) ↦[(stWin L 1).view.set]{fullShare} f)
      ∗ ((stWin L 2).view.loc (thrV d L) ↦[(stWin L 2).view.set]{fullShare} f)
      ∗ ((stWin L 3).view.loc (thrV d L) ↦[(stWin L 3).view.set]{fullShare} f)
      ∗ ((stWin L 4).view.loc (thrV d L) ↦[(stWin L 4).view.set]{fullShare} f)
      ∗ ((stWin L 5).view.loc (thrV d L) ↦[(stWin L 5).view.set]{fullShare} f)
      ∗ ((stWin L 6).view.loc (thrV d L) ↦[(stWin L 6).view.set]{fullShare} f)
      ∗ ((stWin L 7).view.loc (thrV d L) ↦[(stWin L 7).view.set]{fullShare} f)
      ∗ ((stWin L 8).view.loc (thrV d L) ↦[(stWin L 8).view.set]{fullShare} f)
      ∗ ((stWin L 9).view.loc (thrV d L) ↦[(stWin L 9).view.set]{fullShare} f)
      ∗ ((stWin L 10).view.loc (thrV d L) ↦[(stWin L 10).view.set]{fullShare} f)
      ∗ ((stWin L 11).view.loc (thrV d L) ↦[(stWin L 11).view.set]{fullShare} f)
      ∗ ((stWin L 12).view.loc (thrV d L) ↦[(stWin L 12).view.set]{fullShare} f)
      ∗ ((stWin L 13).view.loc (thrV d L) ↦[(stWin L 13).view.set]{fullShare} f)
      ∗ ((stWin L 14).view.loc (thrV d L) ↦[(stWin L 14).view.set]{fullShare} f)
      ∗ ((stWin L 15).view.loc (thrV d L) ↦[(stWin L 15).view.set]{fullShare} f)
      ∗ ((stWin L 16).view.loc (thrV d L) ↦[(stWin L 16).view.set]{fullShare} f)
      ∗ ((stWin L 17).view.loc (thrV d L) ↦[(stWin L 17).view.set]{fullShare} f)
      ∗ ((stWin L 18).view.loc (thrV d L) ↦[(stWin L 18).view.set]{fullShare} f)
      ∗ ((stWin L 19).view.loc (thrV d L) ↦[(stWin L 19).view.set]{fullShare} f)
      ∗ ((stWin L 20).view.loc (thrV d L) ↦[(stWin L 20).view.set]{fullShare} f)
      ∗ ((stWin L 21).view.loc (thrV d L) ↦[(stWin L 21).view.set]{fullShare} f)
      ∗ ((stWin L 22).view.loc (thrV d L) ↦[(stWin L 22).view.set]{fullShare} f)
      ∗ ((stWin L 23).view.loc (thrV d L) ↦[(stWin L 23).view.set]{fullShare} f)
      ∗ ((stWin L 24).view.loc (thrV d L) ↦[(stWin L 24).view.set]{fullShare} f)
      ∗ ((stWin L 25).view.loc (thrV d L) ↦[(stWin L 25).view.set]{fullShare} f)
      ∗ ((stWin L 26).view.loc (thrV d L) ↦[(stWin L 26).view.set]{fullShare} f)
      ∗ ((stWin L 27).view.loc (thrV d L) ↦[(stWin L 27).view.set]{fullShare} f)
      ∗ ((stWin L 28).view.loc (thrV d L) ↦[(stWin L 28).view.set]{fullShare} f)
      ∗ ((stWin L 29).view.loc (thrV d L) ↦[(stWin L 29).view.set]{fullShare} f)
      ∗ ((stWin L 30).view.loc (thrV d L) ↦[(stWin L 30).view.set]{fullShare} f)
      ∗ ((stWin L 31).view.loc (thrV d L) ↦[(stWin L 31).view.set]{fullShare} f)
      ∗ ((stWin L 32).view.loc (thrV d L) ↦[(stWin L 32).view.set]{fullShare} f)
      ∗ ((stWin L 33).view.loc (thrV d L) ↦[(stWin L 33).view.set]{fullShare} f)
      ∗ ((stWin L 34).view.loc (thrV d L) ↦[(stWin L 34).view.set]{fullShare} f)
      ∗ ((stWin L 35).view.loc (thrV d L) ↦[(stWin L 35).view.set]{fullShare} f)
      ∗ ((stWin L 36).view.loc (thrV d L) ↦[(stWin L 36).view.set]{fullShare} f)
      ∗ ((stWin L 37).view.loc (thrV d L) ↦[(stWin L 37).view.set]{fullShare} f)
      ∗ ((stWin L 38).view.loc (thrV d L) ↦[(stWin L 38).view.set]{fullShare} f)
      ∗ ((stWin L 39).view.loc (thrV d L) ↦[(stWin L 39).view.set]{fullShare} f)) :=
  (st_split d L f).trans (bigSep_univ_eq_bigSepL _ univ40 nodup40 _)

/-- The three runs of sixteen rows, one by one. -/
theorem dm_open (f : Buf (Elt F) (oLoc d)) :
    (oLoc d ↦[dmRows (cL L) (jL L)]{fullShare} f : sProp 𝕄)
      = iprop(((dmWin L 0).view.loc (thrV d L) ↦[(dmWin L 0).view.set]{fullShare} f)
      ∗ ((dmWin L 1).view.loc (thrV d L) ↦[(dmWin L 1).view.set]{fullShare} f)
      ∗ ((dmWin L 2).view.loc (thrV d L) ↦[(dmWin L 2).view.set]{fullShare} f)) :=
  (dm_split d L f).trans (bigSep_univ_eq_bigSepL _ univ3 nodup3 _)

end Cert.Proof.BcastI

end
-- ==== Proof.TileI.lean ====
/-
  One vector subcore's task.

  It copies the flattened table into both rows of its buffer and into its row of the shared scratch, waiting for each
  copy; at the barrier it publishes its row (sixteen read tokens) and receives token s of the whole scratch; it then
  starts its 43 copies to the output and waits for them all. Afterwards each of its 43 windows of the output holds
  what the copy's source held: rows of the flattened table.
-/
import proofs.«213620_g48704929136794_cont_8to1c4_761_22_alg».proof.Proof.PayI
import proofs.«213620_g48704929136794_cont_8to1c4_761_22_alg».proof.Proof.WinI

noncomputable section

namespace Cert.Proof.BcastI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "fV" => (Memref.whole Cert.KernelIdeal.main_v0_scv : Memref Cert.KernelIdeal.sig Kind.scVector Space.hbm Cert.KernelIdeal.S12800 EltTy.f32)
local notation "oV" => (Memref.whole Cert.KernelIdeal.main_v1_scv : Memref Cert.KernelIdeal.sig Kind.scVector Space.hbm Cert.KernelIdeal.S4096x12800 EltTy.f32)
local notation "bV" => (Memref.whole Cert.KernelIdeal.cc0_scratch0 : Memref Cert.KernelIdeal.sig Kind.scVector Space.vmem Cert.KernelIdeal.S2x12800 EltTy.f32)
local notation "shV" => (Memref.whole Cert.KernelIdeal.cc0_scratch1 : Memref Cert.KernelIdeal.sig Kind.scVector Space.shared Cert.KernelIdeal.S16x12800 EltTy.f32)

variable (fl : (d : Dev nD) → Buf (Elt F) (flLoc d)) (m : (ℓ : Loc nD τ sig) → Buf (Elt F) ℓ)
variable (d : Dev nD) (L : grid0.Coords)

/-! ## The subcore's own semaphores and buffer -/

abbrev c6cell (d : Dev nD) (c : Fin τ.nSC) (i : Fin τ.nSub) : GSem nD τ sig := (V d c i, .dma cc0_scratch2.sem)
abbrev c7cell (d : Dev nD) (c : Fin τ.nSC) (i : Fin τ.nSub) : GSem nD τ sig := (V d c i, .dma cc0_scratch3.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scoped2.sem)

theorem cell_ne {thr : Thread nD τ} {a b : DmaSem sig} (h : a ≠ b) : ((thr, SemLoc.dma a) : GSem nD τ sig) ≠ (thr, SemLoc.dma b) :=
  fun e => h (SemLoc.dma.inj (Prod.mk.inj e).2)

theorem ownSems0_V :
    (ownSems0 (thrV d L) : sProp 𝕄)
      = iprop(semVal (c6cell d (cV L) (jV L)) 0 ∗ semVal (c7cell d (cV L) (jV L)) 0 ∗ semVal (cAcell d (cV L) (jV L)) 0 ∗ semVal (cBcell d (cV L) (jV L)) 0 ∗ semVal (cCcell d (cV L) (jV L)) 0
          ∗ bigSep ((((((ownCells (thrV d L)).erase (c6cell d (cV L) (jV L))).erase (c7cell d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := c6cell d (cV L) (jV L))).mpr ⟨rfl, by show (SemLoc.dma cc0_scratch2.sem : SemLoc sig).isScoped .scVector = true; decide⟩),
    SparseCore.bigSep_erase' (Finset.mem_erase.mpr ⟨cell_ne (by decide : (cc0_scratch3.sem : DmaSem sig) ≠ cc0_scratch2.sem), (mem_ownCells (g := c7cell d (cV L) (jV L))).mpr ⟨rfl, by show (SemLoc.dma cc0_scratch3.sem : SemLoc sig).isScoped .scVector = true; decide⟩⟩),
    SparseCore.bigSep_erase' (Finset.mem_erase.mpr ⟨cell_ne (by decide : (cc0_scoped0.sem : DmaSem sig) ≠ cc0_scratch3.sem), Finset.mem_erase.mpr ⟨cell_ne (by decide : (cc0_scoped0.sem : DmaSem sig) ≠ cc0_scratch2.sem), (mem_ownCells (g := cAcell d (cV L) (jV L))).mpr ⟨rfl, by show (SemLoc.dma cc0_scoped0.sem : SemLoc sig).isScoped .scVector = true; decide⟩⟩⟩),
    SparseCore.bigSep_erase' (Finset.mem_erase.mpr ⟨cell_ne (by decide : (cc0_scoped1.sem : DmaSem sig) ≠ cc0_scoped0.sem), Finset.mem_erase.mpr ⟨cell_ne (by decide : (cc0_scoped1.sem : DmaSem sig) ≠ cc0_scratch3.sem), Finset.mem_erase.mpr ⟨cell_ne (by decide : (cc0_scoped1.sem : DmaSem sig) ≠ cc0_scratch2.sem), (mem_ownCells (g := cBcell d (cV L) (jV L))).mpr ⟨rfl, by show (SemLoc.dma cc0_scoped1.sem : SemLoc sig).isScoped .scVector = true; decide⟩⟩⟩⟩),
    SparseCore.bigSep_erase' (Finset.mem_erase.mpr ⟨cell_ne (by decide : (cc0_scoped2.sem : DmaSem sig) ≠ cc0_scoped1.sem), Finset.mem_erase.mpr ⟨cell_ne (by decide : (cc0_scoped2.sem : DmaSem sig) ≠ cc0_scoped0.sem), Finset.mem_erase.mpr ⟨cell_ne (by decide : (cc0_scoped2.sem : DmaSem sig) ≠ cc0_scratch3.sem), Finset.mem_erase.mpr ⟨cell_ne (by decide : (cc0_scoped2.sem : DmaSem sig) ≠ cc0_scratch2.sem), (mem_ownCells (g := cCcell d (cV L) (jV L))).mpr ⟨rfl, by show (SemLoc.dma cc0_scoped2.sem : SemLoc sig).isScoped .scVector = true; decide⟩⟩⟩⟩⟩)]

/-- The two-row buffer is among the subcore's own: it is it, at some contents, and the rest. -/
theorem ownBufs_V :
    (ownBufs (thrV d L) : sProp 𝕄)
      = iprop((∃ f, bLoc d L ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L)) (b := (Proc.scVector (cV L) (jV L)).devRef cc0_scratch0) rfl)

/-! ## The task's program, copy by copy -/

/-- The same operations in the same order, each copy's window written through the closed form of its offsets. -/
def taskProg (L : grid0.Coords) : Prog (TpuEff nD τ sig (Elt F) Λ₀ (.scVector ((L 0).castLE hcore0) ((L 1).castLE hsub0))) PUnit := do
  Prog.lift (.enqueueDma fV (.here bufRow0) (.dma cc0_scoped0.sem) (Memref.isWhole_whole _).wordExact ((View.wordExact_bits rfl).reshape _ _) ⟨Or.inl rfl, trivial⟩)
  Prog.lift (.waitDma2 cc0_scoped0.sem fV bufRow0 (Memref.isWhole_whole _).wordExact ((View.wordExact_bits rfl).reshape _ _))
  Prog.lift (.enqueueDma fV (.here bufRow1) (.dma cc0_scoped1.sem) (Memref.isWhole_whole _).wordExact ((View.wordExact_bits rfl).reshape _ _) ⟨Or.inl rfl, trivial⟩)
  Prog.lift (.waitDma2 cc0_scoped1.sem fV bufRow1 (Memref.isWhole_whole _).wordExact ((View.wordExact_bits rfl).reshape _ _))
  Prog.lift (.enqueueDma fV (.here (shRowK L)) (.dma cc0_scoped2.sem) (Memref.isWhole_whole _).wordExact ((View.wordExact_bits rfl).reshape _ _) ⟨Or.inl rfl, trivial⟩)
  Prog.lift (.waitDma2 cc0_scoped2.sem fV (shRowK L) (Memref.isWhole_whole _).wordExact ((View.wordExact_bits rfl).reshape _ _))
  SparseCore.subcoreBarrier sc_bar0 (grid0.bound 1) hsub0
  Prog.lift (.enqueueDma shV (.here (dmWin L 0)) (.dma cc0_scratch3.sem) (Memref.isWhole_whole _).wordExact (View.wordExact_bits rfl) ⟨Or.inl rfl, trivial⟩)
  Prog.lift (.enqueueDma shV (.here (dmWin L 1)) (.dma cc0_scratch3.sem) (Memref.isWhole_whole _).wordExact (View.wordExact_bits rfl) ⟨Or.inl rfl, trivial⟩)
  Prog.lift (.enqueueDma shV (.here (dmWin L 2)) (.dma cc0_scratch3.sem) (Memref.isWhole_whole _).wordExact (View.wordExact_bits rfl) ⟨Or.inl rfl, trivial⟩)
  Prog.lift (.enqueueDma bV (.here (stWin L 0)) (.dma cc0_scratch2.sem) (Memref.isWhole_whole _).wordExact (View.wordExact_bits rfl) ⟨Or.inl rfl, trivial⟩)
  Prog.lift (.enqueueDma bV (.here (stWin L 1)) (.dma cc0_scratch2.sem) (Memref.isWhole_whole _).wordExact (View.wordExact_bits rfl) ⟨Or.inl rfl, trivial⟩)
  Prog.lift (.enqueueDma bV (.here (stWin L 2)) (.dma cc0_scratch2.sem) (Memref.isWhole_whole _).wordExact (View.wordExact_bits rfl) ⟨Or.inl rfl, trivial⟩)
  Prog.lift (.enqueueDma bV (.here (stWin L 3)) (.dma cc0_scratch2.sem) (Memref.isWhole_whole _).wordExact (View.wordExact_bits rfl) ⟨Or.inl rfl, trivial⟩)
  Prog.lift (.enqueueDma bV (.here (stWin L 4)) (.dma cc0_scratch2.sem) (Memref.isWhole_whole _).wordExact (View.wordExact_bits rfl) ⟨Or.inl rfl, trivial⟩)
  Prog.lift (.enqueueDma bV (.here (stWin L 5)) (.dma cc0_scratch2.sem) (Memref.isWhole_whole _).wordExact (View.wordExact_bits rfl) ⟨Or.inl rfl, trivial⟩)
  Prog.lift (.enqueueDma bV (.here (stWin L 6)) (.dma cc0_scratch2.sem) (Memref.isWhole_whole _).wordExact (View.wordExact_bits rfl) ⟨Or.inl rfl, trivial⟩)
  Prog.lift (.enqueueDma bV (.here (stWin L 7)) (.dma cc0_scratch2.sem) (Memref.isWhole_whole _).wordExact (View.wordExact_bits rfl) ⟨Or.inl rfl, trivial⟩)
  Prog.lift (.enqueueDma bV (.here (stWin L 8)) (.dma cc0_scratch2.sem) (Memref.isWhole_whole _).wordExact (View.wordExact_bits rfl) ⟨Or.inl rfl, trivial⟩)
  Prog.lift (.enqueueDma bV (.here (stWin L 9)) (.dma cc0_scratch2.sem) (Memref.isWhole_whole _).wordExact (View.wordExact_bits rfl) ⟨Or.inl rfl, trivial⟩)
  Prog.lift (.enqueueDma bV (.here (stWin L 10)) (.dma cc0_scratch2.sem) (Memref.isWhole_whole _).wordExact (View.wordExact_bits rfl) ⟨Or.inl rfl, trivial⟩)
  Prog.lift (.enqueueDma bV (.here (stWin L 11)) (.dma cc0_scratch2.sem) (Memref.isWhole_whole _).wordExact (View.wordExact_bits rfl) ⟨Or.inl rfl, trivial⟩)
  Prog.lift (.enqueueDma bV (.here (stWin L 12)) (.dma cc0_scratch2.sem) (Memref.isWhole_whole _).wordExact (View.wordExact_bits rfl) ⟨Or.inl rfl, trivial⟩)
  Prog.lift (.enqueueDma bV (.here (stWin L 13)) (.dma cc0_scratch2.sem) (Memref.isWhole_whole _).wordExact (View.wordExact_bits rfl) ⟨Or.inl rfl, trivial⟩)
  Prog.lift (.enqueueDma bV (.here (stWin L 14)) (.dma cc0_scratch2.sem) (Memref.isWhole_whole _).wordExact (View.wordExact_bits rfl) ⟨Or.inl rfl, trivial⟩)
  Prog.lift (.enqueueDma bV (.here (stWin L 15)) (.dma cc0_scratch2.sem) (Memref.isWhole_whole _).wordExact (View.wordExact_bits rfl) ⟨Or.inl rfl, trivial⟩)
  Prog.lift (.enqueueDma bV (.here (stWin L 16)) (.dma cc0_scratch2.sem) (Memref.isWhole_whole _).wordExact (View.wordExact_bits rfl) ⟨Or.inl rfl, trivial⟩)
  Prog.lift (.enqueueDma bV (.here (stWin L 17)) (.dma cc0_scratch2.sem) (Memref.isWhole_whole _).wordExact (View.wordExact_bits rfl) ⟨Or.inl rfl, trivial⟩)
  Prog.lift (.enqueueDma bV (.here (stWin L 18)) (.dma cc0_scratch2.sem) (Memref.isWhole_whole _).wordExact (View.wordExact_bits rfl) ⟨Or.inl rfl, trivial⟩)
  Prog.lift (.enqueueDma bV (.here (stWin L 19)) (.dma cc0_scratch2.sem) (Memref.isWhole_whole _).wordExact (View.wordExact_bits rfl) ⟨Or.inl rfl, trivial⟩)
  Prog.lift (.enqueueDma bV (.here (stWin L 20)) (.dma cc0_scratch2.sem) (Memref.isWhole_whole _).wordExact (View.wordExact_bits rfl) ⟨Or.inl rfl, trivial⟩)
  Prog.lift (.enqueueDma bV (.here (stWin L 21)) (.dma cc0_scratch2.sem) (Memref.isWhole_whole _).wordExact (View.wordExact_bits rfl) ⟨Or.inl rfl, trivial⟩)
  Prog.lift (.enqueueDma bV (.here (stWin L 22)) (.dma cc0_scratch2.sem) (Memref.isWhole_whole _).wordExact (View.wordExact_bits rfl) ⟨Or.inl rfl, trivial⟩)
  Prog.lift (.enqueueDma bV (.here (stWin L 23)) (.dma cc0_scratch2.sem) (Memref.isWhole_whole _).wordExact (View.wordExact_bits rfl) ⟨Or.inl rfl, trivial⟩)
  Prog.lift (.enqueueDma bV (.here (stWin L 24)) (.dma cc0_scratch2.sem) (Memref.isWhole_whole _).wordExact (View.wordExact_bits rfl) ⟨Or.inl rfl, trivial⟩)
  Prog.lift (.enqueueDma bV (.here (stWin L 25)) (.dma cc0_scratch2.sem) (Memref.isWhole_whole _).wordExact (View.wordExact_bits rfl) ⟨Or.inl rfl, trivial⟩)
  Prog.lift (.enqueueDma bV (.here (stWin L 26)) (.dma cc0_scratch2.sem) (Memref.isWhole_whole _).wordExact (View.wordExact_bits rfl) ⟨Or.inl rfl, trivial⟩)
  Prog.lift (.enqueueDma bV (.here (stWin L 27)) (.dma cc0_scratch2.sem) (Memref.isWhole_whole _).wordExact (View.wordExact_bits rfl) ⟨Or.inl rfl, trivial⟩)
  Prog.lift (.enqueueDma bV (.here (stWin L 28)) (.dma cc0_scratch2.sem) (Memref.isWhole_whole _).wordExact (View.wordExact_bits rfl) ⟨Or.inl rfl, trivial⟩)
  Prog.lift (.enqueueDma bV (.here (stWin L 29)) (.dma cc0_scratch2.sem) (Memref.isWhole_whole _).wordExact (View.wordExact_bits rfl) ⟨Or.inl rfl, trivial⟩)
  Prog.lift (.enqueueDma bV (.here (stWin L 30)) (.dma cc0_scratch2.sem) (Memref.isWhole_whole _).wordExact (View.wordExact_bits rfl) ⟨Or.inl rfl, trivial⟩)
  Prog.lift (.enqueueDma bV (.here (stWin L 31)) (.dma cc0_scratch2.sem) (Memref.isWhole_whole _).wordExact (View.wordExact_bits rfl) ⟨Or.inl rfl, trivial⟩)
  Prog.lift (.enqueueDma bV (.here (stWin L 32)) (.dma cc0_scratch2.sem) (Memref.isWhole_whole _).wordExact (View.wordExact_bits rfl) ⟨Or.inl rfl, trivial⟩)
  Prog.lift (.enqueueDma bV (.here (stWin L 33)) (.dma cc0_scratch2.sem) (Memref.isWhole_whole _).wordExact (View.wordExact_bits rfl) ⟨Or.inl rfl, trivial⟩)
  Prog.lift (.enqueueDma bV (.here (stWin L 34)) (.dma cc0_scratch2.sem) (Memref.isWhole_whole _).wordExact (View.wordExact_bits rfl) ⟨Or.inl rfl, trivial⟩)
  Prog.lift (.enqueueDma bV (.here (stWin L 35)) (.dma cc0_scratch2.sem) (Memref.isWhole_whole _).wordExact (View.wordExact_bits rfl) ⟨Or.inl rfl, trivial⟩)
  Prog.lift (.enqueueDma bV (.here (stWin L 36)) (.dma cc0_scratch2.sem) (Memref.isWhole_whole _).wordExact (View.wordExact_bits rfl) ⟨Or.inl rfl, trivial⟩)
  Prog.lift (.enqueueDma bV (.here (stWin L 37)) (.dma cc0_scratch2.sem) (Memref.isWhole_whole _).wordExact (View.wordExact_bits rfl) ⟨Or.inl rfl, trivial⟩)
  Prog.lift (.enqueueDma bV (.here (stWin L 38)) (.dma cc0_scratch2.sem) (Memref.isWhole_whole _).wordExact (View.wordExact_bits rfl) ⟨Or.inl rfl, trivial⟩)
  Prog.lift (.enqueueDma bV (.here (stWin L 39)) (.dma cc0_scratch2.sem) (Memref.isWhole_whole _).wordExact (View.wordExact_bits rfl) ⟨Or.inl rfl, trivial⟩)
  Prog.lift (.waitDma2 cc0_scratch3.sem shV (dmWin L 0) (Memref.isWhole_whole _).wordExact (View.wordExact_bits rfl))
  Prog.lift (.waitDma2 cc0_scratch3.sem shV (dmWin L 1) (Memref.isWhole_whole _).wordExact (View.wordExact_bits rfl))
  Prog.lift (.waitDma2 cc0_scratch3.sem shV (dmWin L 2) (Memref.isWhole_whole _).wordExact (View.wordExact_bits rfl))
  Prog.lift (.waitDma2 cc0_scratch2.sem bV (stWin L 0) (Memref.isWhole_whole _).wordExact (View.wordExact_bits rfl))
  Prog.lift (.waitDma2 cc0_scratch2.sem bV (stWin L 1) (Memref.isWhole_whole _).wordExact (View.wordExact_bits rfl))
  Prog.lift (.waitDma2 cc0_scratch2.sem bV (stWin L 2) (Memref.isWhole_whole _).wordExact (View.wordExact_bits rfl))
  Prog.lift (.waitDma2 cc0_scratch2.sem bV (stWin L 3) (Memref.isWhole_whole _).wordExact (View.wordExact_bits rfl))
  Prog.lift (.waitDma2 cc0_scratch2.sem bV (stWin L 4) (Memref.isWhole_whole _).wordExact (View.wordExact_bits rfl))
  Prog.lift (.waitDma2 cc0_scratch2.sem bV (stWin L 5) (Memref.isWhole_whole _).wordExact (View.wordExact_bits rfl))
  Prog.lift (.waitDma2 cc0_scratch2.sem bV (stWin L 6) (Memref.isWhole_whole _).wordExact (View.wordExact_bits rfl))
  Prog.lift (.waitDma2 cc0_scratch2.sem bV (stWin L 7) (Memref.isWhole_whole _).wordExact (View.wordExact_bits rfl))
  Prog.lift (.waitDma2 cc0_scratch2.sem bV (stWin L 8) (Memref.isWhole_whole _).wordExact (View.wordExact_bits rfl))
  Prog.lift (.waitDma2 cc0_scratch2.sem bV (stWin L 9) (Memref.isWhole_whole _).wordExact (View.wordExact_bits rfl))
  Prog.lift (.waitDma2 cc0_scratch2.sem bV (stWin L 10) (Memref.isWhole_whole _).wordExact (View.wordExact_bits rfl))
  Prog.lift (.waitDma2 cc0_scratch2.sem bV (stWin L 11) (Memref.isWhole_whole _).wordExact (View.wordExact_bits rfl))
  Prog.lift (.waitDma2 cc0_scratch2.sem bV (stWin L 12) (Memref.isWhole_whole _).wordExact (View.wordExact_bits rfl))
  Prog.lift (.waitDma2 cc0_scratch2.sem bV (stWin L 13) (Memref.isWhole_whole _).wordExact (View.wordExact_bits rfl))
  Prog.lift (.waitDma2 cc0_scratch2.sem bV (stWin L 14) (Memref.isWhole_whole _).wordExact (View.wordExact_bits rfl))
  Prog.lift (.waitDma2 cc0_scratch2.sem bV (stWin L 15) (Memref.isWhole_whole _).wordExact (View.wordExact_bits rfl))
  Prog.lift (.waitDma2 cc0_scratch2.sem bV (stWin L 16) (Memref.isWhole_whole _).wordExact (View.wordExact_bits rfl))
  Prog.lift (.waitDma2 cc0_scratch2.sem bV (stWin L 17) (Memref.isWhole_whole _).wordExact (View.wordExact_bits rfl))
  Prog.lift (.waitDma2 cc0_scratch2.sem bV (stWin L 18) (Memref.isWhole_whole _).wordExact (View.wordExact_bits rfl))
  Prog.lift (.waitDma2 cc0_scratch2.sem bV (stWin L 19) (Memref.isWhole_whole _).wordExact (View.wordExact_bits rfl))
  Prog.lift (.waitDma2 cc0_scratch2.sem bV (stWin L 20) (Memref.isWhole_whole _).wordExact (View.wordExact_bits rfl))
  Prog.lift (.waitDma2 cc0_scratch2.sem bV (stWin L 21) (Memref.isWhole_whole _).wordExact (View.wordExact_bits rfl))
  Prog.lift (.waitDma2 cc0_scratch2.sem bV (stWin L 22) (Memref.isWhole_whole _).wordExact (View.wordExact_bits rfl))
  Prog.lift (.waitDma2 cc0_scratch2.sem bV (stWin L 23) (Memref.isWhole_whole _).wordExact (View.wordExact_bits rfl))
  Prog.lift (.waitDma2 cc0_scratch2.sem bV (stWin L 24) (Memref.isWhole_whole _).wordExact (View.wordExact_bits rfl))
  Prog.lift (.waitDma2 cc0_scratch2.sem bV (stWin L 25) (Memref.isWhole_whole _).wordExact (View.wordExact_bits rfl))
  Prog.lift (.waitDma2 cc0_scratch2.sem bV (stWin L 26) (Memref.isWhole_whole _).wordExact (View.wordExact_bits rfl))
  Prog.lift (.waitDma2 cc0_scratch2.sem bV (stWin L 27) (Memref.isWhole_whole _).wordExact (View.wordExact_bits rfl))
  Prog.lift (.waitDma2 cc0_scratch2.sem bV (stWin L 28) (Memref.isWhole_whole _).wordExact (View.wordExact_bits rfl))
  Prog.lift (.waitDma2 cc0_scratch2.sem bV (stWin L 29) (Memref.isWhole_whole _).wordExact (View.wordExact_bits rfl))
  Prog.lift (.waitDma2 cc0_scratch2.sem bV (stWin L 30) (Memref.isWhole_whole _).wordExact (View.wordExact_bits rfl))
  Prog.lift (.waitDma2 cc0_scratch2.sem bV (stWin L 31) (Memref.isWhole_whole _).wordExact (View.wordExact_bits rfl))
  Prog.lift (.waitDma2 cc0_scratch2.sem bV (stWin L 32) (Memref.isWhole_whole _).wordExact (View.wordExact_bits rfl))
  Prog.lift (.waitDma2 cc0_scratch2.sem bV (stWin L 33) (Memref.isWhole_whole _).wordExact (View.wordExact_bits rfl))
  Prog.lift (.waitDma2 cc0_scratch2.sem bV (stWin L 34) (Memref.isWhole_whole _).wordExact (View.wordExact_bits rfl))
  Prog.lift (.waitDma2 cc0_scratch2.sem bV (stWin L 35) (Memref.isWhole_whole _).wordExact (View.wordExact_bits rfl))
  Prog.lift (.waitDma2 cc0_scratch2.sem bV (stWin L 36) (Memref.isWhole_whole _).wordExact (View.wordExact_bits rfl))
  Prog.lift (.waitDma2 cc0_scratch2.sem bV (stWin L 37) (Memref.isWhole_whole _).wordExact (View.wordExact_bits rfl))
  Prog.lift (.waitDma2 cc0_scratch2.sem bV (stWin L 38) (Memref.isWhole_whole _).wordExact (View.wordExact_bits rfl))
  Prog.lift (.waitDma2 cc0_scratch2.sem bV (stWin L 39) (Memref.isWhole_whole _).wordExact (View.wordExact_bits rfl))
  pure ⟨⟩

set_option maxRecDepth 65536 in
theorem bcast_eq_task (L : grid0.Coords) :
    cc0_bcast (F := F) L fV (Memref.isWhole_whole _) oV (Memref.isWhole_whole _) bV (Memref.isWhole_whole _) shV (Memref.isWhole_whole _)
        cc0_scratch2 cc0_scratch3 cc0_scoped0 cc0_scoped1 cc0_scoped2
      = taskProg (F := F) L := rfl

/-! ## The arrays as the subcore's memrefs address them -/

theorem pts_fl (q : PosShare TreeShare) (f : Buf (Elt F) (flLoc d)) :
    ((fV).view.loc (thrV d L) ↦{q} f : sProp 𝕄) = flLoc d ↦{q} f := rfl
theorem pts_b (f : Buf (Elt F) (bLoc d L)) :
    ((bV).view.loc (thrV d L) ↦{fullShare} f : sProp 𝕄) = bLoc d L ↦{fullShare} f := rfl
theorem pts_shRow (f : Buf (Elt F) (shLoc d (cV L))) :
    ((shRowK L).view.loc (thrV d L) ↦[(shRowK L).view.set]{fullShare} f : sProp 𝕄) = shLoc d (cV L) ↦[shRows (jL L)]{fullShare} f := by
  rw [set_shRowK]; rfl
theorem pts_shw (q : PosShare TreeShare) (f : Buf (Elt F) (shLoc d (cV L))) :
    ((shV).view.loc (thrV d L) ↦{q} f : sProp 𝕄) = shLoc d (cV L) ↦{q} f := rfl

/-! ## The task -/

variable [FloatOps F] [∀ e, Nonempty (Elt F e)]

set_option maxHeartbeats 8000000 in
set_option maxRecDepth 65536 in
theorem tile_body (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι)
    (_planD : Transfers.BatchOf (thrV d L) (SemLoc.dma (sig := sig) cc0_scratch3.sem) 3 (windows := true))
    (_planS : Transfers.BatchOf (thrV d L) (SemLoc.dma (sig := sig) cc0_scratch2.sem) 40 (windows := true)) :
    iprop(levAts (K (F := F)).L (K (F := F)).lev ∗ bkit fl d (cV L) (jV L)
        ∗ (flTok fl d (qT (cL L) (jL L)) ∗ (oLoc d ↦[stRows (cL L) (jL L)]{fullShare} m (oLoc d)) ∗ (oLoc d ↦[dmRows (cL L) (jL L)]{fullShare} m (oLoc d))
            ∗ ∃ f, shLoc d (cV L) ↦[shRows (jL L)]{fullShare} f)
        ∗ scopedBufs (thrV d L) ∗ scopedSems0 (thrV d L) ∗ owes (thrV d L) (O + oxV d (cV L)) W)
      ⊢ wp frame (wpE (defs₀ (F := F)) 𝒱₀ (thrV d L) none) Set.univ (taskProg (F := F) L)
          fun _ => iprop((flTok fl d (qT (cL L) (jL L)) ∗ (oLoc d ↦[stRows (cL L) (jL L)]{fullShare} tgt fl d) ∗ (oLoc d ↦[dmRows (cL L) (jL L)]{fullShare} tgt fl d)
              ∗ (shLoc d (cV L) ↦{Transfers.shareTok fullShare 16 (jL L)} shFin fl d (cV L))
              ∗ (shLoc d (cV L) ↦[shRows (jL L)]{Transfers.shareDrop fullShare 16} shFin fl d (cV L)))
            ∗ scopedBufs (thrV d L) ∗ scopedSems0 (thrV d L)
            ∗ ∃ W', ⌜∀ p ∈ W', p ∈ W ∨ p.2 = none ∨ p.2 = some (0 : Fin 1)⌝ ∗ owes (thrV d L) O W') := by
  unfold taskProg
  rw [(K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, Htoks, #Hrch, Hat, Hcred⟩, ⟨Hfl, Hst, Hdm, %fsh, Hsh⟩, ⟨⟨%fb, Hb⟩, Hbufs⟩, ⟨Hs6, Hs7, HsA, HsB, HsC, Hsems⟩, HO⟩
  -- the waits' evidence: at index `none`, under either debt
  have hO' : ∀ g, (O + oxV d (cV L)) g none = 0 := fun g => by rw [Pi.add_apply, Finsupp.add_apply, hO g, oxV_none]
  ihave Hmw1 := (show levAts (K (F := F)).L (K (F := F)).lev ⊢ Transfers.MayWaits (thrV d L) (default : HIx 1) (O + oxV d (cV L)) from
    (K (F := F)).mayWaits_none (thr := thrV d L) hO') $$ Hlv
  ihave Hmw2 := (show levAts (K (F := F)).L (K (F := F)).lev ⊢ Transfers.MayWaits (thrV d L) (default : HIx 1) O from
    (K (F := F)).mayWaits_none (thr := thrV d L) hO) $$ Hlv
  ihave Hfl' := (Entails.of_eq (pts_fl (F := F) d L _ _).symm) $$ Hfl
  ihave Hb' := (Entails.of_eq (pts_b (F := F) d L _).symm) $$ Hb
  ihave Hsh' := (Entails.of_eq (pts_shRow (F := F) d L _).symm) $$ Hsh
  -- the flattened table into both rows of the buffer and into the subcore's row of the scratch, each waited for
  sl_exec
  -- the row published: sixteen read tokens, the remainder kept
  have hp0 : (tile_body.sl.dma0 fl d : S12800.Idx → Elt F .f32) = fl d := rfl
  ihave Hsh2 := (Entails.of_eq (sh_landed fl d L _ _ hp0)) $$ Hsh'
  ihave Hp := (pays_intro fl d L) $$ Hsh2
  icases Hp with ⟨Hkeep, Hpays⟩
  iapply (SparseCore.wp_subcoreBarrier 𝒱₀ none EB (barRd (F := F) fl) d (sc := cV L) (i := jV L) sc_bar0 (grid0.bound 1) hsub0 (L 1) rfl κ (fun _ => 0) (jV L).val
      (fun j => barRd_mem₀ fl d _ _ _) (fun _ => rfl) (barRd_expect fl d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := thrV d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  -- received: token `L 1` of the whole scratch
  ihave Hshw := (pays_elim fl d L) $$ Hgot
  ihave Hshw' := (Entails.of_eq (pts_shw (F := F) d L _ _).symm) $$ Hshw
  -- the rows to fill, window by window
  ihave Hst' := (Entails.of_eq (st_open (F := F) d L _)) $$ Hst
  icases Hst' with ⟨Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Ht27, Ht28, Ht29, Ht30, Ht31, Ht32, Ht33, Ht34, Ht35, Ht36, Ht37, Ht38, Ht39⟩
  ihave Hdm' := (Entails.of_eq (dm_open (F := F) d L _)) $$ Hdm
  icases Hdm' with ⟨Hd0, Hd1, Hd2⟩
  -- the 43 copies started, then waited for
  sl_exec
  sl_step
  -- every window holds the flattened table in each of its rows
  have hp3 : (tile_body.sl.dma3 fl d L fb : S2x12800.Idx → Elt F .f32) = rowsOf (n := 2) (fl d) := buf_two_rows (fl d) fb
  have hp1 : (tile_body.sl.dma0_1 fl d L : S16x12800.Idx → Elt F .f32) = rowsOf (n := 16) (fl d) := rfl
  ihave Ht0 := (Entails.of_eq (st_landed fl d L 0 _ _ hp3)) $$ Ht0
  ihave Ht1 := (Entails.of_eq (st_landed fl d L 1 _ _ hp3)) $$ Ht1
  ihave Ht2 := (Entails.of_eq (st_landed fl d L 2 _ _ hp3)) $$ Ht2
  ihave Ht3 := (Entails.of_eq (st_landed fl d L 3 _ _ hp3)) $$ Ht3
  ihave Ht4 := (Entails.of_eq (st_landed fl d L 4 _ _ hp3)) $$ Ht4
  ihave Ht5 := (Entails.of_eq (st_landed fl d L 5 _ _ hp3)) $$ Ht5
  ihave Ht6 := (Entails.of_eq (st_landed fl d L 6 _ _ hp3)) $$ Ht6
  ihave Ht7 := (Entails.of_eq (st_landed fl d L 7 _ _ hp3)) $$ Ht7
  ihave Ht8 := (Entails.of_eq (st_landed fl d L 8 _ _ hp3)) $$ Ht8
  ihave Ht9 := (Entails.of_eq (st_landed fl d L 9 _ _ hp3)) $$ Ht9
  ihave Ht10 := (Entails.of_eq (st_landed fl d L 10 _ _ hp3)) $$ Ht10
  ihave Ht11 := (Entails.of_eq (st_landed fl d L 11 _ _ hp3)) $$ Ht11
  ihave Ht12 := (Entails.of_eq (st_landed fl d L 12 _ _ hp3)) $$ Ht12
  ihave Ht13 := (Entails.of_eq (st_landed fl d L 13 _ _ hp3)) $$ Ht13
  ihave Ht14 := (Entails.of_eq (st_landed fl d L 14 _ _ hp3)) $$ Ht14
  ihave Ht15 := (Entails.of_eq (st_landed fl d L 15 _ _ hp3)) $$ Ht15
  ihave Ht16 := (Entails.of_eq (st_landed fl d L 16 _ _ hp3)) $$ Ht16
  ihave Ht17 := (Entails.of_eq (st_landed fl d L 17 _ _ hp3)) $$ Ht17
  ihave Ht18 := (Entails.of_eq (st_landed fl d L 18 _ _ hp3)) $$ Ht18
  ihave Ht19 := (Entails.of_eq (st_landed fl d L 19 _ _ hp3)) $$ Ht19
  ihave Ht20 := (Entails.of_eq (st_landed fl d L 20 _ _ hp3)) $$ Ht20
  ihave Ht21 := (Entails.of_eq (st_landed fl d L 21 _ _ hp3)) $$ Ht21
  ihave Ht22 := (Entails.of_eq (st_landed fl d L 22 _ _ hp3)) $$ Ht22
  ihave Ht23 := (Entails.of_eq (st_landed fl d L 23 _ _ hp3)) $$ Ht23
  ihave Ht24 := (Entails.of_eq (st_landed fl d L 24 _ _ hp3)) $$ Ht24
  ihave Ht25 := (Entails.of_eq (st_landed fl d L 25 _ _ hp3)) $$ Ht25
  ihave Ht26 := (Entails.of_eq (st_landed fl d L 26 _ _ hp3)) $$ Ht26
  ihave Ht27 := (Entails.of_eq (st_landed fl d L 27 _ _ hp3)) $$ Ht27
  ihave Ht28 := (Entails.of_eq (st_landed fl d L 28 _ _ hp3)) $$ Ht28
  ihave Ht29 := (Entails.of_eq (st_landed fl d L 29 _ _ hp3)) $$ Ht29
  ihave Ht30 := (Entails.of_eq (st_landed fl d L 30 _ _ hp3)) $$ Ht30
  ihave Ht31 := (Entails.of_eq (st_landed fl d L 31 _ _ hp3)) $$ Ht31
  ihave Ht32 := (Entails.of_eq (st_landed fl d L 32 _ _ hp3)) $$ Ht32
  ihave Ht33 := (Entails.of_eq (st_landed fl d L 33 _ _ hp3)) $$ Ht33
  ihave Ht34 := (Entails.of_eq (st_landed fl d L 34 _ _ hp3)) $$ Ht34
  ihave Ht35 := (Entails.of_eq (st_landed fl d L 35 _ _ hp3)) $$ Ht35
  ihave Ht36 := (Entails.of_eq (st_landed fl d L 36 _ _ hp3)) $$ Ht36
  ihave Ht37 := (Entails.of_eq (st_landed fl d L 37 _ _ hp3)) $$ Ht37
  ihave Ht38 := (Entails.of_eq (st_landed fl d L 38 _ _ hp3)) $$ Ht38
  ihave Ht39 := (Entails.of_eq (st_landed fl d L 39 _ _ hp3)) $$ Ht39
  ihave Hd0 := (Entails.of_eq (dm_landed fl d L 0 _ _ hp1)) $$ Hd0
  ihave Hd1 := (Entails.of_eq (dm_landed fl d L 1 _ _ hp1)) $$ Hd1
  ihave Hd2 := (Entails.of_eq (dm_landed fl d L 2 _ _ hp1)) $$ Hd2
  isplitl [Hfl' Ht0 Ht1 Ht2 Ht3 Ht4 Ht5 Ht6 Ht7 Ht8 Ht9 Ht10 Ht11 Ht12 Ht13 Ht14 Ht15 Ht16 Ht17 Ht18 Ht19 Ht20 Ht21 Ht22 Ht23 Ht24 Ht25 Ht26 Ht27 Ht28 Ht29 Ht30 Ht31 Ht32 Ht33 Ht34 Ht35 Ht36 Ht37 Ht38 Ht39 Hd0 Hd1 Hd2 Hshw' Hkeep]
  · isplitl [Hfl']; · iapply (Entails.of_eq (pts_fl (F := F) d L _ _)); iexact Hfl'
    isplitl [Ht0 Ht1 Ht2 Ht3 Ht4 Ht5 Ht6 Ht7 Ht8 Ht9 Ht10 Ht11 Ht12 Ht13 Ht14 Ht15 Ht16 Ht17 Ht18 Ht19 Ht20 Ht21 Ht22 Ht23 Ht24 Ht25 Ht26 Ht27 Ht28 Ht29 Ht30 Ht31 Ht32 Ht33 Ht34 Ht35 Ht36 Ht37 Ht38 Ht39]
    · iapply (Entails.of_eq (st_open (F := F) d L (tgt fl d)).symm)
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      isplitl [Ht7]; · iexact Ht7
      isplitl [Ht8]; · iexact Ht8
      isplitl [Ht9]; · iexact Ht9
      isplitl [Ht10]; · iexact Ht10
      isplitl [Ht11]; · iexact Ht11
      isplitl [Ht12]; · iexact Ht12
      isplitl [Ht13]; · iexact Ht13
      isplitl [Ht14]; · iexact Ht14
      isplitl [Ht15]; · iexact Ht15
      isplitl [Ht16]; · iexact Ht16
      isplitl [Ht17]; · iexact Ht17
      isplitl [Ht18]; · iexact Ht18
      isplitl [Ht19]; · iexact Ht19
      isplitl [Ht20]; · iexact Ht20
      isplitl [Ht21]; · iexact Ht21
      isplitl [Ht22]; · iexact Ht22
      isplitl [Ht23]; · iexact Ht23
      isplitl [Ht24]; · iexact Ht24
      isplitl [Ht25]; · iexact Ht25
      isplitl [Ht26]; · iexact Ht26
      isplitl [Ht27]; · iexact Ht27
      isplitl [Ht28]; · iexact Ht28
      isplitl [Ht29]; · iexact Ht29
      isplitl [Ht30]; · iexact Ht30
      isplitl [Ht31]; · iexact Ht31
      isplitl [Ht32]; · iexact Ht32
      isplitl [Ht33]; · iexact Ht33
      isplitl [Ht34]; · iexact Ht34
      isplitl [Ht35]; · iexact Ht35
      isplitl [Ht36]; · iexact Ht36
      isplitl [Ht37]; · iexact Ht37
      isplitl [Ht38]; · iexact Ht38
      iexact Ht39
    isplitl [Hd0 Hd1 Hd2]
    · iapply (Entails.of_eq (dm_open (F := F) d L (tgt fl d)).symm)
      isplitl [Hd0]; · iexact Hd0
      isplitl [Hd1]; · iexact Hd1
      iexact Hd2
    isplitl [Hshw']; · iapply (Entails.of_eq (pts_shw (F := F) d L _ _)); iexact Hshw'
    iexact Hkeep
  isplitl [Hb' Hbufs]
  · isplitl [Hb']; · iexists _; iapply (Entails.of_eq (pts_b (F := F) d L _)); iexact Hb'
    iexact Hbufs
  isplitl [Hs6 Hs7 HsA HsB HsC Hsems]
  · isplitl [Hs6]; · iexact Hs6
    isplitl [Hs7]; · iexact Hs7
    isplitl [HsA]; · iexact HsA
    isplitl [HsB]; · iexact HsB
    isplitl [HsC]; · iexact HsC
    iexact Hsems
  iexists _; isplitr
  swap; · iexact HO
  ipureintro; intro p hp
  repeat (rcases Finset.mem_insert.mp hp with hp | hp; · first | exact .inr (.inl (hp ▸ rfl)) | exact .inr (.inr (hp ▸ rfl)))
  exact .inl hp

end Cert.Proof.BcastI

end
-- ==== Proof.SplitI.lean ====
/-
  How one SparseCore's operands are dealt to its sixteen subcores, and how its results are gathered from theirs.

  Going out: the SparseCore's read token of the flattened table is sixteen tokens and a remainder that stays
  behind; its 2048 rows of the output are 16 · 80 + 16 · 48 rows, each part sixteen equal consecutive chunks; the
  shared scratch, one of the sequencer's own buffers, is its sixteen rows. Coming back: the sixteen table tokens
  and the remainder are the SparseCore's token again; the chunks, now holding the flattened table in every row,
  are the 2048 rows; of the scratch each subcore returns one token of the whole and the remainder of one row, which
  together are the scratch whole.
-/
import proofs.«213620_g48704929136794_cont_8to1c4_761_22_alg».proof.Proof.PayI

noncomputable section

namespace Cert.Proof.BcastI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "fV" => (Memref.whole Cert.KernelIdeal.main_v0_scv : Memref Cert.KernelIdeal.sig Kind.scVector Space.hbm Cert.KernelIdeal.S12800 EltTy.f32)
local notation "oV" => (Memref.whole Cert.KernelIdeal.main_v1_scv : Memref Cert.KernelIdeal.sig Kind.scVector Space.hbm Cert.KernelIdeal.S4096x12800 EltTy.f32)
local notation "bV" => (Memref.whole Cert.KernelIdeal.cc0_scratch0 : Memref Cert.KernelIdeal.sig Kind.scVector Space.vmem Cert.KernelIdeal.S2x12800 EltTy.f32)
local notation "shV" => (Memref.whole Cert.KernelIdeal.cc0_scratch1 : Memref Cert.KernelIdeal.sig Kind.scVector Space.shared Cert.KernelIdeal.S16x12800 EltTy.f32)

/-! ## Ranges of rows, cut in two and in chunks -/

omit F in
/-- Holding a range of a + b rows is holding its first a rows and its last b. -/
theorem pts_split2 {F : FTy → Type} (d : Dev nD) (lo a b : ℕ) (h : lo + (a + b) ≤ 4096) (q : PosShare TreeShare) (f : Buf (Elt F) (oLoc d)) :
    (oLoc d ↦[rowsSet lo (a + b) h]{q} f : sProp (MT nD τ sig (HIx 1) (Elt F) ℕ UU ℕ))
      = iprop((oLoc d ↦[rowsSet lo a (by omega)]{q} f) ∗ oLoc d ↦[rowsSet (lo + a) b (by omega)]{q} f) := by
  have hu : rowsSet lo (a + b) h = rowsSet lo a (by omega) ∪ rowsSet (lo + a) b (by omega) := by
    ext i
    rw [Finset.mem_union, mem_rowsSet, mem_rowsSet, mem_rowsSet]
    omega
  have hd : Disjoint (rowsSet lo a (show lo + a ≤ 4096 by omega)) (rowsSet (lo + a) b (show lo + a + b ≤ 4096 by omega)) :=
    rowsSet_disjoint (Or.inl (Nat.le_refl _))
  rw [hu]
  exact BI.equiv_iff.mp ⟨(pointsTo_union hd).1, (pointsTo_union hd).2⟩

omit F in
/-- Two ways of counting one number of rows: the range is the same. -/
theorem rowsSet_len {lo n n' : ℕ} (e : n = n') (h : lo + n ≤ 4096) : rowsSet lo n h = rowsSet lo n' (e ▸ h) := by
  subst e; rfl

/-- A SparseCore's 2048 rows are its subcores' chunks: sixteen of 80 rows, then sixteen of 48. -/
theorem rows_split (d : Dev nD) (cc : Fin 2) (q : PosShare TreeShare) (f : Buf (Elt F) (oLoc d)) :
    (oLoc d ↦[coreRows cc]{q} f : sProp 𝕄)
      = iprop((bigSep Finset.univ fun i : Fin 16 => oLoc d ↦[stRows cc i]{q} f)
          ∗ bigSep Finset.univ fun i : Fin 16 => oLoc d ↦[dmRows cc i]{q} f) := by
  have h2 : coreLo cc + (16 * 80 + 16 * 48) ≤ 4096 := core_le cc
  show (oLoc d ↦[rowsSet (coreLo cc) (16 * 80 + 16 * 48) h2]{q} f : sProp 𝕄) = _
  rw [pts_split2 d (coreLo cc) (16 * 80) (16 * 48) h2 q f, pts_chunks d (coreLo cc) 80 16 (by decide) (coreSt_le cc) q f,
    pts_chunks d (coreLo cc + 16 * 80) 48 16 (by decide) (coreDm_le cc) q f]

/-! ## The read token of the flattened table -/

variable (fl : (d : Dev nD) → Buf (Elt F) (flLoc d)) (m : (ℓ : Loc nD τ sig) → Buf (Elt F) ℓ)

/-- A SparseCore's read token is its subcores' sixteen and a remainder. -/
theorem tok_split (d : Dev nD) (cc : Fin 2) :
    (flTok fl d (qC cc) : sProp 𝕄)
      = iprop((flLoc d ↦{Transfers.shareDrop (qC cc) 16} fl d) ∗ bigSep Finset.univ fun i : Fin 16 => flTok fl d (qT cc i)) :=
  BI.equiv_iff.mp ⟨(Transfers.pointsTo_toks (qC cc) 16).1, (Transfers.pointsTo_toks (qC cc) 16).2⟩

/-! ## The shared scratch -/

/-- Held whole at some contents, the scratch is its sixteen rows, each at some contents. -/
theorem sh_fwd (d : Dev nD) (sc : Fin τ.nSC) :
    (iprop(∃ f, shLoc d sc ↦{fullShare} f) : sProp 𝕄)
      ⊢ bigSep Finset.univ fun i : Fin 16 => iprop(∃ f, shLoc d sc ↦[shRows i]{fullShare} f) := by
  refine exists_elim fun f => ?_
  rw [shPts_rows d sc fullShare f]
  exact bigSep_mono fun i _ =>
    exists_intro (PROP := sProp 𝕄) (Φ := fun g : Buf (Elt F) (shLoc d sc) => (shLoc d sc ↦[shRows i]{fullShare} g : sProp 𝕄)) f

/-- One token of the whole scratch from each subcore, and from each the remainder of its own row, all at the
    flattened table in every row: the scratch whole. -/
theorem sh_bwd (d : Dev nD) (sc : Fin τ.nSC) :
    (iprop((bigSep Finset.univ fun i : Fin 16 => shLoc d sc ↦{Transfers.shareTok fullShare 16 i} shFin fl d sc)
        ∗ bigSep Finset.univ fun i : Fin 16 => shLoc d sc ↦[shRows i]{Transfers.shareDrop fullShare 16} shFin fl d sc) : sProp 𝕄)
      ⊢ iprop(∃ f, shLoc d sc ↦{fullShare} f) := by
  rw [← shPts_rows d sc (Transfers.shareDrop fullShare 16) (shFin fl d sc)]
  iintro ⟨Ht, Hd⟩
  iexists (shFin fl d sc)
  iapply (Transfers.pointsTo_toks_join fullShare 16)
  isplitl [Hd]; · iexact Hd
  iexact Ht

/-! ## Going out and coming back -/

/-- Going out: what the SparseCore holds, with the scratch, is a remainder of the table token that stays
    behind and what the sixteen subcores are handed. -/
theorem split_fwd (d : Dev nD) (cc : Fin 2) :
    (iprop(stC fl m d cc ∗ ∃ f, shLoc d (scOf cc) ↦{fullShare} f) : sProp 𝕄)
      ⊢ iprop((flLoc d ↦{Transfers.shareDrop (qC cc) 16} fl d) ∗ bigSep Finset.univ fun i : Fin 16 => goT fl m d cc i) := by
  unfold stC goT
  rw [bigSep_sep', bigSep_sep', bigSep_sep', rows_split d cc fullShare (m (oLoc d)), tok_split fl d cc]
  iintro ⟨⟨⟨Hkeep, Htoks⟩, Hst, Hdm⟩, Hsh⟩
  isplitl [Hkeep]; · iexact Hkeep
  isplitl [Htoks]; · iexact Htoks
  isplitl [Hst]; · iexact Hst
  isplitl [Hdm]; · iexact Hdm
  iapply (sh_fwd d (scOf cc)); iexact Hsh

/-- Coming back: the remainder and what the sixteen subcores return are what the SparseCore returns, and the
    scratch whole. -/
theorem split_bwd (d : Dev nD) (cc : Fin 2) :
    (iprop((flLoc d ↦{Transfers.shareDrop (qC cc) 16} fl d) ∗ bigSep Finset.univ fun i : Fin 16 => tdT fl d cc i) : sProp 𝕄)
      ⊢ iprop(dnC fl d cc ∗ ∃ f, shLoc d (scOf cc) ↦{fullShare} f) := by
  unfold dnC tdT
  rw [bigSep_sep', bigSep_sep', bigSep_sep', bigSep_sep', rows_split d cc fullShare (tgt fl d), tok_split fl d cc]
  iintro ⟨Hkeep, Htoks, Hst, Hdm, Ht, Hr⟩
  isplitl [Hkeep Htoks Hst Hdm]
  · isplitl [Hkeep Htoks]
    · isplitl [Hkeep]; · iexact Hkeep
      iexact Htoks
    isplitl [Hst]; · iexact Hst
    iexact Hdm
  iapply (sh_bwd fl d (scOf cc))
  isplitl [Ht]; · iexact Ht
  iexact Hr

/-- The split, over sixteen subcores and with whatever else the sequencer owns carried along. -/
theorem split_core (d : Dev nD) (cc : Fin 2) (R : sProp 𝕄) :
    (iprop(stC fl m d cc ∗ ((∃ f, shLoc d (scOf cc) ↦{fullShare} f) ∗ R)) : sProp 𝕄)
      ⊢ |={Set.univ}=> iprop((bigSep Finset.univ fun i : Fin 16 => goT fl m d cc i)
          ∗ ((bigSep Finset.univ fun i : Fin 16 => tdT fl d cc i)
              -∗ iprop(dnC fl d cc ∗ ((∃ f, shLoc d (scOf cc) ↦{fullShare} f) ∗ R)))) := by
  iintro ⟨Hst, Hsh, HR⟩
  ihave H := (split_fwd fl m d cc) $$ [Hst Hsh]
  · isplitl [Hst]; · iexact Hst
    iexact Hsh
  icases H with ⟨Hkeep, Hgo⟩
  imodintro
  isplitl [Hgo]; · iexact Hgo
  iintro Htd
  ihave H2 := (split_bwd fl d cc) $$ [Hkeep Htd]
  · isplitl [Hkeep]; · iexact Hkeep
    iexact Htd
  icases H2 with ⟨Hdn, Hsh⟩
  isplitl [Hdn]; · iexact Hdn
  isplitl [Hsh]; · iexact Hsh
  iexact HR

/-- The tasks of the call are the sixteen subcores. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

variable [FloatOps F]

/-- How SparseCore c's operands split into its sixteen subcores' and its results gather from theirs. -/
theorem vecSplit : (K (F := F)).VecSplit (P fl m) 0 := by
  intro d c
  show iprop(stC fl m d (Fin.cast nCore_zero c) ∗ ownBufs (S d (coreOf c))) ⊢ |={Set.univ}=> iprop(
      (bigSep Finset.univ fun i : Fin ((K (F := F)).nSub 0) => goT fl m d (Fin.cast nCore_zero c) (Fin.cast nSub_zero i))
      ∗ ((bigSep Finset.univ fun i : Fin ((K (F := F)).nSub 0) => tdT fl d (Fin.cast nCore_zero c) (Fin.cast nSub_zero i))
          -∗ iprop(dnC fl d (Fin.cast nCore_zero c) ∗ ownBufs (S d (coreOf c)))))
  rw [bigSep_tasks (F := F) (fun i => goT fl m d (Fin.cast nCore_zero c) i),
    bigSep_tasks (F := F) (fun i => tdT fl d (Fin.cast nCore_zero c) i)]
  unfold SparseCore.Cfg.ownBufs
  rw [SparseCore.bigSep_erase' (show shRef (coreOf c) ∈ ownRefs (S d (coreOf c)).2 from mem_ownRefs.mpr rfl)]
  exact split_core fl m d (Fin.cast nCore_zero c) _

end Cert.Proof.BcastI

end
-- ==== Proof.LaunchI.lean ====
/-
  The whole program: @main on the TensorCore around the one SparseCore call.

  @main flattens the table (a reshape), starts the call and waits for it, and reshapes the 4096 x 12800 result to
  4096 x 200 x 64. Through the call each SparseCore gets a read token of the flattened table and its half of the
  output's rows, and brings them back holding the flattened table in every row; the two halves are the whole output.
-/
import proofs.«213620_g48704929136794_cont_8to1c4_761_22_alg».proof.Proof.TileI
import proofs.«213620_g48704929136794_cont_8to1c4_761_22_alg».proof.Proof.SplitI

noncomputable section

namespace Cert.Proof.BcastI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "fV" => (Memref.whole Cert.KernelIdeal.main_v0_scv : Memref Cert.KernelIdeal.sig Kind.scVector Space.hbm Cert.KernelIdeal.S12800 EltTy.f32)
local notation "oV" => (Memref.whole Cert.KernelIdeal.main_v1_scv : Memref Cert.KernelIdeal.sig Kind.scVector Space.hbm Cert.KernelIdeal.S4096x12800 EltTy.f32)
local notation "bV" => (Memref.whole Cert.KernelIdeal.cc0_scratch0 : Memref Cert.KernelIdeal.sig Kind.scVector Space.vmem Cert.KernelIdeal.S2x12800 EltTy.f32)
local notation "shV" => (Memref.whole Cert.KernelIdeal.cc0_scratch1 : Memref Cert.KernelIdeal.sig Kind.scVector Space.shared Cert.KernelIdeal.S16x12800 EltTy.f32)

open Idealize.ShloMosaic.StableHlo (held held_split held_sdiff_result wp_hlo_within)

variable (fl : (d : Dev nD) → Buf (Elt F) (flLoc d)) (m : (ℓ : Loc nD τ sig) → Buf (Elt F) ℓ) (ρ : Dev nD → PrngReg)
variable [FloatOps F] [∀ e, Nonempty (Elt F e)]

/-! ## The obligation of one subcore's task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_bcast (coordsV c s)
          fV (Memref.isWhole_whole _) oV (Memref.isWhole_whole _) bV (Memref.isWhole_whole _) shV (Memref.isWhole_whole _)
          cc0_scratch2 cc0_scratch3 cc0_scoped0 cc0_scoped1 cc0_scoped2) ⟨⟩ c s := rfl

set_option maxRecDepth 16384 in
theorem tileObl (hF : (K (F := F)).Facts) : (K (F := F)).TileObl (D (F := F)) 𝒱 (P fl m) v₀ 0 := by
  intro d c i O W hO hOlev _
  have hc : ((K (F := F)).core 0 c).val < 2 := c.isLt
  have hci : ((K (F := F)).core 0 c).val < grid0.bound 0 ∧ ((K (F := F)).sub 0 i).val < grid0.bound 1 := ⟨c.isLt, i.isLt⟩
  rw [show (P fl m).ox 0 (V d ((K (F := F)).core 0 c) ((K (F := F)).sub 0 i)) = oxV d ((K (F := F)).core 0 c) from if_pos hc,
    show (P fl m).x 0 (V d ((K (F := F)).core 0 c) ((K (F := F)).sub 0 i)) = bkit fl d ((K (F := F)).core 0 c) ((K (F := F)).sub 0 i) from if_pos hc]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [bcast_eq_task]
  exact tile_body fl m d (coordsV ⟨_, hci.1⟩ ⟨_, hci.2⟩) hF O W hO hOlev trivial trivial

end Cert.Proof.BcastI

end
-- ==== Proof.MainI.lean ====
/-
  @main on the TensorCore: flatten the table, make the one SparseCore call, reshape its result.

  The flattened table goes to the call as two read tokens (one per SparseCore; the remainder stays with the
  TensorCore) and the output as its two halves of 2048 rows; both come back, the output holding the flattened table in
  every row, and the last reshape reads that as the 4096 x 200 x 64 result. The arguments are never written.
-/
import proofs.«213620_g48704929136794_cont_8to1c4_761_22_alg».proof.Proof.PayI
import Idealize.ShloMosaic.Lib.StableHlo.Run

noncomputable section

namespace Cert.Proof.BcastI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "fV" => (Memref.whole Cert.KernelIdeal.main_v0_scv : Memref Cert.KernelIdeal.sig Kind.scVector Space.hbm Cert.KernelIdeal.S12800 EltTy.f32)
local notation "oV" => (Memref.whole Cert.KernelIdeal.main_v1_scv : Memref Cert.KernelIdeal.sig Kind.scVector Space.hbm Cert.KernelIdeal.S4096x12800 EltTy.f32)
local notation "bV" => (Memref.whole Cert.KernelIdeal.cc0_scratch0 : Memref Cert.KernelIdeal.sig Kind.scVector Space.vmem Cert.KernelIdeal.S2x12800 EltTy.f32)
local notation "shV" => (Memref.whole Cert.KernelIdeal.cc0_scratch1 : Memref Cert.KernelIdeal.sig Kind.scVector Space.shared Cert.KernelIdeal.S16x12800 EltTy.f32)

open Idealize.ShloMosaic.StableHlo (held held_split held_sdiff_result wp_hlo_within)

variable (m : (ℓ : Loc nD τ sig) → Buf (Elt F) ℓ) (ρ : Dev nD → PrngReg)

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev a0Loc (d : Dev nD) : Loc nD τ sig := (SparseCore.T d).loc main_arg0
abbrev a1Loc (d : Dev nD) : Loc nD τ sig := (SparseCore.T d).loc main_arg1
abbrev v2Loc (d : Dev nD) : Loc nD τ sig := (SparseCore.T d).loc main_v2

/-- The TensorCore's arrays, all unscoped. -/
abbrev S5 : Finset (DevRef τ sig) := {a0', a1', v0', v1', v2'}

variable [FloatOps F]

abbrev opFlat : HloOp τ sig (Elt F) := StableHlo.reshape main_arg1 main_v0 rfl shapeCasts_S200x64_S12800
abbrev opOut : HloOp τ sig (Elt F) := StableHlo.reshape main_v1 main_v2 rfl shapeCasts_S4096x12800_S4096x200x64

/-- The launch valuation; the flattened table as the first reshape leaves it; the valuation once the call has
    filled the output; the result as the last reshape leaves it. -/
def V0 (d : Dev nD) : Valuation τ sig (Elt F) := fun b => m (d, b)
abbrev Vf (d : Dev nD) : Valuation τ sig (Elt F) := (opFlat (F := F)).result (V0 m d)
def flOf (d : Dev nD) : Buf (Elt F) (flLoc d) := Vf m d v0'
def V1 (d : Dev nD) : Valuation τ sig (Elt F) := Function.update (Vf m d) v1' (tgt (flOf m) d)
abbrev V2 (d : Dev nD) : Valuation τ sig (Elt F) := (opOut (F := F)).result (V1 m d)
def outOf (d : Dev nD) : Buf (Elt F) (v2Loc d) := V2 m d v2'

omit [FloatOps F] in
theorem held_S5 (d : Dev nD) (W : Valuation τ sig (Elt F)) :
    (held (T d) S5 W : sProp 𝕄) = iprop((a0Loc d ↦{fullShare} W a0') ∗ (a1Loc d ↦{fullShare} W a1') ∗ (flLoc d ↦{fullShare} W v0')
      ∗ (oLoc d ↦{fullShare} W v1') ∗ v2Loc d ↦{fullShare} W v2') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (flLoc d ↦{fullShare} W main_v0)
      ∗ (oLoc d ↦{fullShare} W main_v1) ∗ v2Loc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

theorem unscoped_held (d : Dev nD) : (unscopedBufs d (fun b => m ((SparseCore.T d).loc b)) : sProp 𝕄) = held (T d) S5 (V0 m d) := by
  rw [unscopedBufs_eq, held_S5]; rfl

theorem hFlat : (opFlat (F := F)).bufs ⊆ S5 := show ({a1', v0'} : Finset (DevRef τ sig)) ⊆ S5 by decide
theorem hOut : (opOut (F := F)).bufs ⊆ S5 := show ({v1', v2'} : Finset (DevRef τ sig)) ⊆ S5 by decide

/-- The first reshape writes the flattened table only. -/
theorem Vf_a0 (d : Dev nD) : Vf m d a0' = m (a0Loc d) :=
  (opFlat (F := F)).result_of_not_mem (V0 m d) (b := a0') (show a0' ∉ ({v0'} : Finset (DevRef τ sig)) by decide)
theorem Vf_a1 (d : Dev nD) : Vf m d a1' = m (a1Loc d) :=
  (opFlat (F := F)).result_of_not_mem (V0 m d) (b := a1') (show a1' ∉ ({v0'} : Finset (DevRef τ sig)) by decide)
theorem Vf_v1 (d : Dev nD) : Vf m d v1' = m (oLoc d) :=
  (opFlat (F := F)).result_of_not_mem (V0 m d) (b := v1') (show v1' ∉ ({v0'} : Finset (DevRef τ sig)) by decide)
theorem V1_a0 (d : Dev nD) : V1 m d a0' = m (a0Loc d) := (Function.update_of_ne (show a0' ≠ v1' by decide) _ _).trans (Vf_a0 m d)
theorem V1_a1 (d : Dev nD) : V1 m d a1' = m (a1Loc d) := (Function.update_of_ne (show a1' ≠ v1' by decide) _ _).trans (Vf_a1 m d)
theorem V1_v0 (d : Dev nD) : V1 m d v0' = flOf m d := Function.update_of_ne (show v0' ≠ v1' by decide) _ _
theorem V1_v1 (d : Dev nD) : V1 m d v1' = tgt (flOf m) d := Function.update_self _ _ _
theorem V1_v2 (d : Dev nD) : V1 m d v2' = Vf m d v2' := Function.update_of_ne (show v2' ≠ v1' by decide) _ _
/-- The last reshape writes the result only. -/
theorem V2_a0 (d : Dev nD) : V2 m d a0' = m (a0Loc d) :=
  ((opOut (F := F)).result_of_not_mem (V1 m d) (b := a0') (show a0' ∉ ({v2'} : Finset (DevRef τ sig)) by decide)).trans (V1_a0 m d)
theorem V2_a1 (d : Dev nD) : V2 m d a1' = m (a1Loc d) :=
  ((opOut (F := F)).result_of_not_mem (V1 m d) (b := a1') (show a1' ∉ ({v2'} : Finset (DevRef τ sig)) by decide)).trans (V1_a1 m d)

/-! ## What the call takes for the two SparseCores, and what it hands back -/

theorem univ2 : (Finset.univ : Finset (Fin 2)) = {0, 1} := by decide

theorem st0_eq (d : Dev nD) :
    (bigSep Finset.univ fun c : Fin ((K (F := F)).nCore 0) => (P (flOf m) m).st 0 d c) = iprop(stC (flOf m) m d 0 ∗ stC (flOf m) m d 1) := by
  show (bigSep (Finset.univ : Finset (Fin 2)) fun c => stC (flOf m) m d c) = _
  rw [univ2, SparseCore.bigSep_insert' (by decide), bigSep_singleton]
theorem dn0_eq (d : Dev nD) :
    (bigSep Finset.univ fun c : Fin ((K (F := F)).nCore 0) => (P (flOf m) m).dn 0 d c) = iprop(dnC (flOf m) d 0 ∗ dnC (flOf m) d 1) := by
  show (bigSep (Finset.univ : Finset (Fin 2)) fun c => dnC (flOf m) d c) = _
  rw [univ2, SparseCore.bigSep_insert' (by decide), bigSep_singleton]

omit [FloatOps F] in
/-- The whole output is the two SparseCores' halves, at any contents. -/
theorem out_halves (d : Dev nD) (f : Buf (Elt F) (oLoc d)) :
    (oLoc d ↦{fullShare} f : sProp 𝕄) = iprop((oLoc d ↦[coreRows 0]{fullShare} f) ∗ oLoc d ↦[coreRows 1]{fullShare} f) := by
  have h := pts_chunks (F := F) d 0 2048 2 (by decide) whole_le fullShare f
  rw [univ2, SparseCore.bigSep_insert' (by decide), bigSep_singleton] at h
  rw [← h]
  exact congrArg (fun S => (oLoc d ↦[S]{fullShare} f : sProp 𝕄)) rowsSet_univ.symm

omit [FloatOps F] in
/-- The flattened table whole is the two SparseCores' read tokens and a remainder. -/
theorem fl_toks (d : Dev nD) (f : Buf (Elt F) (flLoc d)) :
    (flLoc d ↦{fullShare} f : sProp 𝕄) ⊣⊢ iprop((flLoc d ↦{Transfers.shareDrop fullShare 2} f) ∗ (flLoc d ↦{qC 0} f) ∗ flLoc d ↦{qC 1} f) := by
  have h := Transfers.pointsTo_toks (ℓ := flLoc d) (S := Finset.univ) (f := f) (Ix := HIx 1) (Name := ℕ) (U := UU) (Lvl := ℕ) fullShare 2
  rw [univ2, SparseCore.bigSep_insert' (by decide), bigSep_singleton] at h
  exact h

/-- What @main leaves the claim: the arguments at their launch contents, the result at what the last reshape made. -/
abbrev FIN (d : Dev nD) : sProp 𝕄 := iprop((a0Loc d ↦{fullShare} m (a0Loc d)) ∗ (a1Loc d ↦{fullShare} m (a1Loc d)) ∗ v2Loc d ↦{fullShare} outOf m d)

theorem hmain (κ : GSem nD τ sig → ℕ) (d : Dev nD) :
    iprop((K (F := F)).ctx EH (P (flOf m) m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the table flattened
  iapply (wp_hlo_within 𝒱 (SparseCore.T d) none Set.univ (op := opFlat) (S := S5) hFlat (V := V0 m d)) $$ [Hb Hheld]
  · isplitl [Hb]; · iexact Hb
    iexact Hheld
  iintro ⟨Hb, Hheld⟩
  ihave Hh := (Entails.of_eq (held_S5 (F := F) d _)) $$ Hheld
  icases Hh with ⟨Ha0, Ha1, Hfl, Ho, Hv2⟩
  rw [wp_ret]; imodintro
  -- the call: each SparseCore a read token of the flattened table and its half of the output
  ihave Hfl' := (fl_toks (F := F) d _).1 $$ Hfl
  icases Hfl' with ⟨Hflk, Hfl0, Hfl1⟩
  ihave Ho' := (Entails.of_eq ((congrArg (fun f => (oLoc d ↦{fullShare} f : sProp 𝕄)) (Vf_v1 m d)).trans (out_halves (F := F) d _))) $$ Ho
  icases Ho' with ⟨Ho0, Ho1⟩
  iapply ((K (F := F)).wp_run (D (F := F)) 𝒱 (EH := EH) (P := P (flOf m) m) κ d 0) $$ [Hst Hfl0 Hfl1 Ho0 Ho1 Hb Ha0 Ha1 Hv2 Hflk]
  isplitr; · iexact Hctx
  isplitl [Hst]; · iexact Hst
  isplitl [Hfl0 Hfl1 Ho0 Ho1]
  · rw [st0_eq]; unfold stC flTok
    isplitl [Hfl0 Ho0]
    · isplitl [Hfl0]; · iexact Hfl0
      iexact Ho0
    · isplitl [Hfl1]; · iexact Hfl1
      iexact Ho1
  iintro ⟨Hst, Hdn⟩
  ihave Hdn' := (Entails.of_eq (dn0_eq m d)) $$ Hdn
  unfold dnC flTok
  icases Hdn' with ⟨⟨Hfl0, Ho0⟩, Hfl1, Ho1⟩
  ihave Hfl := (fl_toks (F := F) d _).2 $$ [Hflk Hfl0 Hfl1]
  · isplitl [Hflk]; · iexact Hflk
    isplitl [Hfl0]; · iexact Hfl0
    iexact Hfl1
  ihave Ho := (Entails.of_eq (out_halves (F := F) d (tgt (flOf m) d)).symm) $$ [Ho0 Ho1]
  · isplitl [Ho0]; · iexact Ho0
    iexact Ho1
  -- the result reshaped
  iapply (wp_hlo_within 𝒱 (SparseCore.T d) none Set.univ (op := opOut) (S := S5) hOut (V := V1 m d)) $$ [Hb Ha0 Ha1 Hfl Ho Hv2]
  · isplitl [Hb]; · iexact Hb
    rw [held_S5, V1_a0, V1_a1, V1_v0, V1_v1, V1_v2, ← Vf_a0 m d, ← Vf_a1 m d]
    isplitl [Ha0]; · iexact Ha0
    isplitl [Ha1]; · iexact Ha1
    isplitl [Hfl]; · iexact Hfl
    isplitl [Ho]; · iexact Ho
    iexact Hv2
  iintro ⟨Hb, Hheld⟩
  ihave Hh := (Entails.of_eq (held_S5 (F := F) d _)) $$ Hheld
  icases Hh with ⟨Ha0, Ha1, -, -, Hv2⟩
  rw [wp_ret]; imodintro; imodintro
  isplitl [Hst]; · iexact Hst
  isplitl [Ha0]; · iapply (Entails.of_eq (congrArg (fun f => (a0Loc d ↦{fullShare} f : sProp 𝕄)) (V2_a0 m d))); iexact Ha0
  isplitl [Ha1]; · iapply (Entails.of_eq (congrArg (fun f => (a1Loc d ↦{fullShare} f : sProp 𝕄)) (V2_a1 m d))); iexact Ha1
  iexact Hv2

def fq (d : Dev nD) (s' : Phys nD τ sig (Elt F)) : Prop :=
  s'.mem.mem (v2Loc d) = outOf m d ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨Ha0, Ha1, Hv2⟩, HSI⟩
  icombine HSI Ha0 gives %h0
  icombine HSI Ha1 gives %h1
  icombine HSI Hv2 gives %h2
  ipureintro
  exact ⟨funext fun i => h2 i (Finset.mem_univ i), funext fun i => h0 i (Finset.mem_univ i), funext fun i => h1 i (Finset.mem_univ i)⟩

/-- What the program's run ends in, on every device. -/
def QC : PUnit × MemSt nD τ sig (Elt F) → Prop := fun r => ∀ c : Dev nD,
  r.2.mem (v2Loc c) = outOf m c ∧ r.2.mem (a0Loc c) = m (a0Loc c) ∧ r.2.mem (a1Loc c) = m (a1Loc c)

end Cert.Proof.BcastI

end
-- ==== Proof.ElemI.lean ====
/-
  The launch element of the ghost state: what the program starts from.

  Beside the handshakes' rounds, the ghost state holds one round on every subcore's barrier semaphore, with a
  unit duty per subcore of the same SparseCore, named by its number. From that element, the barrier semaphores
  at zero and the credit for every unit the subcores will signal on them, each subcore is dealt what it needs at
  the barrier: the invariants of its SparseCore's sixteen barrier cells (allocated here, once, for all), its own
  duty's token in each of the sixteen rounds, that each round is reached, its position at the start of its own
  cell's round, and the credit for the sixteen units it will wait for.
-/
import proofs.«213620_g48704929136794_cont_8to1c4_761_22_alg».proof.Proof.PayI

noncomputable section

namespace Cert.Proof.BcastI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "fV" => (Memref.whole Cert.KernelIdeal.main_v0_scv : Memref Cert.KernelIdeal.sig Kind.scVector Space.hbm Cert.KernelIdeal.S12800 EltTy.f32)
local notation "oV" => (Memref.whole Cert.KernelIdeal.main_v1_scv : Memref Cert.KernelIdeal.sig Kind.scVector Space.hbm Cert.KernelIdeal.S4096x12800 EltTy.f32)
local notation "bV" => (Memref.whole Cert.KernelIdeal.cc0_scratch0 : Memref Cert.KernelIdeal.sig Kind.scVector Space.vmem Cert.KernelIdeal.S2x12800 EltTy.f32)
local notation "shV" => (Memref.whole Cert.KernelIdeal.cc0_scratch1 : Memref Cert.KernelIdeal.sig Kind.scVector Space.shared Cert.KernelIdeal.S16x12800 EltTy.f32)

/-! ## The barrier cells, their duties' tokens, and the element -/

/-- A device, a SparseCore of it, a subcore of that. -/
abbrev I3 : Type := Dev nD × Fin τ.nSC × Fin τ.nSub

/-- Every subcore's barrier cell. -/
def barCells : Finset (GSem nD τ sig) := Finset.univ.image fun x : I3 => bcell x.1 x.2.1 x.2.2

/-- For every subcore (d, c, i) and every cell j of its SparseCore: duty i of round 0 of cell j. -/
def barToks : Finset (GSem nD τ sig × ℕ × ℕ) :=
  Finset.univ.image fun x : I3 × Fin τ.nSub => (bcell x.1.1 x.1.2.1 x.2, 0, x.1.2.2.val)

/-- The element: the handshakes' rounds, the barrier cells' rounds, no transfer counted. -/
def u₀ : UU := (initOf (K (F := F)).hsCells (K (F := F)).hsToks, (launchOf barCells ∅ barToks, 1))

theorem bcell_inj : Function.Injective fun x : I3 => bcell x.1 x.2.1 x.2.2 := by
  intro a b e
  obtain ⟨h1, h2⟩ := Prod.mk.inj (Prod.mk.inj e).1
  obtain ⟨h3, h4⟩ := Proc.scVector.inj h2
  exact Prod.ext h1 (Prod.ext h3 h4)

theorem barTok_inj : Function.Injective fun x : I3 × Fin τ.nSub => ((bcell x.1.1 x.1.2.1 x.2, 0, x.1.2.2.val) : GSem nD τ sig × ℕ × ℕ) := by
  intro a b e
  obtain ⟨e1, e2⟩ := Prod.mk.inj e
  obtain ⟨h1, h2⟩ := Prod.mk.inj (Prod.mk.inj e1).1
  obtain ⟨h3, h4⟩ := Proc.scVector.inj h2
  have h5 : a.1.2.2 = b.1.2.2 := Fin.ext (Prod.mk.inj e2).2
  exact Prod.ext (Prod.ext h1 (Prod.ext h3 h5)) h4

/-- The element is its two halves. -/
theorem ownU_split3 (a : UH) (b : UB) :
    (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op ((b, 1) : UB × Counters))))

/-! ## The barrier semaphores at zero -/

omit F in
theorem bar_mem : (SemLoc.reg sc_bar0 : SemLoc sig) ∈ ((Finset.univ.filter fun sm : SemLoc sig => ¬sm.isScoped .scVector).erase (.reg sc_go)) := by
  decide

/-- The free semaphores of the SparseCore threads hold every barrier cell's counter at zero. -/
theorem sems_bar : ((K (F := F)).freeSems0 : sProp 𝕄) ⊢ bigSep barCells fun g => semVal g 0 := by
  unfold SparseCore.Cfg.freeSems0 barCells
  rw [SparseCore.bigSep_image_of_injOn (bcell_inj.injOn) (fun g => (semVal g 0 : sProp 𝕄))]
  refine sep_elim_right.trans (bigSep_mono fun x _ => ?_)
  unfold SparseCore.Cfg.vcSems0
  exact bigSep_elim (i := (SemLoc.reg sc_bar0 : SemLoc sig)) bar_mem

/-! ## The rounds funded, the invariants allocated -/

variable (fl : (d : Dev nD) → Buf (Elt F) (flLoc d))

/-- From the barrier cells' counters at zero and their half of the element: every cell's invariant under names
    of the update's choosing, that round 0 of each is reached, each owner's position, and every duty's token. -/
theorem fund_bar :
    (iprop((bigSep barCells fun g => (semVal g 0 : sProp 𝕄)) ∗ BI.own (EB (launchOf barCells ∅ barToks))) : sProp 𝕄)
      ⊢ iprop(|={Set.univ}=> ∃ κ : GSem nD τ sig → ℕ,
          (bigSep barCells fun g => cellInv EB (barRd (F := F) fl) (κ g) g)
          ∗ (bigSep barCells fun g => reached EB g 0) ∗ (bigSep barCells fun g => atPos EB g 0 ∅ 0)
          ∗ bigSep barToks fun x => dutyTok EB x.1 x.2.1 x.2.2) := by
  have h := fund_launch (Es := Set.univ) EB (barRd (F := F) fl) (S := barCells) (Sd := ∅) (Finset.disjoint_empty_right _)
    (fun g hg => absurd hg (Finset.notMem_empty g)) barToks
  rw [Finset.union_empty] at h
  iintro H
  imod h $$ H with ⟨%κ, -, Hinv, Hr, Hat, -, Htok⟩
  imodintro
  iexists κ
  isplitl [Hinv]; · iexact Hinv
  isplitl [Hr]; · iexact Hr
  isplitl [Hat]; · iexact Hat
  iexact Htok

/-! ## The credit, regrouped by cell -/

omit F in
theorem nsmul_tallyAt (g : GSem nD τ sig) (ι : HIx 1) (n : ℕ) :
    n • (tallyAt g ι 1 : CellTallies nD τ sig (HIx 1)) = tallyAt g ι n := by
  induction n with
  | zero => rw [zero_nsmul, tallyAt_zero]
  | succ k ih => rw [succ_nsmul, ih, tallyAt_add]

omit F in
/-- What one subcore owes for the barrier, with the cells counted as the chip counts them. -/
theorem oxV_eq (d : Dev nD) (c : Fin τ.nSC) : oxV d c = ∑ j : Fin τ.nSub, tallyAt (bcell d c j) (some 0) 1 := by
  unfold oxV
  exact Fintype.sum_equiv (finCongr (show grid0.bound 1 = τ.nSub from rfl)) _ _
    (fun j => congrArg (fun k : Fin τ.nSub => (tallyAt (bcell d c k) (some 0) 1 : CellTallies nD τ sig (HIx 1))) (Fin.ext rfl))

omit F in
/-- Sixteen subcores each owe one unit on every cell of their SparseCore: sixteen units on each cell. -/
theorem sum_oxV (d : Dev nD) (c : Fin τ.nSC) :
    (∑ _i : Fin τ.nSub, oxV d c) = ∑ j : Fin τ.nSub, tallyAt (bcell d c j) (some 0) (grid0.bound 1) := by
  rw [Finset.sum_const, Finset.card_univ, Fintype.card_fin, oxV_eq, Finset.smul_sum]
  exact Finset.sum_congr rfl fun j _ => nsmul_tallyAt _ _ _

/-- The same as credit. -/
theorem cred_row (d : Dev nD) (c : Fin τ.nSC) :
    (bigSep Finset.univ fun _i : Fin τ.nSub => (cred (oxV d c) : sProp 𝕄))
      = bigSep Finset.univ fun j : Fin τ.nSub => cred (tallyAt (bcell d c j) (some 0) (grid0.bound 1)) :=
  (SparseCore.Cfg.cred_finsum Finset.univ (fun _ : Fin τ.nSub => oxV d c)).symm.trans
    ((congrArg cred (sum_oxV d c)).trans (SparseCore.Cfg.cred_finsum Finset.univ _))

variable (m : (ℓ : Loc nD τ sig) → Buf (Elt F) ℓ) [FloatOps F]

theorem oxFrom_V (d : Dev nD) (c : Fin τ.nSC) (i : Fin τ.nSub) : (P fl m).oxFrom 0 (V d c i) = oxV d c := by
  have h := (P fl m).oxFrom_step (0 : Fin 1) (V d c i)
  rw [(P fl m).oxFrom_end (V d c i) (show 1 ≤ (0 : Fin 1).val + 1 from Nat.le_refl 1), add_zero] at h
  refine h.trans ?_
  show (if c.val < 2 then oxV d c else 0) = oxV d c
  exact if_pos c.isLt

/-- The credit of everything the subcores owe for the barrier is, per cell, the sixteen units its owner waits for. -/
theorem creds_bar :
    ((P fl m).oxCred : sProp 𝕄) ⊢ bigSep Finset.univ fun x : I3 => cred (tallyAt (bcell x.1 x.2.1 x.2.2) (some 0) (grid0.bound 1)) := by
  unfold SparseCore.Cfg.Pay.oxCred
  rw [SparseCore.Cfg.bigSep_threads (fun thr => (cred ((P fl m).oxFrom 0 thr) : sProp 𝕄))]
  refine sep_elim_right.trans (sep_elim_right.trans (Entails.of_eq ?_))
  rw [bigSep_univ_prod, bigSep_univ_prod (fun x : I3 => (cred (tallyAt (bcell x.1 x.2.1 x.2.2) (some 0) (grid0.bound 1)) : sProp 𝕄))]
  refine bigSep_congr fun d _ => ?_
  rw [bigSep_univ_prod, bigSep_univ_prod (fun y : Fin τ.nSC × Fin τ.nSub => (cred (tallyAt (bcell d y.1 y.2) (some 0) (grid0.bound 1)) : sProp 𝕄))]
  refine bigSep_congr fun c _ => ?_
  refine (bigSep_congr fun i _ => ?_).trans (cred_row d c)
  show cred ((P fl m).oxFrom 0 (V d c i)) = cred (oxV d c)
  rw [oxFrom_V]

/-! ## What every thread is dealt -/

omit F in
theorem mem_barCells (d : Dev nD) (c : Fin τ.nSC) (j : Fin τ.nSub) : bcell d c j ∈ barCells :=
  Finset.mem_image.mpr ⟨(d, c, j), Finset.mem_univ _, rfl⟩

omit [FloatOps F] in
/-- The subcores of a SparseCore, counted as the grid counts them or as the chip does. -/
theorem bigSep_subs (Φ : Fin τ.nSub → sProp 𝕄) :
    (bigSep Finset.univ fun j : Fin (grid0.bound 1) => Φ (j.castLE hsub0)) = bigSep Finset.univ Φ :=
  bigSep_congr fun _ _ => congrArg Φ (Fin.ext rfl)

omit [FloatOps F] in
theorem inv_cells (κ : GSem nD τ sig → ℕ) (d : Dev nD) (c : Fin τ.nSC) :
    (bigSep barCells fun g => cellInv EB (barRd (F := F) fl) (κ g) g : sProp 𝕄)
      ⊢ bigSep Finset.univ fun j : Fin (grid0.bound 1) =>
          cellInv EB (barRd (F := F) fl) (κ (bcell d c (j.castLE hsub0))) (bcell d c (j.castLE hsub0)) :=
  bigSep_intro_persistent fun j _ => bigSep_elim (mem_barCells d c (j.castLE hsub0))

omit [FloatOps F] in
theorem reached_cells (d : Dev nD) (c : Fin τ.nSC) :
    (bigSep barCells fun g => reached EB g 0 : sProp 𝕄) ⊢ bigSep Finset.univ fun j : Fin τ.nSub => reached EB (bcell d c j) 0 :=
  bigSep_intro_persistent fun j _ => bigSep_elim (mem_barCells d c j)

omit [FloatOps F] in
/-- One subcore's kit from the shared persistent families and its own tokens, position and credit. -/
theorem deal_one (κ : GSem nD τ sig → ℕ) (d : Dev nD) (c : Fin τ.nSC) (i : Fin τ.nSub) :
    (iprop(((bigSep barCells fun g => cellInv EB (barRd (F := F) fl) (κ g) g) ∗ bigSep barCells fun g => reached EB g 0)
        ∗ ((bigSep Finset.univ fun j : Fin τ.nSub => dutyTok EB (bcell d c j) 0 i.val)
          ∗ atPos EB (bcell d c i) 0 ∅ 0
          ∗ cred (tallyAt (bcell d c i) (some 0) (grid0.bound 1)))) : sProp 𝕄)
      ⊢ bkit fl d c i := by
  unfold bkit
  rw [bigSep_subs (fun j => dutyTok EB (bcell d c j) 0 i.val), bigSep_subs (fun j => reached EB (bcell d c j) 0)]
  iintro ⟨⟨#Hinv, #Hr⟩, Htok, Hat, Hcr⟩
  isplitr
  · iexists κ
    iapply (inv_cells fl κ d c); iexact Hinv
  isplitl [Htok]; · iexact Htok
  isplitr
  · iapply (reached_cells d c); iexact Hr
  isplitl [Hat]; · iexact Hat
  iexact Hcr

omit [FloatOps F] in
/-- Every subcore's kit. -/
theorem deal_V (κ : GSem nD τ sig → ℕ) :
    (iprop(((bigSep barCells fun g => cellInv EB (barRd (F := F) fl) (κ g) g) ∗ bigSep barCells fun g => reached EB g 0)
        ∗ bigSep Finset.univ fun x : I3 =>
            iprop((bigSep Finset.univ fun j : Fin τ.nSub => dutyTok EB (bcell x.1 x.2.1 j) 0 x.2.2.val)
              ∗ atPos EB (bcell x.1 x.2.1 x.2.2) 0 ∅ 0
              ∗ cred (tallyAt (bcell x.1 x.2.1 x.2.2) (some 0) (grid0.bound 1)))) : sProp 𝕄)
      ⊢ bigSep Finset.univ fun x : I3 => bkit fl x.1 x.2.1 x.2.2 :=
  bigSep_with_persistent fun x _ => deal_one fl κ x.1 x.2.1 x.2.2

omit [FloatOps F] in
theorem atPos_cells : (bigSep barCells fun g => (atPos EB g 0 ∅ 0 : sProp 𝕄)) = bigSep Finset.univ fun x : I3 => atPos EB (bcell x.1 x.2.1 x.2.2) 0 ∅ 0 := by
  unfold barCells
  exact SparseCore.bigSep_image_of_injOn bcell_inj.injOn _

omit [FloatOps F] in
theorem toks_cells :
    (bigSep barToks fun x => (dutyTok EB x.1 x.2.1 x.2.2 : sProp 𝕄))
      = bigSep Finset.univ fun x : I3 => bigSep Finset.univ fun j : Fin τ.nSub => dutyTok EB (bcell x.1 x.2.1 j) 0 x.2.2.val := by
  unfold barToks
  rw [SparseCore.bigSep_image_of_injOn barTok_inj.injOn, bigSep_univ_prod]

theorem Px_T (d : Dev nD) : (bigSep Finset.univ fun q : Fin 1 => (P (F := F) fl m).x q (SparseCore.T d)) = iprop(emp) :=
  bigSep_univ_of_subsingleton (0 : Fin 1)
theorem Px_S (d : Dev nD) (c : Fin τ.nSC) : (bigSep Finset.univ fun q : Fin 1 => (P (F := F) fl m).x q (S d c)) = iprop(emp) :=
  bigSep_univ_of_subsingleton (0 : Fin 1)
theorem Px_V (d : Dev nD) (c : Fin τ.nSC) (i : Fin τ.nSub) :
    (bigSep Finset.univ fun q : Fin 1 => (P (F := F) fl m).x q (V d c i)) = bkit fl d c i := by
  rw [bigSep_univ_of_subsingleton (0 : Fin 1)]
  show (if c.val < 2 then bkit fl d c i else iprop(emp)) = _
  exact if_pos c.isLt

/-- Every thread's start: nothing for the TensorCores and the sequencers, its kit for every subcore. -/
theorem deal_all (κ : GSem nD τ sig → ℕ) :
    (iprop(((bigSep barCells fun g => cellInv EB (barRd (F := F) fl) (κ g) g) ∗ bigSep barCells fun g => reached EB g 0)
        ∗ ((bigSep barCells fun g => atPos EB g 0 ∅ 0) ∗ (bigSep barToks fun x => dutyTok EB x.1 x.2.1 x.2.2)
          ∗ bigSep Finset.univ fun x : I3 => cred (tallyAt (bcell x.1 x.2.1 x.2.2) (some 0) (grid0.bound 1)))) : sProp 𝕄)
      ⊢ bigSep Finset.univ fun thr : Thread nD τ => bigSep Finset.univ fun q : Fin 1 => (P fl m).x q thr := by
  rw [SparseCore.Cfg.bigSep_threads (fun thr : Thread nD τ => bigSep Finset.univ fun q : Fin 1 => (P fl m).x q thr), atPos_cells, toks_cells]
  simp only [Px_T, Px_S, Px_V, bigSep_emp']
  refine (sep_mono_right ?_).trans ((deal_V fl κ).trans ?_)
  · rw [bigSep_sep', bigSep_sep']
    iintro ⟨Hat, Htok, Hcr⟩
    isplitl [Htok]; · iexact Htok
    isplitl [Hat]; · iexact Hat
    iexact Hcr
  · iintro H
    isplitr; · iempintro
    isplitr; · iempintro
    iexact H

/-! ## The launch element -/

/-- From the element, the credit and the free semaphores: the handshakes' rounds, and every thread's start. -/
theorem hu₀ :
    iprop(ownU (u₀ (F := F)) ∗ (P (F := F) fl m).oxCred ∗ (K (F := F)).freeSems0)
      ⊢ |={Set.univ}=> iprop(BI.own (EH (initOf (K (F := F)).hsCells (K (F := F)).hsToks)) ∗ (bigSep Finset.univ fun _ : Dev nD => iprop(emp))
          ∗ (bigSep Finset.univ fun thr : Thread nD τ => bigSep Finset.univ fun q : Fin 1 => (P fl m).x q thr) : sProp (MT nD τ sig (HIx 1) (Elt F) ℕ UU ℕ)) := by
  unfold u₀
  iintro ⟨Hu, Hcr, Hfree⟩
  ihave H := (ownU_split3 _ _) $$ Hu
  icases H with ⟨HH, HB⟩
  ihave Hs := (sems_bar (F := F)) $$ Hfree
  imod (fund_bar fl) $$ [Hs HB] with ⟨%κ, Hinv, Hr, Hat, Htok⟩
  · isplitl [Hs]; · iexact Hs
    iexact HB
  ihave Hcr' := (creds_bar fl m) $$ Hcr
  imodintro
  isplitl [HH]; · iexact HH
  isplitr; · rw [bigSep_emp']; iempintro
  iapply (deal_all fl m κ)
  isplitl [Hinv Hr]
  · isplitl [Hinv]; · iexact Hinv
    iexact Hr
  isplitl [Hat]; · iexact Hat
  isplitl [Htok]; · iexact Htok
  iexact Hcr'

end Cert.Proof.BcastI

end
-- ==== Proof.RunI.lean ====
/-
  The program's run, and what the result holds.

  Every weakly fair execution of the TensorCore's @main beside the two sequencers and thirty-two vector subcores
  ends, nothing faulting, with the arguments as they were and the result equal to the last reshape of an output whose
  every row is the flattened table: entry (b, p, e) of the result is entry (p, e) of the table.
-/
import proofs.«213620_g48704929136794_cont_8to1c4_761_22_alg».proof.Proof.LaunchI
import proofs.«213620_g48704929136794_cont_8to1c4_761_22_alg».proof.Proof.MainI
import proofs.«213620_g48704929136794_cont_8to1c4_761_22_alg».proof.Proof.ElemI

noncomputable section

namespace Cert.Proof.BcastI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "fV" => (Memref.whole Cert.KernelIdeal.main_v0_scv : Memref Cert.KernelIdeal.sig Kind.scVector Space.hbm Cert.KernelIdeal.S12800 EltTy.f32)
local notation "oV" => (Memref.whole Cert.KernelIdeal.main_v1_scv : Memref Cert.KernelIdeal.sig Kind.scVector Space.hbm Cert.KernelIdeal.S4096x12800 EltTy.f32)
local notation "bV" => (Memref.whole Cert.KernelIdeal.cc0_scratch0 : Memref Cert.KernelIdeal.sig Kind.scVector Space.vmem Cert.KernelIdeal.S2x12800 EltTy.f32)
local notation "shV" => (Memref.whole Cert.KernelIdeal.cc0_scratch1 : Memref Cert.KernelIdeal.sig Kind.scVector Space.shared Cert.KernelIdeal.S16x12800 EltTy.f32)

variable (m : (ℓ : Loc nD τ sig) → Buf (Elt F) ℓ) (ρ : Dev nD → PrngReg)
variable [FloatOps F]

theorem run_main [∀ e, Nonempty (Elt F e)] : θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (flOf m) m) facts v₀
    (fun q hq => match q with | 0 => nomatch hq)
    (fun q _ => match q with | 0 => tileObl (flOf m) m facts)
    (fun q _ => match q with | 0 => vecSplit (flOf m) m)
    m ρ main (fun _ => iprop(emp)) (FIN m) (u₀ (F := F)) (hu₀ (flOf m) m) (hmain m ρ) (fq m) (hfin m) (QC m) (fun _ h => h)

/-- The flattened table is the table read in row-major order. -/
theorem flOf_eq (d : Dev nD) : flOf m d = shapeCast S12800 (m (a1Loc d)) shapeCasts_S200x64_S12800 :=
  StableHlo.reshape_result main_arg1 main_v0 rfl _ _ _ (V0 m d)

/-- The result is the table in every batch row. -/
theorem outOf_eq (d : Dev nD) : outOf m d = Cert.Spec.everyRow (m (a1Loc d)) := by
  have h1 : outOf m d = shapeCast S4096x200x64 (V1 m d v1') shapeCasts_S4096x12800_S4096x200x64 :=
    StableHlo.reshape_result main_v1 main_v2 rfl _ _ _ (V1 m d)
  rw [h1, V1_v1, tgt_eq, flOf_eq]
  exact reshape_rows _

end Cert.Proof.BcastI

end
-- ==== Proof.RefRun.lean ====
/-
  The reference program's @main as one straight line of host operations, with the two outlined functions it
  calls written out at their call sites over the buffers each call names, and the run of that line: every
  weakly fair execution ends, and each buffer then holds what the operations, applied in order to the launch
  contents, leave in it.
-/
import proofs.«213620_g48704929136794_cont_8to1c4_761_22_alg».proof.ReferenceIdeal
import proofs.«213620_g48704929136794_cont_8to1c4_761_22_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The twenty-eight operations, in order: five that build the positions (the iota 0..199 along the sequence
    axis, repeated over the batch), then the lookup function's twenty-three — the wrap of negative positions
    (a comparison with zero, the addition of 200, and the select of the called function), the in-range mask
    (two comparisons, their conjunction, its reduction over a unit axis), the gather of table rows, and the
    select between the gathered value and the fill. -/
abbrev ops : List (HloOp τ sig (Elt F)) :=
  [ nullary main_v0 (iotaInDim S200 32 0),
    unary main_v0 main_v1 (broadcastInDim S1x200 ![1] bcast_S200_S1x200_1 : (⟨S200, .i32⟩ : BufTy).Contents (Elt F) → (⟨S1x200, .i32⟩ : BufTy).Contents (Elt F)),
    reshape main_v1 main_v2 rfl shapeCasts_S1x200_S1x1x1x200,
    unary main_v2 main_v3 (broadcastInDim S4096x1x1x200 ![0, 1, 2, 3] bcast_S1x1x1x200_S4096x1x1x200_0_1_2_3 : (⟨S1x1x1x200, .i32⟩ : BufTy).Contents (Elt F) → (⟨S4096x1x1x200, .i32⟩ : BufTy).Contents (Elt F)),
    reshape main_v3 main_v4 rfl shapeCasts_S4096x1x1x200_S4096x200,
    TRef.nullary main_call0.c (constantI S_ 32 0#32),
    TRef.unary main_call0.c main_call0.v0 (broadcastInDim S4096x200 ![] bcast_S_S4096x200),
    TRef.binary (.of main_v4) main_call0.v0 main_call0.v1 (cmpi .slt),
    TRef.nullary main_call0.c_0 (constantI S_ 32 200#32),
    TRef.unary main_call0.c_0 main_call0.v2 (broadcastInDim S4096x200 ![] bcast_S_S4096x200),
    TRef.binary (.of main_v4) main_call0.v2 main_call0.v3 addi,
    TRef.ternary main_call0.v1 main_call0.v3 (.of main_v4) main_call0.call0.v0 select,
    TRef.unary main_call0.call0.v0 main_call0.v5 (broadcastInDim S4096x200x1 ![0, 1] bcast_S4096x200_S4096x200x1_0_1),
    TRef.nullary main_call0.c_1 (constantI S1 32 199#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg1) main_call0.v5 main_call0.v13 (fun x i => Host.gather gather_S200x64_S4096x200x1_S4096x200x64_2_0_n_n_0_2_164 x i),
    TRef.unary main_call0.v12 main_call0.v14 (broadcastInDim S4096x200x64 ![0, 1] bcast_S4096x200_S4096x200x64_0_1),
    TRef.nullary main_call0.cst (constant S_ .f32 0x7FC00000#32),
    TRef.unary main_call0.cst main_call0.v15 (broadcastInDim S4096x200x64 ![] bcast_S_S4096x200x64),
    TRef.ternary main_call0.v14 main_call0.v13 main_call0.v15 main_call0.v16 select ]

set_option maxRecDepth 1024 in
/-- @main is that straight line: with the two functions' definitions unfolded at their calls, both sides are
    one chain of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- From any memory with zero counters every weakly fair execution of @main ends, and each buffer then holds
    the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefTerm.lean ====
/-
  What the reference's operations compute, as one function of the table, and that function read at an index.
  The positions are the iota 0 … 199 along the sequence axis, repeated over the batch, so at (b, p) they hold
  the word of p. A word of a number below 200 is not negative, so the wrap of negative positions leaves it;
  it lies between 0 and 199, so the in-range mask is set everywhere and the clamp of the gather leaves it too.
  The gather then reads row p of the table, and the final select, its mask set, keeps the gathered value:
  entry (b, p, d) is the table's entry (p, d).
-/
import proofs.«213620_g48704929136794_cont_8to1c4_761_22_alg».proof.ReferenceIdeal
import proofs.«213620_g48704929136794_cont_8to1c4_761_22_alg».proof.Proof.Gen.ReferenceIdeal
import proofs.«213620_g48704929136794_cont_8to1c4_761_22_alg».proof.Proof.Spec
import Idealize.ShloMosaic.Lib.ValueIdx
import Idealize.ShloMosaic.Lib.Pipeline.Value
import Idealize.ShloMosaic.PureOps.Reduce

noncomputable section

namespace Cert.ReferenceIdeal.RefValue

open Cert.ReferenceIdeal Cert.ReferenceIdeal.Gen Idealize.ShloMosaic Idealize.ShloMosaic.ValueIdx

variable {F : FTy → Type} [FloatOps F]

/-! ## The operations' composed term -/

/-- The positions: 0 … 199 along the sequence axis, the same in every batch row. -/
def positions : IVec S4096x200 32 :=
  shapeCast S4096x200
    (broadcastInDim S4096x1x1x200 ![0, 1, 2, 3] bcast_S1x1x1x200_S4096x1x1x200_0_1_2_3
      (shapeCast S1x1x1x200 (broadcastInDim S1x200 ![1] bcast_S200_S1x200_1 (iotaInDim S200 32 0))
        shapeCasts_S1x200_S1x1x1x200))
    shapeCasts_S4096x1x1x200_S4096x200

/-- A negative position counts from the end: 200 is added to it. -/
def wrapped (p : IVec S4096x200 32) : IVec S4096x200 32 :=
  select (cmpi .slt p (broadcastInDim S4096x200 ![] bcast_S_S4096x200 (constantI S_ 32 0#32)))
    (addi p (broadcastInDim S4096x200 ![] bcast_S_S4096x200 (constantI S_ 32 200#32))) p

/-- The gather's start indices: the wrapped positions with a trailing unit axis. -/
def startIdx (p : IVec S4096x200 32) : IVec S4096x200x1 32 :=
  broadcastInDim S4096x200x1 ![0, 1] bcast_S4096x200_S4096x200x1_0_1 (wrapped p)

/-- Which start indices lie in 0 … 199: both comparisons, their conjunction taken over the unit axis. -/
def inRange (s : IVec S4096x200x1 32) : IVec S4096x200 1 :=
  Host.reduce IntOp.andi
    (andi (cmpi .sge s (broadcastInDim S4096x200x1 ![] bcast_S_S4096x200x1 (constantI S_ 32 0#32)))
      (cmpi .sle s (broadcastInDim S4096x200x1 ![0, 1, 2] bcast_S1x1x1_S4096x200x1_0_1_2
        (broadcastInDim S1x1x1 ![2] bcast_S1_S1x1x1_2 (constantI S1 32 199#32)))))
    (constantI S_ 1 1#1) reducesTo_S4096x200x1_S4096x200_d2 h_S_

/-- The gather's dimension numbers: axis 0 of the table is indexed and collapsed, a whole row of 64 is taken. -/
abbrev G : GatherDims S200x64 S4096x200x1 S4096x200x64 := gather_S200x64_S4096x200x1_S4096x200x64_2_0_n_n_0_2_164

/-- The lookup: table rows gathered at the start indices, the fill where a start index is out of range. -/
def lookup (tbl : FVec F S200x64 .f32) (p : IVec S4096x200 32) : FVec F S4096x200x64 .f32 :=
  select (broadcastInDim S4096x200x64 ![0, 1] bcast_S4096x200_S4096x200x64_0_1 (inRange (startIdx p)))
    (Host.gather G tbl (startIdx p))
    (broadcastInDim S4096x200x64 ![] bcast_S_S4096x200x64 (constant S_ .f32 0x7FC00000#32))

/-- The reference's result as a function of the table. -/
def out (tbl : FVec F S200x64 .f32) : FVec F S4096x200x64 .f32 := lookup tbl positions

/-! ## Words of numbers below 200 -/

/-- The word of a number below 200 reads, signed, as that number. -/
theorem toInt_word (n : Nat) (hn : n < 200) : (BitVec.ofNat 32 n).toInt = (n : Int) := by
  rw [BitVec.toInt_eq_toNat_cond, BitVec.toNat_ofNat]
  split <;> omega

/-- It is not below zero … -/
theorem slt_zero_word (n : Nat) (hn : n < 200) : IntOp.cmpi .slt (BitVec.ofNat 32 n) 0#32 = 0#1 := by
  have h : (BitVec.ofNat 32 n).slt 0#32 = false := by
    rw [BitVec.slt, toInt_word n hn, show (0#32 : BitVec 32).toInt = 0 from rfl]
    exact decide_eq_false (by omega)
  show BitVec.ofBool ((BitVec.ofNat 32 n).slt 0#32) = 0#1
  rw [h]; rfl

/-- … it is at least zero … -/
theorem sge_zero_word (n : Nat) (hn : n < 200) : IntOp.cmpi .sge (BitVec.ofNat 32 n) 0#32 = 1#1 := by
  have h : (0#32 : BitVec 32).sle (BitVec.ofNat 32 n) = true := by
    rw [BitVec.sle, toInt_word n hn, show (0#32 : BitVec 32).toInt = 0 from rfl]
    exact decide_eq_true (by omega)
  show BitVec.ofBool ((0#32 : BitVec 32).sle (BitVec.ofNat 32 n)) = 1#1
  rw [h]; rfl

/-- … and at most 199. -/
theorem sle_199_word (n : Nat) (hn : n < 200) : IntOp.cmpi .sle (BitVec.ofNat 32 n) 199#32 = 1#1 := by
  have h : (BitVec.ofNat 32 n).sle 199#32 = true := by
    rw [BitVec.sle, toInt_word n hn, show (199#32 : BitVec 32).toInt = 199 from rfl]
    exact decide_eq_true (by omega)
  show BitVec.ofBool ((BitVec.ofNat 32 n).sle 199#32) = 1#1
  rw [h]; rfl

/-! ## The stages at an index -/

/-- The positions at (b, p) are the word of p. -/
theorem positions_apply (b : Fin 4096) (p : Fin 200) : positions (ix2 b p) = BitVec.ofNat 32 p.val := by
  unfold positions
  refine (shapeCast_apply _ _ (ix2 b p) (ix4 b (0 : Fin 1) (0 : Fin 1) p) ?_).trans ?_
  · rw [Shape.rowMajor_val_four, Shape.rowMajor_val_two]
    show ((b.val * 1 + 0) * 1 + 0) * 200 + p.val = b.val * 200 + p.val
    omega
  refine (broadcastInDim_apply _ _ _ (ix4 b (0 : Fin 1) (0 : Fin 1) p) (ix4 (0 : Fin 1) (0 : Fin 1) (0 : Fin 1) p) ?_).trans ?_
  · intro a
    match a with
    | ⟨0, _⟩ => rfl
    | ⟨1, _⟩ => rfl
    | ⟨2, _⟩ => rfl
    | ⟨3, _⟩ => rfl
  refine (shapeCast_apply _ _ (ix4 (0 : Fin 1) (0 : Fin 1) (0 : Fin 1) p) (ix2 (0 : Fin 1) p) ?_).trans ?_
  · rw [Shape.rowMajor_val_four, Shape.rowMajor_val_two]
    show 0 * 200 + p.val = ((0 * 1 + 0) * 1 + 0) * 200 + p.val
    omega
  refine (broadcastInDim_apply _ _ _ (ix2 (0 : Fin 1) p) (ix1 p) ?_).trans ?_
  · intro a
    match a with
    | ⟨0, _⟩ => rfl
  rfl

/-- The wrap leaves the word of a number below 200. -/
theorem wrapped_apply (p : IVec S4096x200 32) (i : S4096x200.Idx) (n : Nat) (hn : n < 200)
    (hp : p i = BitVec.ofNat 32 n) : wrapped p i = BitVec.ofNat 32 n := by
  unfold wrapped
  rw [select_apply]
  show Scalar.select (IntOp.cmpi .slt (p i) 0#32) _ (p i) = _
  rw [hp, slt_zero_word n hn, select_zero]

/-- The start indices of the positions hold, at every index, the word of its sequence coordinate. -/
theorem startIdx_positions (i : S4096x200x1.Idx) : startIdx positions i = BitVec.ofNat 32 (i 1).val := by
  unfold startIdx
  refine (broadcastInDim_apply _ _ _ i (ix2 (i 0) (i 1)) ?_).trans ?_
  · intro a
    match a with
    | ⟨0, _⟩ => rfl
    | ⟨1, _⟩ => rfl
  exact wrapped_apply _ _ _ (i 1).isLt (positions_apply (i 0) (i 1))

/-- A conjunction of set bits, started from a set bit, is set. -/
theorem fold_andi_ones {ι : Type} [DecidableEq ι] (s : Finset ι) (f : ι → BitVec 1) (h : ∀ k, f k = 1#1) :
    s.fold IntOp.andi 1#1 f = 1#1 := by
  induction s using Finset.induction_on with
  | empty => rfl
  | insert a s ha ih => rw [Finset.fold_insert ha, ih, h a]; rfl

/-- The reduction drops the trailing unit axis. -/
theorem reduces_unit : S4096x200x1.Reduces [2] S4096x200 := by decide

/-- Both comparisons hold at every start index of the positions. -/
theorem bounds_positions (i : S4096x200x1.Idx) :
    andi (cmpi .sge (startIdx positions) (broadcastInDim S4096x200x1 ![] bcast_S_S4096x200x1 (constantI S_ 32 0#32)))
      (cmpi .sle (startIdx positions) (broadcastInDim S4096x200x1 ![0, 1, 2] bcast_S1x1x1_S4096x200x1_0_1_2
        (broadcastInDim S1x1x1 ![2] bcast_S1_S1x1x1_2 (constantI S1 32 199#32)))) i = 1#1 := by
  show IntOp.andi (IntOp.cmpi .sge (startIdx positions i) 0#32) (IntOp.cmpi .sle (startIdx positions i) 199#32) = 1#1
  rw [startIdx_positions, sge_zero_word (i 1).val (i 1).isLt, sle_199_word (i 1).val (i 1).isLt]
  rfl

/-- So every one of them is in range. -/
theorem inRange_positions (j : S4096x200.Idx) : inRange (startIdx positions) j = 1#1 := by
  unfold inRange
  rw [Host.reduce_eq_fold_single IntOp.andi _ _ reducesTo_S4096x200x1_S4096x200_d2 reduces_unit h_S_ j]
  exact fold_andi_ones _ _ (fun k => bounds_positions _)

/-- The row the gather reads for result index (b, q, d): its start index at (b, q, 0), read signed and clamped
    into 0 … 199 (axis 0 of the table is the indexed one, collapsed: no offset is added). -/
theorem gather_row (idx : IVec S4096x200x1 32) (b : Fin 4096) (q : Fin 200) (d : Fin 64) :
    (G.operandIdx (ix3 b q d) idx (0 : Fin 2)).val = min (idx (ix3 b q (0 : Fin 1))).toInt.toNat 199 := by
  show G.start (ix3 b q d) idx 0 + G.batchCoord (ix3 b q d) 0 + G.offCoord (ix3 b q d) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ G.startIndexMap from List.mem_singleton.mpr rfl)]
  have hsi : G.siIdx (ix3 b q d) ⟨List.idxOf (0 : Fin 2) G.startIndexMap,
      List.idxOf_lt_length_iff.2 (List.mem_singleton.mpr rfl)⟩ = ix3 b q (0 : Fin 1) := by
    funext c; refine Fin.ext ?_
    match c with
    | ⟨0, _⟩ => rfl
    | ⟨1, _⟩ => rfl
    | ⟨2, _⟩ => rfl
  rw [hsi]
  rfl

/-- The column it reads: the result's own last coordinate (axis 1 of the table is not indexed: its start is 0,
    and the result's offset axis runs over it). -/
theorem gather_col (idx : IVec S4096x200x1 32) (b : Fin 4096) (q : Fin 200) (d : Fin 64) :
    (G.operandIdx (ix3 b q d) idx (1 : Fin 2)).val = d.val := by
  show G.start (ix3 b q d) idx 1 + G.batchCoord (ix3 b q d) 1 + G.offCoord (ix3 b q d) 1 = _
  rw [GatherDims.batchCoord_eq_zero _ _ _ List.not_mem_nil]
  have h0 : G.start (ix3 b q d) idx (1 : Fin 2) = 0 := by
    unfold GatherDims.start
    rw [dif_neg (by decide)]
  rw [h0]
  simp only [Nat.add_zero, Nat.zero_add]
  rfl

/-- The gather at (b, q, d) reads the table at the row its start index names — read signed and clamped into
    0 … 199 — and column d. -/
theorem gather_apply {α : Type} (x : S200x64.Idx → α) (idx : IVec S4096x200x1 32) (b : Fin 4096) (q : Fin 200) (d : Fin 64)
    (r : Fin 200) (hr : min (idx (ix3 b q (0 : Fin 1))).toInt.toNat 199 = r.val) :
    Host.gather G x idx (ix3 b q d) = x (ix2 r d) := by
  unfold Host.gather
  congr 1
  funext a
  refine Fin.ext ?_
  match a with
  | ⟨0, _⟩ => exact (gather_row idx b q d).trans hr
  | ⟨1, _⟩ => exact gather_col idx b q d

/-! ## The result -/

/-- Entry (b, p, d) of the reference's result is the table's entry (p, d). -/
theorem out_apply (tbl : FVec F S200x64 .f32) (b : Fin 4096) (p : Fin 200) (d : Fin 64) :
    out tbl (ix3 b p d) = tbl (ix2 p d) := by
  unfold out lookup
  rw [select_apply]
  have hm : broadcastInDim S4096x200x64 ![0, 1] bcast_S4096x200_S4096x200x64_0_1 (inRange (startIdx positions)) (ix3 b p d) = 1#1 := by
    refine (broadcastInDim_apply _ _ _ (ix3 b p d) (ix2 b p) ?_).trans (inRange_positions _)
    intro a
    match a with
    | ⟨0, _⟩ => rfl
    | ⟨1, _⟩ => rfl
  rw [hm, select_one]
  have hs : startIdx positions (ix3 b p (0 : Fin 1)) = BitVec.ofNat 32 p.val := startIdx_positions (ix3 b p (0 : Fin 1))
  refine gather_apply tbl _ b p d p ?_
  rw [hs, toInt_word _ p.isLt, Int.toNat_natCast]
  have := p.isLt
  omega

/-- The reference's result is the table in every batch row. -/
theorem out_eq_everyRow (tbl : FVec F S200x64 .f32) : out tbl = Cert.Spec.everyRow tbl := by
  funext j
  obtain ⟨b, p, d, rfl⟩ : ∃ (b : Fin 4096) (p : Fin 200) (d : Fin 64), j = ix3 b p d := ⟨j 0, j 1, j 2, eq_ix3 j⟩
  exact (out_apply tbl b p d).trans (Cert.Spec.everyRow_apply tbl b p d).symm

end Cert.ReferenceIdeal.RefValue

end
-- ==== Proof.RefValue.lean ====
/-
  The reference's run, read: every weakly fair execution of @main ends with the result buffer holding the table
  in every batch row and with both argument arrays unchanged. The straight line is read in four stretches, each
  from ANY contents of the buffers: the first five operations leave the positions in their buffer; the next
  eight leave, in the start indices' buffer, the start indices of whatever the position buffer holds; the next
  ten leave the in-range mask of whatever the start indices' buffer holds; the last five leave in the result
  buffer the select, by that mask, between the table rows gathered at those start indices and the fill. None
  of them writes a buffer a later stretch reads from an earlier one, or an argument. Put together, the result
  buffer holds the composed function of the table, which is the table in every batch row index by index.
-/
import proofs.«213620_g48704929136794_cont_8to1c4_761_22_alg».proof.Proof.RefRun
import proofs.«213620_g48704929136794_cont_8to1c4_761_22_alg».proof.Proof.RefTerm
import Idealize.ShloMosaic.PureOps.Ideal
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The line in four stretches -/

/-- The positions: the iota along the sequence axis, repeated over the batch. -/
abbrev opsA : List (HloOp τ sig (Elt F)) :=
  [ nullary main_v0 (iotaInDim S200 32 0),
    unary main_v0 main_v1 (broadcastInDim S1x200 ![1] bcast_S200_S1x200_1 : (⟨S200, .i32⟩ : BufTy).Contents (Elt F) → (⟨S1x200, .i32⟩ : BufTy).Contents (Elt F)),
    reshape main_v1 main_v2 rfl shapeCasts_S1x200_S1x1x1x200,
    unary main_v2 main_v3 (broadcastInDim S4096x1x1x200 ![0, 1, 2, 3] bcast_S1x1x1x200_S4096x1x1x200_0_1_2_3 : (⟨S1x1x1x200, .i32⟩ : BufTy).Contents (Elt F) → (⟨S4096x1x1x200, .i32⟩ : BufTy).Contents (Elt F)),
    reshape main_v3 main_v4 rfl shapeCasts_S4096x1x1x200_S4096x200 ]

/-- The wrap of negative positions and the start indices. -/
abbrev opsB1 : List (HloOp τ sig (Elt F)) :=
  [ TRef.nullary main_call0.c (constantI S_ 32 0#32),
    TRef.unary main_call0.c main_call0.v0 (broadcastInDim S4096x200 ![] bcast_S_S4096x200),
    TRef.binary (.of main_v4) main_call0.v0 main_call0.v1 (cmpi .slt),
    TRef.nullary main_call0.c_0 (constantI S_ 32 200#32),
    TRef.unary main_call0.c_0 main_call0.v2 (broadcastInDim S4096x200 ![] bcast_S_S4096x200),
    TRef.binary (.of main_v4) main_call0.v2 main_call0.v3 addi,
    TRef.ternary main_call0.v1 main_call0.v3 (.of main_v4) main_call0.call0.v0 select,
    TRef.unary main_call0.call0.v0 main_call0.v5 (broadcastInDim S4096x200x1 ![0, 1] bcast_S4096x200_S4096x200x1_0_1) ]
/-- The in-range mask. -/
abbrev opsB2 : List (HloOp τ sig (Elt F)) :=
  [ TRef.nullary main_call0.c_1 (constantI S1 32 199#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_) ]
/-- The gather, and the select between the gathered rows and the fill. -/
abbrev opsB3 : List (HloOp τ sig (Elt F)) :=
  [ TRef.binary (.of main_arg1) main_call0.v5 main_call0.v13 (fun x i => Host.gather gather_S200x64_S4096x200x1_S4096x200x64_2_0_n_n_0_2_164 x i),
    TRef.unary main_call0.v12 main_call0.v14 (broadcastInDim S4096x200x64 ![0, 1] bcast_S4096x200_S4096x200x64_0_1),
    TRef.nullary main_call0.cst (constant S_ .f32 0x7FC00000#32),
    TRef.unary main_call0.cst main_call0.v15 (broadcastInDim S4096x200x64 ![] bcast_S_S4096x200x64),
    TRef.ternary main_call0.v14 main_call0.v13 main_call0.v15 main_call0.v16 select ]

/-- The line is the four stretches in order. -/
theorem ops_eq : (ops : List (HloOp τ sig (Elt F))) = opsA ++ (opsB1 ++ (opsB2 ++ opsB3)) := rfl

/-- So its fold is the stretches' folds, one after the other. -/
theorem after_split (V : Valuation τ sig (Elt F)) :
    after ops V = after opsB3 (after opsB2 (after opsB1 (after opsA V))) := by
  rw [ops_eq, after_append, after_append, after_append]

/-! ## Each stretch, from any contents -/

/-- The first stretch leaves the positions in their buffer … -/
theorem positions_after (V : Valuation τ sig (Elt F)) :
    after opsA V (main_v4 : DevRef τ sig) = positions := by
  unfold positions
  after_results_simp <;> rfl

/-- … and does not write the table's buffer. -/
theorem arg1_afterA (V : Valuation τ sig (Elt F)) :
    after opsA V (main_arg1 : DevRef τ sig) = V (main_arg1 : DevRef τ sig) := by
  after_results

/-- The second stretch leaves the start indices of the position buffer's contents in their buffer … -/
theorem start_after (W : Valuation τ sig (Elt F)) :
    after opsB1 W (main_call0_v5 : DevRef τ sig) = startIdx (W (main_v4 : DevRef τ sig)) := by
  unfold startIdx wrapped
  after_results_simp <;> rfl

/-- … and does not write the table's buffer. -/
theorem arg1_afterB1 (W : Valuation τ sig (Elt F)) :
    after opsB1 W (main_arg1 : DevRef τ sig) = W (main_arg1 : DevRef τ sig) := by
  after_results

attribute [local irreducible] Host.reduce in
/-- The third stretch leaves the in-range mask of the start-index buffer's contents in its buffer … -/
theorem mask_after (W : Valuation τ sig (Elt F)) :
    after opsB2 W (main_call0_v12 : DevRef τ sig) = inRange (W (main_call0_v5 : DevRef τ sig)) := by
  unfold inRange
  after_results_simp <;> rfl

/-- … and writes neither the start indices' buffer … -/
theorem start_afterB2 (W : Valuation τ sig (Elt F)) :
    after opsB2 W (main_call0_v5 : DevRef τ sig) = W (main_call0_v5 : DevRef τ sig) := by
  after_results

/-- … nor the table's. -/
theorem arg1_afterB2 (W : Valuation τ sig (Elt F)) :
    after opsB2 W (main_arg1 : DevRef τ sig) = W (main_arg1 : DevRef τ sig) := by
  after_results

attribute [local irreducible] Host.gather in
/-- The last stretch leaves in the result buffer the select, by the mask buffer's contents broadcast along the
    row, between the table rows gathered at the start-index buffer's contents and the fill. -/
theorem pick_after (W : Valuation τ sig (Elt F)) :
    after opsB3 W (main_v5 : DevRef τ sig)
      = select (broadcastInDim S4096x200x64 ![0, 1] bcast_S4096x200_S4096x200x64_0_1 (W (main_call0_v12 : DevRef τ sig)))
          (Host.gather G (W (main_arg1 : DevRef τ sig)) (W (main_call0_v5 : DevRef τ sig))) (broadcastInDim S4096x200x64 ![] bcast_S_S4096x200x64 (constant S_ .f32 0x7FC00000#32)) := by
  after_results_simp <;> rfl

/-! ## The whole line -/

/-- The line leaves the composed function of the table in the result buffer. -/
theorem after_out (V : Valuation τ sig (Elt F)) :
    after ops V (main_v5 : DevRef τ sig) = out (V (main_arg1 : DevRef τ sig)) := by
  rw [after_split, pick_after, mask_after, start_afterB2, arg1_afterB2, start_after, arg1_afterB1, positions_after,
    arg1_afterA]
  rfl

/-- No operation writes the first argument's buffer. -/
theorem after_arg0 (V : Valuation τ sig (Elt F)) :
    after ops V (main_arg0 : DevRef τ sig) = V (main_arg0 : DevRef τ sig) := by
  after_results

/-- No operation writes the table's buffer. -/
theorem after_arg1 (V : Valuation τ sig (Elt F)) :
    after ops V (main_arg1 : DevRef τ sig) = V (main_arg1 : DevRef τ sig) := by
  after_results

/-- From any memory with zero counters every weakly fair execution of the reference ends; the result holds the
    table in every batch row, and the two arguments are unchanged. -/
theorem run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v5) = Cert.Spec.everyRow (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run (Cert.ReferenceIdeal.defs (F := Ideal)) _ _).mono
    (fun _ h c => ⟨(h c main_v5).trans ((after_out _).trans (out_eq_everyRow _)),
      (h c main_arg0).trans (after_arg0 _),
      (h c main_arg1).trans (after_arg1 _)⟩)
    (run_main (F := Ideal) m g)

end Cert.ReferenceIdeal.RefValue

end
-- ==== Proof.lean ====
/-
  The kernel copies a 200 x 64 table into every one of 4096 batch rows; the reference gathers row p of the table at
  every position (b, p). Both results hold table entry (p, e) at (b, p, e): nothing is computed, so the two results
  are equal word for word and, read as extended reals, number for number, and the claim needs no property of the
  inputs beyond their being given.

  The kernel's side: the flattened table (12800 numbers) goes into both rows of each subcore's two-row buffer and into
  every row of each SparseCore's sixteen-row shared scratch; after the subcore barrier the scratch is sent to the
  output sixteen rows at a time and the buffer two rows at a time, the 1376 windows tiling the 4096 rows; the last
  reshape reads row b, column 64 p + e as entry (b, p, e). The reference's side: its positions are the iota 0..199
  in every batch row, in range, so the gather's wrap and fill never act and it returns table row p.
-/
import proofs.«213620_g48704929136794_cont_8to1c4_761_22_alg».proof.Defs
import proofs.«213620_g48704929136794_cont_8to1c4_761_22_alg».proof.Proof.Gen.Kernel
import proofs.«213620_g48704929136794_cont_8to1c4_761_22_alg».proof.Proof.Gen.Kernel.Skeleton
import proofs.«213620_g48704929136794_cont_8to1c4_761_22_alg».proof.Proof.Gen.KernelIdeal
import proofs.«213620_g48704929136794_cont_8to1c4_761_22_alg».proof.Proof.Gen.KernelIdeal.Skeleton
import proofs.«213620_g48704929136794_cont_8to1c4_761_22_alg».proof.Proof.Gen.ReferenceIdeal
import proofs.«213620_g48704929136794_cont_8to1c4_761_22_alg».proof.Proof.Gen.Pre_input_domain
import proofs.«213620_g48704929136794_cont_8to1c4_761_22_alg».proof.Proof.RunB
import proofs.«213620_g48704929136794_cont_8to1c4_761_22_alg».proof.Proof.RunI
import proofs.«213620_g48704929136794_cont_8to1c4_761_22_alg».proof.Proof.RefValue
import Idealize.ShloMosaic.Adequacy
import Idealize.ShloMosaic.Init

noncomputable section

namespace Cert.Proof

open Idealize.ShloMosaic Idealize.SL.Sem

/-- The word-level kernel runs to the end and leaves its arguments as they were. -/
theorem frame_k : Cert.frame_Kernel := fun m g _ =>
  (θ_run Cert.Kernel.defs _ _).mono (fun _ h c => ⟨(h c).2.1, (h c).2.2⟩) (Cert.Proof.BcastB.run_main (F := Bits) m g)

/-- So does the kernel read over the extended reals. -/
theorem frame_ki : Cert.frame_KernelIdeal := fun m g _ =>
  (θ_run Cert.KernelIdeal.defs _ _).mono (fun _ h c => ⟨(h c).2.1, (h c).2.2⟩) (Cert.Proof.BcastI.run_main (F := Ideal) m g)

/-- And the reference. -/
theorem frame_ri : Cert.frame_ReferenceIdeal := fun m g _ =>
  (θ_run Cert.ReferenceIdeal.defs _ _).mono (fun _ h c => ⟨(h c).2.1, (h c).2.2⟩) (Cert.ReferenceIdeal.RefValue.run m g)

/-- Both results are the table in every batch row. -/
theorem algebraic : Cert.algebraic_KernelIdeal_ReferenceIdeal := by
  intro m g m' g' _ hagree
  refine ⟨fun c => Cert.Spec.everyRow (m ((c.tc : Thread Cert.KernelIdeal.nD Cert.KernelIdeal.τ).loc Cert.KernelIdeal.main_arg1)), ?_, ?_⟩
  · exact (θ_run Cert.KernelIdeal.defs _ _).mono (fun _ h c => ⟨(h c).1.trans (Cert.Proof.BcastI.outOf_eq m c), (h c).2.1, (h c).2.2⟩)
      (Cert.Proof.BcastI.run_main (F := Ideal) m g)
  · exact (θ_run Cert.ReferenceIdeal.defs _ _).mono (fun _ h c => ⟨by rw [(h c).1, (hagree c).2], (h c).2.1, (h c).2.2⟩)
      (Cert.ReferenceIdeal.RefValue.run m' g')

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
